-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v414) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x160x160x160 : S_.BroadcastsInDim S1x160x160x160 (![] : Fin 0 → Fin S1x160x160x160.rank)
  reducesTo_S1x160x160x160_S_d0_1_2_3 : S1x160x160x160.ReducesTo [0, 1, 2, 3] S_
  bcast_S_S3x160x160x160 : S_.BroadcastsInDim S3x160x160x160 (![] : Fin 0 → Fin S3x160x160x160.rank)
  reducesTo_S3x160x160x160_S_d0_1_2_3 : S3x160x160x160.ReducesTo [0, 1, 2, 3] S_

variable [Facts]

def fn_part1 {F : FTy → Type} [FloatOps F] (main_arg4 : FVec F S3x160x160x160 .f32) (main_v13 : IVec S_ 1) (main_v16 : IVec S1x160x160x160 1) : IVec S_ 1 :=
  let main_c_5 : IVec S_ 1 := constantI S_ 1 1#1
  let main_v17 : IVec S_ 1 := (fun x v => Host.reduce IntOp.andi x v reducesTo_S1x160x160x160_S_d0_1_2_3 h_S_) main_v16 main_c_5
  let main_v18 : IVec S_ 1 := andi main_v13 main_v17
  let main_v19 : FVec F S3x160x160x160 .f32 := Host.absf main_arg4
  let main_cst_6 : FVec F S_ .f32 := constant S_ .f32 0x7F800000#32
  let main_v20 : FVec F S3x160x160x160 .f32 := broadcastInDim S3x160x160x160 ![] bcast_S_S3x160x160x160 main_cst_6
  let main_v21 : IVec S3x160x160x160 1 := cmpf .olt main_v19 main_v20
  let main_c_7 : IVec S_ 1 := constantI S_ 1 1#1
  let main_v22 : IVec S_ 1 := (fun x v => Host.reduce IntOp.andi x v reducesTo_S3x160x160x160_S_d0_1_2_3 h_S_) main_v21 main_c_7
  let main_v23 : IVec S_ 1 := andi main_v18 main_v22
  main_v23

def fn {F : FTy → Type} [FloatOps F] (main_arg0 : FVec F S16384x3 .f32) (main_arg1 : FVec F S16384x3 .f32) (main_arg2 : FVec F S16384x256 .f32) (main_arg3 : FVec F S1x160x160x160 .f32) (main_arg4 : FVec F S3x160x160x160 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S1x160x160x160 .f32 := Host.absf main_arg3
  let main_cst_4 : FVec F S_ .f32 := constant S_ .f32 0x7F800000#32
  let main_v15 : FVec F S1x160x160x160 .f32 := broadcastInDim S1x160x160x160 ![] bcast_S_S1x160x160x160 main_cst_4
  let main_v16 : IVec S1x160x160x160 1 := cmpf .olt main_v14 main_v15
  fn_part1 (F := F) main_arg4 main_v13 main_v16
-- ==== Kernel.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S3 : Shape := ⟨1, ![3]⟩
abbrev S16384x1x3 : Shape := ⟨3, ![16384, 1, 3]⟩
abbrev S16384x256x1 : Shape := ⟨3, ![16384, 256, 1]⟩
abbrev S16384x256x3 : Shape := ⟨3, ![16384, 256, 3]⟩
abbrev S4194304x3 : Shape := ⟨2, ![4194304, 3]⟩
abbrev S_ : Shape := ⟨0, ![]⟩
abbrev S16384 : Shape := ⟨1, ![16384]⟩
abbrev S16384x1 : Shape := ⟨2, ![16384, 1]⟩
abbrev S1x4194304 : Shape := ⟨2, ![1, 4194304]⟩
abbrev S1x3 : Shape := ⟨2, ![1, 3]⟩
abbrev S4194304x1 : Shape := ⟨2, ![4194304, 1]⟩
abbrev S4194304 : Shape := ⟨1, ![4194304]⟩
abbrev S4x160x160x160 : Shape := ⟨4, ![4, 160, 160, 160]⟩
abbrev S4x4096000 : Shape := ⟨2, ![4, 4096000]⟩
abbrev S4096000x4 : Shape := ⟨2, ![4096000, 4]⟩
abbrev S1 : Shape := ⟨1, ![1]⟩
abbrev S1x1 : Shape := ⟨2, ![1, 1]⟩
abbrev S4194304x4 : Shape := ⟨2, ![4194304, 4]⟩
abbrev S4x4194304 : Shape := ⟨2, ![4, 4194304]⟩
abbrev S4x1x4194304 : Shape := ⟨3, ![4, 1, 4194304]⟩
abbrev S4x8x4194304 : Shape := ⟨3, ![4, 8, 4194304]⟩
abbrev S3x4194304 : Shape := ⟨2, ![3, 4194304]⟩
abbrev S4x8x32768 : Shape := ⟨3, ![4, 8, 32768]⟩
abbrev S3x32768 : Shape := ⟨2, ![3, 32768]⟩
abbrev S1x32768 : Shape := ⟨2, ![1, 32768]⟩
abbrev S4x32768 : Shape := ⟨2, ![4, 32768]⟩
abbrev S8x32768 : Shape := ⟨2, ![8, 32768]⟩
abbrev S1x8x32768 : Shape := ⟨3, ![1, 8, 32768]⟩

abbrev nBuf : Space → Nat
  | .hbm => 339
  | .vmem => 8
  | .smem => 0
  | _ => 0

abbrev hbmTy0_0 (i : Nat) : BufTy := match i % 128 with
  | 0 => ⟨S16384x3, .f32⟩
  | 1 => ⟨S16384x3, .f32⟩
  | 2 => ⟨S16384x256, .f32⟩
  | 3 => ⟨S1x160x160x160, .f32⟩
  | 4 => ⟨S3x160x160x160, .f32⟩
  | 5 => ⟨S3, .f32⟩
  | 6 => ⟨S3, .i32⟩
  | 7 => ⟨S16384x1x3, .f32⟩
  | 8 => ⟨S16384x1x3, .f32⟩
  | 9 => ⟨S16384x256x1, .f32⟩
  | 10 => ⟨S16384x256x3, .f32⟩
  | 11 => ⟨S16384x256x3, .f32⟩
  | 12 => ⟨S16384x256x3, .f32⟩
  | 13 => ⟨S16384x256x3, .f32⟩
  | 14 => ⟨S16384x256x3, .f32⟩
  | 15 => ⟨S4194304x3, .f32⟩
  | 16 => ⟨S16384x3, .f32⟩
  | 17 => ⟨S_, .f32⟩
  | 18 => ⟨S16384, .f32⟩
  | 19 => ⟨S16384, .f32⟩
  | 20 => ⟨S16384x1, .f32⟩
  | 21 => ⟨S16384x256, .f32⟩
  | 22 => ⟨S1x4194304, .f32⟩
  | 23 => ⟨S_, .f32⟩
  | 24 => ⟨S4194304x3, .f32⟩
  | 25 => ⟨S4194304x3, .f32⟩
  | 26 => ⟨S_, .f32⟩
  | 27 => ⟨S4194304x3, .f32⟩
  | 28 => ⟨S4194304x3, .f32⟩
  | 29 => ⟨S_, .f32⟩
  | 30 => ⟨S3, .f32⟩
  | 31 => ⟨S3, .f32⟩
  | 32 => ⟨S1x3, .f32⟩
  | 33 => ⟨S4194304x3, .f32⟩
  | 34 => ⟨S4194304x3, .f32⟩
  | 35 => ⟨S4194304x3, .f32⟩
  | 36 => ⟨S4194304x3, .f32⟩
  | 37 => ⟨S4194304x3, .i32⟩
  | 38 => ⟨S_, .i32⟩
  | 39 => ⟨S_, .i32⟩
  | 40 => ⟨S4194304x3, .i32⟩
  | 41 => ⟨S4194304x3, .i32⟩
  | 42 => ⟨S1x3, .i32⟩
  | 43 => ⟨S4194304x3, .i32⟩
  | 44 => ⟨S4194304x3, .i32⟩
  | 45 => ⟨S_, .i32⟩
  | 46 => ⟨S4194304x3, .i32⟩
  | 47 => ⟨S4194304x3, .i32⟩
  | 48 => ⟨S1x3, .i32⟩
  | 49 => ⟨S4194304x3, .i32⟩
  | 50 => ⟨S4194304x3, .i32⟩
  | 51 => ⟨S4194304x1, .i32⟩
  | 52 => ⟨S4194304, .i32⟩
  | 53 => ⟨S4194304x1, .i32⟩
  | 54 => ⟨S4194304, .i32⟩
  | 55 => ⟨S4194304x1, .i32⟩
  | 56 => ⟨S4194304, .i32⟩
  | 57 => ⟨S4194304x1, .i32⟩
  | 58 => ⟨S4194304, .i32⟩
  | 59 => ⟨S4194304x1, .i32⟩
  | 60 => ⟨S4194304, .i32⟩
  | 61 => ⟨S4194304x1, .i32⟩
  | 62 => ⟨S4194304, .i32⟩
  | 63 => ⟨S4x160x160x160, .f32⟩
  | 64 => ⟨S4x4096000, .f32⟩
  | 65 => ⟨S4096000x4, .f32⟩
  | 66 => ⟨S_, .i32⟩
  | 67 => ⟨S4194304, .i32⟩
  | 68 => ⟨S4194304, .i32⟩
  | 69 => ⟨S4194304, .i32⟩
  | 70 => ⟨S_, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S4194304x1, .i32⟩
  | 82 => ⟨S1, .i32⟩
  | 83 => ⟨S_, .i32⟩
  | 84 => ⟨S4194304x1, .i32⟩
  | 85 => ⟨S4194304x1, .i1⟩
  | 86 => ⟨S1x1, .i32⟩
  | 87 => ⟨S4194304x1, .i32⟩
  | 88 => ⟨S4194304x1, .i1⟩
  | 89 => ⟨S4194304x1, .i1⟩
  | 90 => ⟨S_, .i1⟩
  | 91 => ⟨S4194304, .i1⟩
  | 92 => ⟨S4194304x4, .f32⟩
  | 93 => ⟨S4194304x4, .i1⟩
  | 94 => ⟨S_, .f32⟩
  | 95 => ⟨S4194304x4, .f32⟩
  | 96 => ⟨S4194304x4, .f32⟩
  | 97 => ⟨S4x4194304, .f32⟩
  | 98 => ⟨S_, .i32⟩
  | 99 => ⟨S4194304, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S4194304, .i32⟩
  | 106 => ⟨S_, .i32⟩
  | 107 => ⟨S4194304, .i32⟩
  | 108 => ⟨S4194304, .i1⟩
  | 109 => ⟨S_, .i32⟩
  | 110 => ⟨S4194304, .i32⟩
  | 111 => ⟨S4194304, .i32⟩
  | 112 => ⟨S4194304, .i32⟩
  | 113 => ⟨S4194304x1, .i32⟩
  | 114 => ⟨S1, .i32⟩
  | 115 => ⟨S_, .i32⟩
  | 116 => ⟨S4194304x1, .i32⟩
  | 117 => ⟨S4194304x1, .i1⟩
  | 118 => ⟨S1x1, .i32⟩
  | 119 => ⟨S4194304x1, .i32⟩
  | 120 => ⟨S4194304x1, .i1⟩
  | 121 => ⟨S4194304x1, .i1⟩
  | 122 => ⟨S_, .i1⟩
  | 123 => ⟨S4194304, .i1⟩
  | 124 => ⟨S4194304x4, .f32⟩
  | 125 => ⟨S4194304x4, .i1⟩
  | 126 => ⟨S_, .f32⟩
  | 127 => ⟨S4194304x4, .f32⟩
  | _ => ⟨S16384x3, .f32⟩

abbrev hbmTy0_1 (i : Nat) : BufTy := match i % 128 with
  | 0 => ⟨S4194304x4, .f32⟩
  | 1 => ⟨S4x4194304, .f32⟩
  | 2 => ⟨S_, .i32⟩
  | 3 => ⟨S4194304, .i32⟩
  | 4 => ⟨S4194304, .i32⟩
  | 5 => ⟨S4194304, .i32⟩
  | 6 => ⟨S_, .i32⟩
  | 7 => ⟨S4194304, .i32⟩
  | 8 => ⟨S4194304, .i32⟩
  | 9 => ⟨S4194304, .i32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S4194304x1, .i32⟩
  | 18 => ⟨S1, .i32⟩
  | 19 => ⟨S_, .i32⟩
  | 20 => ⟨S4194304x1, .i32⟩
  | 21 => ⟨S4194304x1, .i1⟩
  | 22 => ⟨S1x1, .i32⟩
  | 23 => ⟨S4194304x1, .i32⟩
  | 24 => ⟨S4194304x1, .i1⟩
  | 25 => ⟨S4194304x1, .i1⟩
  | 26 => ⟨S_, .i1⟩
  | 27 => ⟨S4194304, .i1⟩
  | 28 => ⟨S4194304x4, .f32⟩
  | 29 => ⟨S4194304x4, .i1⟩
  | 30 => ⟨S_, .f32⟩
  | 31 => ⟨S4194304x4, .f32⟩
  | 32 => ⟨S4194304x4, .f32⟩
  | 33 => ⟨S4x4194304, .f32⟩
  | 34 => ⟨S_, .i32⟩
  | 35 => ⟨S4194304, .i32⟩
  | 36 => ⟨S4194304, .i32⟩
  | 37 => ⟨S4194304, .i32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S1, .i32⟩
  | 51 => ⟨S_, .i32⟩
  | 52 => ⟨S4194304x1, .i32⟩
  | 53 => ⟨S4194304x1, .i1⟩
  | 54 => ⟨S1x1, .i32⟩
  | 55 => ⟨S4194304x1, .i32⟩
  | 56 => ⟨S4194304x1, .i1⟩
  | 57 => ⟨S4194304x1, .i1⟩
  | 58 => ⟨S_, .i1⟩
  | 59 => ⟨S4194304, .i1⟩
  | 60 => ⟨S4194304x4, .f32⟩
  | 61 => ⟨S4194304x4, .i1⟩
  | 62 => ⟨S_, .f32⟩
  | 63 => ⟨S4194304x4, .f32⟩
  | 64 => ⟨S4194304x4, .f32⟩
  | 65 => ⟨S4x4194304, .f32⟩
  | 66 => ⟨S_, .i32⟩
  | 67 => ⟨S4194304, .i32⟩
  | 68 => ⟨S4194304, .i32⟩
  | 69 => ⟨S4194304, .i32⟩
  | 70 => ⟨S_, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S4194304x1, .i32⟩
  | 82 => ⟨S1, .i32⟩
  | 83 => ⟨S_, .i32⟩
  | 84 => ⟨S4194304x1, .i32⟩
  | 85 => ⟨S4194304x1, .i1⟩
  | 86 => ⟨S1x1, .i32⟩
  | 87 => ⟨S4194304x1, .i32⟩
  | 88 => ⟨S4194304x1, .i1⟩
  | 89 => ⟨S4194304x1, .i1⟩
  | 90 => ⟨S_, .i1⟩
  | 91 => ⟨S4194304, .i1⟩
  | 92 => ⟨S4194304x4, .f32⟩
  | 93 => ⟨S4194304x4, .i1⟩
  | 94 => ⟨S_, .f32⟩
  | 95 => ⟨S4194304x4, .f32⟩
  | 96 => ⟨S4194304x4, .f32⟩
  | 97 => ⟨S4x4194304, .f32⟩
  | 98 => ⟨S_, .i32⟩
  | 99 => ⟨S4194304, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S4194304, .i32⟩
  | 106 => ⟨S_, .i32⟩
  | 107 => ⟨S4194304, .i32⟩
  | 108 => ⟨S4194304, .i1⟩
  | 109 => ⟨S_, .i32⟩
  | 110 => ⟨S4194304, .i32⟩
  | 111 => ⟨S4194304, .i32⟩
  | 112 => ⟨S4194304, .i32⟩
  | 113 => ⟨S4194304x1, .i32⟩
  | 114 => ⟨S1, .i32⟩
  | 115 => ⟨S_, .i32⟩
  | 116 => ⟨S4194304x1, .i32⟩
  | 117 => ⟨S4194304x1, .i1⟩
  | 118 => ⟨S1x1, .i32⟩
  | 119 => ⟨S4194304x1, .i32⟩
  | 120 => ⟨S4194304x1, .i1⟩
  | 121 => ⟨S4194304x1, .i1⟩
  | 122 => ⟨S_, .i1⟩
  | 123 => ⟨S4194304, .i1⟩
  | 124 => ⟨S4194304x4, .f32⟩
  | 125 => ⟨S4194304x4, .i1⟩
  | 126 => ⟨S_, .f32⟩
  | 127 => ⟨S4194304x4, .f32⟩
  | _ => ⟨S16384x3, .f32⟩

abbrev hbmTy0_2 (i : Nat) : BufTy := match i % 128 with
  | 0 => ⟨S4194304x4, .f32⟩
  | 1 => ⟨S4x4194304, .f32⟩
  | 2 => ⟨S_, .i32⟩
  | 3 => ⟨S4194304, .i32⟩
  | 4 => ⟨S4194304, .i32⟩
  | 5 => ⟨S4194304, .i32⟩
  | 6 => ⟨S_, .i32⟩
  | 7 => ⟨S4194304, .i32⟩
  | 8 => ⟨S4194304, .i32⟩
  | 9 => ⟨S4194304, .i32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S4194304x1, .i32⟩
  | 18 => ⟨S1, .i32⟩
  | 19 => ⟨S_, .i32⟩
  | 20 => ⟨S4194304x1, .i32⟩
  | 21 => ⟨S4194304x1, .i1⟩
  | 22 => ⟨S1x1, .i32⟩
  | 23 => ⟨S4194304x1, .i32⟩
  | 24 => ⟨S4194304x1, .i1⟩
  | 25 => ⟨S4194304x1, .i1⟩
  | 26 => ⟨S_, .i1⟩
  | 27 => ⟨S4194304, .i1⟩
  | 28 => ⟨S4194304x4, .f32⟩
  | 29 => ⟨S4194304x4, .i1⟩
  | 30 => ⟨S_, .f32⟩
  | 31 => ⟨S4194304x4, .f32⟩
  | 32 => ⟨S4194304x4, .f32⟩
  | 33 => ⟨S4x4194304, .f32⟩
  | 34 => ⟨S_, .i32⟩
  | 35 => ⟨S4194304, .i32⟩
  | 36 => ⟨S4194304, .i32⟩
  | 37 => ⟨S4194304, .i32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S1, .i32⟩
  | 51 => ⟨S_, .i32⟩
  | 52 => ⟨S4194304x1, .i32⟩
  | 53 => ⟨S4194304x1, .i1⟩
  | 54 => ⟨S1x1, .i32⟩
  | 55 => ⟨S4194304x1, .i32⟩
  | 56 => ⟨S4194304x1, .i1⟩
  | 57 => ⟨S4194304x1, .i1⟩
  | 58 => ⟨S_, .i1⟩
  | 59 => ⟨S4194304, .i1⟩
  | 60 => ⟨S4194304x4, .f32⟩
  | 61 => ⟨S4194304x4, .i1⟩
  | 62 => ⟨S_, .f32⟩
  | 63 => ⟨S4194304x4, .f32⟩
  | 64 => ⟨S4194304x4, .f32⟩
  | 65 => ⟨S4x4194304, .f32⟩
  | 66 => ⟨S4x1x4194304, .f32⟩
  | 67 => ⟨S4x1x4194304, .f32⟩
  | 68 => ⟨S4x1x4194304, .f32⟩
  | 69 => ⟨S4x1x4194304, .f32⟩
  | 70 => ⟨S4x1x4194304, .f32⟩
  | 71 => ⟨S4x1x4194304, .f32⟩
  | 72 => ⟨S4x1x4194304, .f32⟩
  | 73 => ⟨S4x1x4194304, .f32⟩
  | 74 => ⟨S4x8x4194304, .f32⟩
  | 75 => ⟨S3x4194304, .f32⟩
  | 76 => ⟨S4x4194304, .f32⟩
  | 77 => ⟨S1x4194304, .f32⟩
  | 78 => ⟨S4194304, .f32⟩
  | 79 => ⟨S16384x256x1, .f32⟩
  | 80 => ⟨S3x4194304, .f32⟩
  | 81 => ⟨S4194304x3, .f32⟩
  | 82 => ⟨S16384x256x3, .f32⟩
  | _ => ⟨S16384x3, .f32⟩

abbrev hbmTy (i : Nat) : BufTy := match i / 128 with
  | 0 => hbmTy0_0 i
  | 1 => hbmTy0_1 i
  | 2 => hbmTy0_2 i
  | _ => ⟨S16384x3, .f32⟩

abbrev bufTy : (tb : Table) → Fin (tcTables nBuf tb) → BufTy
  | .hbm, ⟨i, _⟩ => hbmTy i
  | .local _ .vmem, ⟨0, _⟩ => ⟨S4x8x32768, .f32⟩
  | .local _ .vmem, ⟨1, _⟩ => ⟨S4x8x32768, .f32⟩
  | .local _ .vmem, ⟨2, _⟩ => ⟨S3x32768, .f32⟩
  | .local _ .vmem, ⟨3, _⟩ => ⟨S3x32768, .f32⟩
  | .local _ .vmem, ⟨4, _⟩ => ⟨S1x32768, .f32⟩
  | .local _ .vmem, ⟨5, _⟩ => ⟨S1x32768, .f32⟩
  | .local _ .vmem, ⟨6, _⟩ => ⟨S4x32768, .f32⟩
  | .local _ .vmem, ⟨7, _⟩ => ⟨S4x32768, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v52 : Ref sig .tc := ⟨.hbm, 96, rfl⟩
abbrev main_v53 : Ref sig .tc := ⟨.hbm, 97, rfl⟩
abbrev main_c_7 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_8 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v60 : Ref sig .tc := ⟨.hbm, 128, rfl⟩
abbrev main_v61 : Ref sig .tc := ⟨.hbm, 129, rfl⟩
abbrev main_c_9 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_c_10 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v68 : Ref sig .tc := ⟨.hbm, 160, rfl⟩
abbrev main_v69 : Ref sig .tc := ⟨.hbm, 161, rfl⟩
abbrev main_c_11 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_c_12 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_call5_c : Ref sig .tc := ⟨.hbm, 170, rfl⟩
abbrev main_call5_v0 : Ref sig .tc := ⟨.hbm, 171, rfl⟩
abbrev main_call5_v1 : Ref sig .tc := ⟨.hbm, 172, rfl⟩
abbrev main_call5_c_0 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_c_1 : Ref sig .tc := ⟨.hbm, 178, rfl⟩
abbrev main_call5_c_2 : Ref sig .tc := ⟨.hbm, 179, rfl⟩
abbrev main_call5_v6 : Ref sig .tc := ⟨.hbm, 180, rfl⟩
abbrev main_call5_v7 : Ref sig .tc := ⟨.hbm, 181, rfl⟩
abbrev main_call5_v8 : Ref sig .tc := ⟨.hbm, 182, rfl⟩
abbrev main_call5_v9 : Ref sig .tc := ⟨.hbm, 183, rfl⟩
abbrev main_call5_v10 : Ref sig .tc := ⟨.hbm, 184, rfl⟩
abbrev main_call5_v11 : Ref sig .tc := ⟨.hbm, 185, rfl⟩
abbrev main_call5_c_3 : Ref sig .tc := ⟨.hbm, 186, rfl⟩
abbrev main_call5_v12 : Ref sig .tc := ⟨.hbm, 187, rfl⟩
abbrev main_call5_v13 : Ref sig .tc := ⟨.hbm, 188, rfl⟩
abbrev main_call5_v14 : Ref sig .tc := ⟨.hbm, 189, rfl⟩
abbrev main_call5_cst : Ref sig .tc := ⟨.hbm, 190, rfl⟩
abbrev main_call5_v15 : Ref sig .tc := ⟨.hbm, 191, rfl⟩
abbrev main_v76 : Ref sig .tc := ⟨.hbm, 192, rfl⟩
abbrev main_v77 : Ref sig .tc := ⟨.hbm, 193, rfl⟩
abbrev main_c_13 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_c_14 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_call6_c : Ref sig .tc := ⟨.hbm, 202, rfl⟩
abbrev main_call6_v0 : Ref sig .tc := ⟨.hbm, 203, rfl⟩
abbrev main_call6_v1 : Ref sig .tc := ⟨.hbm, 204, rfl⟩
abbrev main_call6_c_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_c_1 : Ref sig .tc := ⟨.hbm, 210, rfl⟩
abbrev main_call6_c_2 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_c_3 : Ref sig .tc := ⟨.hbm, 218, rfl⟩
abbrev main_call6_v12 : Ref sig .tc := ⟨.hbm, 219, rfl⟩
abbrev main_call6_v13 : Ref sig .tc := ⟨.hbm, 220, rfl⟩
abbrev main_call6_v14 : Ref sig .tc := ⟨.hbm, 221, rfl⟩
abbrev main_call6_cst : Ref sig .tc := ⟨.hbm, 222, rfl⟩
abbrev main_call6_v15 : Ref sig .tc := ⟨.hbm, 223, rfl⟩
abbrev main_v84 : Ref sig .tc := ⟨.hbm, 224, rfl⟩
abbrev main_v85 : Ref sig .tc := ⟨.hbm, 225, rfl⟩
abbrev main_c_15 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_c_16 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_call7_c : Ref sig .tc := ⟨.hbm, 234, rfl⟩
abbrev main_call7_v0 : Ref sig .tc := ⟨.hbm, 235, rfl⟩
abbrev main_call7_v1 : Ref sig .tc := ⟨.hbm, 236, rfl⟩
abbrev main_call7_c_0 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_call7_v5 : Ref sig .tc := ⟨.hbm, 241, rfl⟩
abbrev main_call7_c_1 : Ref sig .tc := ⟨.hbm, 242, rfl⟩
abbrev main_call7_c_2 : Ref sig .tc := ⟨.hbm, 243, rfl⟩
abbrev main_call7_v6 : Ref sig .tc := ⟨.hbm, 244, rfl⟩
abbrev main_call7_v7 : Ref sig .tc := ⟨.hbm, 245, rfl⟩
abbrev main_call7_v8 : Ref sig .tc := ⟨.hbm, 246, rfl⟩
abbrev main_call7_v9 : Ref sig .tc := ⟨.hbm, 247, rfl⟩
abbrev main_call7_v10 : Ref sig .tc := ⟨.hbm, 248, rfl⟩
abbrev main_call7_v11 : Ref sig .tc := ⟨.hbm, 249, rfl⟩
abbrev main_call7_c_3 : Ref sig .tc := ⟨.hbm, 250, rfl⟩
abbrev main_call7_v12 : Ref sig .tc := ⟨.hbm, 251, rfl⟩
abbrev main_call7_v13 : Ref sig .tc := ⟨.hbm, 252, rfl⟩
abbrev main_call7_v14 : Ref sig .tc := ⟨.hbm, 253, rfl⟩
abbrev main_call7_cst : Ref sig .tc := ⟨.hbm, 254, rfl⟩
abbrev main_call7_v15 : Ref sig .tc := ⟨.hbm, 255, rfl⟩
abbrev main_v92 : Ref sig .tc := ⟨.hbm, 256, rfl⟩
abbrev main_v93 : Ref sig .tc := ⟨.hbm, 257, rfl⟩
abbrev main_c_17 : Ref sig .tc := ⟨.hbm, 258, rfl⟩
abbrev main_v94 : Ref sig .tc := ⟨.hbm, 259, rfl⟩
abbrev main_v95 : Ref sig .tc := ⟨.hbm, 260, rfl⟩
abbrev main_v96 : Ref sig .tc := ⟨.hbm, 261, rfl⟩
abbrev main_c_18 : Ref sig .tc := ⟨.hbm, 262, rfl⟩
abbrev main_v97 : Ref sig .tc := ⟨.hbm, 263, rfl⟩
abbrev main_v98 : Ref sig .tc := ⟨.hbm, 264, rfl⟩
abbrev main_v99 : Ref sig .tc := ⟨.hbm, 265, rfl⟩
abbrev main_call8_c : Ref sig .tc := ⟨.hbm, 266, rfl⟩
abbrev main_call8_v0 : Ref sig .tc := ⟨.hbm, 267, rfl⟩
abbrev main_call8_v1 : Ref sig .tc := ⟨.hbm, 268, rfl⟩
abbrev main_call8_c_0 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_c_1 : Ref sig .tc := ⟨.hbm, 274, rfl⟩
abbrev main_call8_c_2 : Ref sig .tc := ⟨.hbm, 275, rfl⟩
abbrev main_call8_v6 : Ref sig .tc := ⟨.hbm, 276, rfl⟩
abbrev main_call8_v7 : Ref sig .tc := ⟨.hbm, 277, rfl⟩
abbrev main_call8_v8 : Ref sig .tc := ⟨.hbm, 278, rfl⟩
abbrev main_call8_v9 : Ref sig .tc := ⟨.hbm, 279, rfl⟩
abbrev main_call8_v10 : Ref sig .tc := ⟨.hbm, 280, rfl⟩
abbrev main_call8_v11 : Ref sig .tc := ⟨.hbm, 281, rfl⟩
abbrev main_call8_c_3 : Ref sig .tc := ⟨.hbm, 282, rfl⟩
abbrev main_call8_v12 : Ref sig .tc := ⟨.hbm, 283, rfl⟩
abbrev main_call8_v13 : Ref sig .tc := ⟨.hbm, 284, rfl⟩
abbrev main_call8_v14 : Ref sig .tc := ⟨.hbm, 285, rfl⟩
abbrev main_call8_cst : Ref sig .tc := ⟨.hbm, 286, rfl⟩
abbrev main_call8_v15 : Ref sig .tc := ⟨.hbm, 287, rfl⟩
abbrev main_v100 : Ref sig .tc := ⟨.hbm, 288, rfl⟩
abbrev main_v101 : Ref sig .tc := ⟨.hbm, 289, rfl⟩
abbrev main_c_19 : Ref sig .tc := ⟨.hbm, 290, rfl⟩
abbrev main_v102 : Ref sig .tc := ⟨.hbm, 291, rfl⟩
abbrev main_v103 : Ref sig .tc := ⟨.hbm, 292, rfl⟩
abbrev main_v104 : Ref sig .tc := ⟨.hbm, 293, rfl⟩
abbrev main_c_20 : Ref sig .tc := ⟨.hbm, 294, rfl⟩
abbrev main_v105 : Ref sig .tc := ⟨.hbm, 295, rfl⟩
abbrev main_v106 : Ref sig .tc := ⟨.hbm, 296, rfl⟩
abbrev main_v107 : Ref sig .tc := ⟨.hbm, 297, rfl⟩
abbrev main_call9_c : Ref sig .tc := ⟨.hbm, 298, rfl⟩
abbrev main_call9_v0 : Ref sig .tc := ⟨.hbm, 299, rfl⟩
abbrev main_call9_v1 : Ref sig .tc := ⟨.hbm, 300, rfl⟩
abbrev main_call9_c_0 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_v5 : Ref sig .tc := ⟨.hbm, 305, rfl⟩
abbrev main_call9_c_1 : Ref sig .tc := ⟨.hbm, 306, rfl⟩
abbrev main_call9_c_2 : Ref sig .tc := ⟨.hbm, 307, rfl⟩
abbrev main_call9_v6 : Ref sig .tc := ⟨.hbm, 308, rfl⟩
abbrev main_call9_v7 : Ref sig .tc := ⟨.hbm, 309, rfl⟩
abbrev main_call9_v8 : Ref sig .tc := ⟨.hbm, 310, rfl⟩
abbrev main_call9_v9 : Ref sig .tc := ⟨.hbm, 311, rfl⟩
abbrev main_call9_v10 : Ref sig .tc := ⟨.hbm, 312, rfl⟩
abbrev main_call9_v11 : Ref sig .tc := ⟨.hbm, 313, rfl⟩
abbrev main_call9_c_3 : Ref sig .tc := ⟨.hbm, 314, rfl⟩
abbrev main_call9_v12 : Ref sig .tc := ⟨.hbm, 315, rfl⟩
abbrev main_call9_v13 : Ref sig .tc := ⟨.hbm, 316, rfl⟩
abbrev main_call9_v14 : Ref sig .tc := ⟨.hbm, 317, rfl⟩
abbrev main_call9_cst : Ref sig .tc := ⟨.hbm, 318, rfl⟩
abbrev main_call9_v15 : Ref sig .tc := ⟨.hbm, 319, rfl⟩
abbrev main_v108 : Ref sig .tc := ⟨.hbm, 320, rfl⟩
abbrev main_v109 : Ref sig .tc := ⟨.hbm, 321, rfl⟩
abbrev main_v110 : Ref sig .tc := ⟨.hbm, 322, rfl⟩
abbrev main_v111 : Ref sig .tc := ⟨.hbm, 323, rfl⟩
abbrev main_v112 : Ref sig .tc := ⟨.hbm, 324, rfl⟩
abbrev main_v113 : Ref sig .tc := ⟨.hbm, 325, rfl⟩
abbrev main_v114 : Ref sig .tc := ⟨.hbm, 326, rfl⟩
abbrev main_v115 : Ref sig .tc := ⟨.hbm, 327, rfl⟩
abbrev main_v116 : Ref sig .tc := ⟨.hbm, 328, rfl⟩
abbrev main_v117 : Ref sig .tc := ⟨.hbm, 329, rfl⟩
abbrev main_v118 : Ref sig .tc := ⟨.hbm, 330, rfl⟩
abbrev main_v119 : Ref sig .tc := ⟨.hbm, 331, rfl⟩
abbrev main_v120 : Ref sig .tc := ⟨.hbm, 332, rfl⟩
abbrev main_v121 : Ref sig .tc := ⟨.hbm, 333, rfl⟩
abbrev main_v122 : Ref sig .tc := ⟨.hbm, 334, rfl⟩
abbrev main_v123 : Ref sig .tc := ⟨.hbm, 335, rfl⟩
abbrev main_v124 : Ref sig .tc := ⟨.hbm, 336, rfl⟩
abbrev main_v125 : Ref sig .tc := ⟨.hbm, 337, rfl⟩
abbrev main_v126 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16384x3_S16384x1x3_0_2 : S16384x3.BroadcastsInDim S16384x1x3 (![0, 2] : Fin 2 → Fin S16384x1x3.rank)
  bcast_S16384x256_S16384x256x1_0_1 : S16384x256.BroadcastsInDim S16384x256x1 (![0, 1] : Fin 2 → Fin S16384x256x1.rank)
  bcast_S16384x1x3_S16384x256x3_0_1_2 : S16384x1x3.BroadcastsInDim S16384x256x3 (![0, 1, 2] : Fin 3 → Fin S16384x256x3.rank)
  bcast_S16384x256x1_S16384x256x3_0_1_2 : S16384x256x1.BroadcastsInDim S16384x256x3 (![0, 1, 2] : Fin 3 → Fin S16384x256x3.rank)
  shapeCasts_S16384x256x3_S4194304x3 : S16384x256x3.ShapeCasts S4194304x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  shapeCasts_S16384x256_S1x4194304 : S16384x256.ShapeCasts S1x4194304
  bcast_S_S4194304x3 : S_.BroadcastsInDim S4194304x3 (![] : Fin 0 → Fin S4194304x3.rank)
  bcast_S_S3 : S_.BroadcastsInDim S3 (![] : Fin 0 → Fin S3.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  concatenates_S1x160x160x160_S3x160x160x160_S4x160x160x160_d0 : Shape.Concatenates [S1x160x160x160, S3x160x160x160] S4x160x160x160 0
  shapeCasts_S4x160x160x160_S4x4096000 : S4x160x160x160.ShapeCasts S4x4096000
  transposes_S4x4096000_S4096000x4_1_0 : S4x4096000.Transposes [1, 0] S4096000x4
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S4194304x4_0 : S4194304.BroadcastsInDim S4194304x4 (![0] : Fin 1 → Fin S4194304x4.rank)
  bcast_S_S4194304x4 : S_.BroadcastsInDim S4194304x4 (![] : Fin 0 → Fin S4194304x4.rank)
  transposes_S4194304x4_S4x4194304_1_0 : S4194304x4.Transposes [1, 0] S4x4194304
  bcast_S4x4194304_S4x1x4194304_0_2 : S4x4194304.BroadcastsInDim S4x1x4194304 (![0, 2] : Fin 2 → Fin S4x1x4194304.rank)
  concatenates_S4x1x4194304_S4x1x4194304_S4x1x4194304_S4x1x4194304_S4x1x4194304_S4x1x4194304_S4x1x4194304_S4x1x4194304_S4x8x4194304_d1 : Shape.Concatenates [S4x1x4194304, S4x1x4194304, S4x1x4194304, S4x1x4194304, S4x1x4194304, S4x1x4194304, S4x1x4194304, S4x1x4194304] S4x8x4194304 1
  transposes_S4194304x3_S3x4194304_1_0 : S4194304x3.Transposes [1, 0] S3x4194304
  inb_S4x8x32768_S4x8x32768_0_0_0 : ∀ a, (![0, 0, 0] : Fin 3 → Nat) a + S4x8x32768.size a ≤ S4x8x32768.size a
  h_S4x8x32768 : 0 < S4x8x32768.numel
  shapeCasts_S4x8x32768_S4x8x32768 : S4x8x32768.ShapeCasts S4x8x32768
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  slices_S3x32768_o0_0_S1x32768 : S3x32768.Slices ![0, 0] S1x32768
  slices_S3x32768_o1_0_S1x32768 : S3x32768.Slices ![1, 0] S1x32768
  slices_S3x32768_o2_0_S1x32768 : S3x32768.Slices ![2, 0] S1x32768
  concatenates_S1x32768_S1x32768_S1x32768_S1x32768_S1x32768_S1x32768_S1x32768_S1x32768_S8x32768_d0 : Shape.Concatenates [S1x32768, S1x32768, S1x32768, S1x32768, S1x32768, S1x32768, S1x32768, S1x32768] S8x32768 0
  shapeCasts_S8x32768_S1x8x32768 : S8x32768.ShapeCasts S1x8x32768
  broadcasts_S1x8x32768_S4x8x32768 : S1x8x32768.Broadcasts S4x8x32768
  reduces_S4x8x32768_S4x32768 : S4x8x32768.Reduces [1] S4x32768
  slices_S4x32768_o0_0_S1x32768 : S4x32768.Slices ![0, 0] S1x32768
  slices_S4x32768_o1_0_S3x32768 : S4x32768.Slices ![1, 0] S3x32768
  concatenates_S1x32768_S3x32768_S4x32768_d0 : Shape.Concatenates [S1x32768, S3x32768] S4x32768 0
  inb_S4x32768_S4x32768_0_0 : ∀ a, (![0, 0] : Fin 2 → Nat) a + S4x32768.size a ≤ S4x32768.size a
  h_S4x32768 : 0 < S4x32768.numel
  slices_S4x4194304_S1x4194304_0_0 : S4x4194304.Slices ![0, 0] S1x4194304
  shapeCasts_S1x4194304_S4194304 : S1x4194304.ShapeCasts S4194304
  shapeCasts_S4194304_S16384x256x1 : S4194304.ShapeCasts S16384x256x1
  slices_S4x4194304_S3x4194304_1_0 : S4x4194304.Slices ![1, 0] S3x4194304
  transposes_S3x4194304_S4194304x3_1_0 : S3x4194304.Transposes [1, 0] S4194304x3
  shapeCasts_S4194304x3_S16384x256x3 : S4194304x3.ShapeCasts S16384x256x3
  gather_S4096000x4_S4194304x1_S4194304x4_1_0_n_n_0_1_14_wf : GatherDims.WF S4096000x4 S4194304x1 S4194304x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x32768.size a ≤ S4x8x4194304.size a
  hwx0_0 : ∀ i : grid0.Coords, EltTy.bits .f32 = 32 ∨ (Rect.block (s := S4x8x4194304) S4x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x4194304.size a
  hwx0_1 : ∀ i : grid0.Coords, EltTy.bits .f32 = 32 ∨ (Rect.block (s := S3x4194304) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x4194304.size a
  hwx0_2 : ∀ i : grid0.Coords, EltTy.bits .f32 = 32 ∨ (Rect.block (s := S1x4194304) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32768.size a ≤ S4x4194304.size a
  hwx0_3 : ∀ i : grid0.Coords, EltTy.bits .f32 = 32 ∨ (Rect.block (s := S4x4194304) S4x32768.size (cc0_transform_3 i) (hinb0_3 i)).WholeWords (EltTy.packing .f32)

variable [Facts₀]

def gather_S4096000x4_S4194304x1_S4194304x4_1_0_n_n_0_1_14 : GatherDims S4096000x4 S4194304x1 S4194304x4 where
  offsetDims := [1]
  collapsedSliceDims := [0]
  operandBatchingDims := []
  startIndicesBatchingDims := []
  startIndexMap := [0]
  indexVectorDim := 1
  sliceSizes := ![1, 4]
  wf := gather_S4096000x4_S4194304x1_S4194304x4_1_0_n_n_0_1_14_wf

abbrev win0_0 : Pipeline.Window sig grid0 :=
  Pipeline.Window.ofSpec (Memref.whole main_v118) S4x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v119) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v120) S4x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S3 : Shape := ⟨1, ![3]⟩
abbrev S16384x1x3 : Shape := ⟨3, ![16384, 1, 3]⟩
abbrev S16384x256x1 : Shape := ⟨3, ![16384, 256, 1]⟩
abbrev S16384x256x3 : Shape := ⟨3, ![16384, 256, 3]⟩
abbrev S_ : Shape := ⟨0, ![]⟩
abbrev S16384 : Shape := ⟨1, ![16384]⟩
abbrev S16384x1x1 : Shape := ⟨3, ![16384, 1, 1]⟩
abbrev S4194304x3 : Shape := ⟨2, ![4194304, 3]⟩
abbrev S1x3 : Shape := ⟨2, ![1, 3]⟩
abbrev S4194304x1 : Shape := ⟨2, ![4194304, 1]⟩
abbrev S4194304 : Shape := ⟨1, ![4194304]⟩
abbrev S1x4096000 : Shape := ⟨2, ![1, 4096000]⟩
abbrev S1x4194304 : Shape := ⟨2, ![1, 4194304]⟩
abbrev S3x4096000 : Shape := ⟨2, ![3, 4096000]⟩
abbrev S3x4194304 : Shape := ⟨2, ![3, 4194304]⟩

abbrev nBuf : Space → Nat
  | .hbm => 518
  | .vmem => 0
  | .smem => 0
  | _ => 0

abbrev hbmTy0_0 (i : Nat) : BufTy := match i % 128 with
  | 0 => ⟨S16384x3, .f32⟩
  | 1 => ⟨S16384x3, .f32⟩
  | 2 => ⟨S16384x256, .f32⟩
  | 3 => ⟨S1x160x160x160, .f32⟩
  | 4 => ⟨S3x160x160x160, .f32⟩
  | 5 => ⟨S3, .f32⟩
  | 6 => ⟨S3, .i32⟩
  | 7 => ⟨S3, .f32⟩
  | 8 => ⟨S3, .i32⟩
  | 9 => ⟨S16384x1x3, .f32⟩
  | 10 => ⟨S16384x1x3, .f32⟩
  | 11 => ⟨S16384x256x1, .f32⟩
  | 12 => ⟨S16384x256x3, .f32⟩
  | 13 => ⟨S16384x256x3, .f32⟩
  | 14 => ⟨S16384x256x3, .f32⟩
  | 15 => ⟨S16384x256x3, .f32⟩
  | 16 => ⟨S16384x256x3, .f32⟩
  | 17 => ⟨S16384x3, .f32⟩
  | 18 => ⟨S_, .f32⟩
  | 19 => ⟨S16384, .f32⟩
  | 20 => ⟨S16384, .f32⟩
  | 21 => ⟨S16384x1x1, .f32⟩
  | 22 => ⟨S4194304x3, .f32⟩
  | 23 => ⟨S_, .f32⟩
  | 24 => ⟨S4194304x3, .f32⟩
  | 25 => ⟨S4194304x3, .f32⟩
  | 26 => ⟨S_, .f32⟩
  | 27 => ⟨S4194304x3, .f32⟩
  | 28 => ⟨S4194304x3, .f32⟩
  | 29 => ⟨S_, .f32⟩
  | 30 => ⟨S3, .f32⟩
  | 31 => ⟨S3, .f32⟩
  | 32 => ⟨S1x3, .f32⟩
  | 33 => ⟨S4194304x3, .f32⟩
  | 34 => ⟨S4194304x3, .f32⟩
  | 35 => ⟨S4194304x3, .f32⟩
  | 36 => ⟨S4194304x3, .f32⟩
  | 37 => ⟨S_, .f32⟩
  | 38 => ⟨S4194304x3, .f32⟩
  | 39 => ⟨S4194304x3, .f32⟩
  | 40 => ⟨S4194304x3, .i32⟩
  | 41 => ⟨S_, .i32⟩
  | 42 => ⟨S_, .i32⟩
  | 43 => ⟨S4194304x3, .i32⟩
  | 44 => ⟨S4194304x3, .i32⟩
  | 45 => ⟨S1x3, .i32⟩
  | 46 => ⟨S4194304x3, .i32⟩
  | 47 => ⟨S4194304x3, .i32⟩
  | 48 => ⟨S_, .i32⟩
  | 49 => ⟨S4194304x3, .i32⟩
  | 50 => ⟨S4194304x3, .i32⟩
  | 51 => ⟨S1x3, .i32⟩
  | 52 => ⟨S4194304x3, .i32⟩
  | 53 => ⟨S4194304x3, .i32⟩
  | 54 => ⟨S4194304x1, .i32⟩
  | 55 => ⟨S4194304, .i32⟩
  | 56 => ⟨S4194304x1, .i32⟩
  | 57 => ⟨S4194304, .i32⟩
  | 58 => ⟨S4194304x1, .i32⟩
  | 59 => ⟨S4194304, .i32⟩
  | 60 => ⟨S4194304x1, .i32⟩
  | 61 => ⟨S4194304, .i32⟩
  | 62 => ⟨S4194304x1, .i32⟩
  | 63 => ⟨S4194304, .i32⟩
  | 64 => ⟨S4194304x1, .i32⟩
  | 65 => ⟨S4194304, .i32⟩
  | 66 => ⟨S1x4096000, .f32⟩
  | 67 => ⟨S4194304x1, .f32⟩
  | 68 => ⟨S4194304, .f32⟩
  | 69 => ⟨S4194304x1, .f32⟩
  | 70 => ⟨S4194304, .f32⟩
  | 71 => ⟨S4194304x1, .f32⟩
  | 72 => ⟨S4194304, .f32⟩
  | 73 => ⟨S4194304x1, .f32⟩
  | 74 => ⟨S4194304, .f32⟩
  | 75 => ⟨S4194304x1, .f32⟩
  | 76 => ⟨S4194304, .f32⟩
  | 77 => ⟨S4194304x1, .f32⟩
  | 78 => ⟨S4194304, .f32⟩
  | 79 => ⟨S_, .i32⟩
  | 80 => ⟨S4194304, .i32⟩
  | 81 => ⟨S4194304, .i32⟩
  | 82 => ⟨S4194304, .i32⟩
  | 83 => ⟨S_, .i32⟩
  | 84 => ⟨S4194304, .i32⟩
  | 85 => ⟨S4194304, .i32⟩
  | 86 => ⟨S4194304, .i32⟩
  | 87 => ⟨S_, .i32⟩
  | 88 => ⟨S4194304, .i32⟩
  | 89 => ⟨S4194304, .i1⟩
  | 90 => ⟨S_, .i32⟩
  | 91 => ⟨S4194304, .i32⟩
  | 92 => ⟨S4194304, .i32⟩
  | 93 => ⟨S4194304, .i32⟩
  | 94 => ⟨S4194304x1, .i32⟩
  | 95 => ⟨S1x4194304, .f32⟩
  | 96 => ⟨S4194304, .f32⟩
  | 97 => ⟨S4194304, .f32⟩
  | 98 => ⟨S1x4194304, .f32⟩
  | 99 => ⟨S1x4194304, .f32⟩
  | 100 => ⟨S_, .i32⟩
  | 101 => ⟨S4194304, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i1⟩
  | 111 => ⟨S_, .i32⟩
  | 112 => ⟨S4194304, .i32⟩
  | 113 => ⟨S4194304, .i32⟩
  | 114 => ⟨S4194304, .i32⟩
  | 115 => ⟨S4194304x1, .i32⟩
  | 116 => ⟨S1x4194304, .f32⟩
  | 117 => ⟨S4194304, .f32⟩
  | 118 => ⟨S4194304, .f32⟩
  | 119 => ⟨S1x4194304, .f32⟩
  | 120 => ⟨S1x4194304, .f32⟩
  | 121 => ⟨S1x4194304, .f32⟩
  | 122 => ⟨S_, .i32⟩
  | 123 => ⟨S4194304, .i32⟩
  | 124 => ⟨S4194304, .i32⟩
  | 125 => ⟨S4194304, .i32⟩
  | 126 => ⟨S_, .i32⟩
  | 127 => ⟨S4194304, .i32⟩
  | _ => ⟨S16384x3, .f32⟩

abbrev hbmTy0_1 (i : Nat) : BufTy := match i % 128 with
  | 0 => ⟨S4194304, .i32⟩
  | 1 => ⟨S4194304, .i32⟩
  | 2 => ⟨S_, .i32⟩
  | 3 => ⟨S4194304, .i32⟩
  | 4 => ⟨S4194304, .i1⟩
  | 5 => ⟨S_, .i32⟩
  | 6 => ⟨S4194304, .i32⟩
  | 7 => ⟨S4194304, .i32⟩
  | 8 => ⟨S4194304, .i32⟩
  | 9 => ⟨S4194304x1, .i32⟩
  | 10 => ⟨S1x4194304, .f32⟩
  | 11 => ⟨S4194304, .f32⟩
  | 12 => ⟨S4194304, .f32⟩
  | 13 => ⟨S1x4194304, .f32⟩
  | 14 => ⟨S1x4194304, .f32⟩
  | 15 => ⟨S1x4194304, .f32⟩
  | 16 => ⟨S_, .i32⟩
  | 17 => ⟨S4194304, .i32⟩
  | 18 => ⟨S4194304, .i32⟩
  | 19 => ⟨S4194304, .i32⟩
  | 20 => ⟨S_, .i32⟩
  | 21 => ⟨S4194304, .i32⟩
  | 22 => ⟨S4194304, .i32⟩
  | 23 => ⟨S4194304, .i32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S4194304x1, .i32⟩
  | 32 => ⟨S1x4194304, .f32⟩
  | 33 => ⟨S4194304, .f32⟩
  | 34 => ⟨S4194304, .f32⟩
  | 35 => ⟨S1x4194304, .f32⟩
  | 36 => ⟨S1x4194304, .f32⟩
  | 37 => ⟨S1x4194304, .f32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i32⟩
  | 45 => ⟨S4194304, .i32⟩
  | 46 => ⟨S_, .i32⟩
  | 47 => ⟨S4194304, .i32⟩
  | 48 => ⟨S4194304, .i1⟩
  | 49 => ⟨S_, .i32⟩
  | 50 => ⟨S4194304, .i32⟩
  | 51 => ⟨S4194304, .i32⟩
  | 52 => ⟨S4194304, .i32⟩
  | 53 => ⟨S4194304x1, .i32⟩
  | 54 => ⟨S1x4194304, .f32⟩
  | 55 => ⟨S4194304, .f32⟩
  | 56 => ⟨S4194304, .f32⟩
  | 57 => ⟨S1x4194304, .f32⟩
  | 58 => ⟨S1x4194304, .f32⟩
  | 59 => ⟨S1x4194304, .f32⟩
  | 60 => ⟨S_, .i32⟩
  | 61 => ⟨S4194304, .i32⟩
  | 62 => ⟨S4194304, .i32⟩
  | 63 => ⟨S4194304, .i32⟩
  | 64 => ⟨S_, .i32⟩
  | 65 => ⟨S4194304, .i32⟩
  | 66 => ⟨S4194304, .i32⟩
  | 67 => ⟨S4194304, .i32⟩
  | 68 => ⟨S_, .i32⟩
  | 69 => ⟨S4194304, .i32⟩
  | 70 => ⟨S4194304, .i1⟩
  | 71 => ⟨S_, .i32⟩
  | 72 => ⟨S4194304, .i32⟩
  | 73 => ⟨S4194304, .i32⟩
  | 74 => ⟨S4194304, .i32⟩
  | 75 => ⟨S4194304x1, .i32⟩
  | 76 => ⟨S1x4194304, .f32⟩
  | 77 => ⟨S4194304, .f32⟩
  | 78 => ⟨S4194304, .f32⟩
  | 79 => ⟨S1x4194304, .f32⟩
  | 80 => ⟨S1x4194304, .f32⟩
  | 81 => ⟨S1x4194304, .f32⟩
  | 82 => ⟨S_, .i32⟩
  | 83 => ⟨S4194304, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S4194304, .i32⟩
  | 90 => ⟨S_, .i32⟩
  | 91 => ⟨S4194304, .i32⟩
  | 92 => ⟨S4194304, .i1⟩
  | 93 => ⟨S_, .i32⟩
  | 94 => ⟨S4194304, .i32⟩
  | 95 => ⟨S4194304, .i32⟩
  | 96 => ⟨S4194304, .i32⟩
  | 97 => ⟨S4194304x1, .i32⟩
  | 98 => ⟨S1x4194304, .f32⟩
  | 99 => ⟨S4194304, .f32⟩
  | 100 => ⟨S4194304, .f32⟩
  | 101 => ⟨S1x4194304, .f32⟩
  | 102 => ⟨S1x4194304, .f32⟩
  | 103 => ⟨S1x4194304, .f32⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i32⟩
  | 111 => ⟨S4194304, .i32⟩
  | 112 => ⟨S_, .i32⟩
  | 113 => ⟨S4194304, .i32⟩
  | 114 => ⟨S4194304, .i1⟩
  | 115 => ⟨S_, .i32⟩
  | 116 => ⟨S4194304, .i32⟩
  | 117 => ⟨S4194304, .i32⟩
  | 118 => ⟨S4194304, .i32⟩
  | 119 => ⟨S4194304x1, .i32⟩
  | 120 => ⟨S1x4194304, .f32⟩
  | 121 => ⟨S4194304, .f32⟩
  | 122 => ⟨S4194304, .f32⟩
  | 123 => ⟨S1x4194304, .f32⟩
  | 124 => ⟨S1x4194304, .f32⟩
  | 125 => ⟨S1x4194304, .f32⟩
  | 126 => ⟨S4194304x1, .f32⟩
  | 127 => ⟨S16384x256x1, .f32⟩
  | _ => ⟨S16384x3, .f32⟩

abbrev hbmTy0_2 (i : Nat) : BufTy := match i % 128 with
  | 0 => ⟨S_, .f32⟩
  | 1 => ⟨S16384x256x1, .f32⟩
  | 2 => ⟨S16384x256x1, .f32⟩
  | 3 => ⟨S16384x256x1, .f32⟩
  | 4 => ⟨S_, .f32⟩
  | 5 => ⟨S16384x256x1, .f32⟩
  | 6 => ⟨S16384x256x1, .f32⟩
  | 7 => ⟨S16384x1x1, .f32⟩
  | 8 => ⟨S16384x256x1, .f32⟩
  | 9 => ⟨S16384x256x1, .f32⟩
  | 10 => ⟨S_, .f32⟩
  | 11 => ⟨S16384x256x1, .f32⟩
  | 12 => ⟨S16384x256x1, .f32⟩
  | 13 => ⟨S_, .f32⟩
  | 14 => ⟨S4194304x3, .f32⟩
  | 15 => ⟨S4194304x3, .f32⟩
  | 16 => ⟨S_, .f32⟩
  | 17 => ⟨S4194304x3, .f32⟩
  | 18 => ⟨S4194304x3, .f32⟩
  | 19 => ⟨S_, .f32⟩
  | 20 => ⟨S3, .f32⟩
  | 21 => ⟨S3, .f32⟩
  | 22 => ⟨S1x3, .f32⟩
  | 23 => ⟨S4194304x3, .f32⟩
  | 24 => ⟨S4194304x3, .f32⟩
  | 25 => ⟨S4194304x3, .f32⟩
  | 26 => ⟨S4194304x3, .f32⟩
  | 27 => ⟨S_, .f32⟩
  | 28 => ⟨S4194304x3, .f32⟩
  | 29 => ⟨S4194304x3, .f32⟩
  | 30 => ⟨S4194304x3, .i32⟩
  | 31 => ⟨S_, .i32⟩
  | 32 => ⟨S_, .i32⟩
  | 33 => ⟨S4194304x3, .i32⟩
  | 34 => ⟨S4194304x3, .i32⟩
  | 35 => ⟨S1x3, .i32⟩
  | 36 => ⟨S4194304x3, .i32⟩
  | 37 => ⟨S4194304x3, .i32⟩
  | 38 => ⟨S_, .i32⟩
  | 39 => ⟨S4194304x3, .i32⟩
  | 40 => ⟨S4194304x3, .i32⟩
  | 41 => ⟨S1x3, .i32⟩
  | 42 => ⟨S4194304x3, .i32⟩
  | 43 => ⟨S4194304x3, .i32⟩
  | 44 => ⟨S4194304x1, .i32⟩
  | 45 => ⟨S4194304, .i32⟩
  | 46 => ⟨S4194304x1, .i32⟩
  | 47 => ⟨S4194304, .i32⟩
  | 48 => ⟨S4194304x1, .i32⟩
  | 49 => ⟨S4194304, .i32⟩
  | 50 => ⟨S4194304x1, .i32⟩
  | 51 => ⟨S4194304, .i32⟩
  | 52 => ⟨S4194304x1, .i32⟩
  | 53 => ⟨S4194304, .i32⟩
  | 54 => ⟨S4194304x1, .i32⟩
  | 55 => ⟨S4194304, .i32⟩
  | 56 => ⟨S3x4096000, .f32⟩
  | 57 => ⟨S4194304x1, .f32⟩
  | 58 => ⟨S4194304, .f32⟩
  | 59 => ⟨S4194304x1, .f32⟩
  | 60 => ⟨S4194304, .f32⟩
  | 61 => ⟨S4194304x1, .f32⟩
  | 62 => ⟨S4194304, .f32⟩
  | 63 => ⟨S4194304x1, .f32⟩
  | 64 => ⟨S4194304, .f32⟩
  | 65 => ⟨S4194304x1, .f32⟩
  | 66 => ⟨S4194304, .f32⟩
  | 67 => ⟨S4194304x1, .f32⟩
  | 68 => ⟨S4194304, .f32⟩
  | 69 => ⟨S_, .i32⟩
  | 70 => ⟨S4194304, .i32⟩
  | 71 => ⟨S4194304, .i32⟩
  | 72 => ⟨S4194304, .i32⟩
  | 73 => ⟨S_, .i32⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i1⟩
  | 80 => ⟨S_, .i32⟩
  | 81 => ⟨S4194304, .i32⟩
  | 82 => ⟨S4194304, .i32⟩
  | 83 => ⟨S4194304, .i32⟩
  | 84 => ⟨S4194304x1, .i32⟩
  | 85 => ⟨S3x4194304, .f32⟩
  | 86 => ⟨S4194304, .f32⟩
  | 87 => ⟨S4194304, .f32⟩
  | 88 => ⟨S1x4194304, .f32⟩
  | 89 => ⟨S3x4194304, .f32⟩
  | 90 => ⟨S3x4194304, .f32⟩
  | 91 => ⟨S_, .i32⟩
  | 92 => ⟨S4194304, .i32⟩
  | 93 => ⟨S4194304, .i32⟩
  | 94 => ⟨S4194304, .i32⟩
  | 95 => ⟨S_, .i32⟩
  | 96 => ⟨S4194304, .i32⟩
  | 97 => ⟨S4194304, .i32⟩
  | 98 => ⟨S4194304, .i32⟩
  | 99 => ⟨S_, .i32⟩
  | 100 => ⟨S4194304, .i32⟩
  | 101 => ⟨S4194304, .i1⟩
  | 102 => ⟨S_, .i32⟩
  | 103 => ⟨S4194304, .i32⟩
  | 104 => ⟨S4194304, .i32⟩
  | 105 => ⟨S4194304, .i32⟩
  | 106 => ⟨S4194304x1, .i32⟩
  | 107 => ⟨S3x4194304, .f32⟩
  | 108 => ⟨S4194304, .f32⟩
  | 109 => ⟨S4194304, .f32⟩
  | 110 => ⟨S1x4194304, .f32⟩
  | 111 => ⟨S3x4194304, .f32⟩
  | 112 => ⟨S3x4194304, .f32⟩
  | 113 => ⟨S3x4194304, .f32⟩
  | 114 => ⟨S_, .i32⟩
  | 115 => ⟨S4194304, .i32⟩
  | 116 => ⟨S4194304, .i32⟩
  | 117 => ⟨S4194304, .i32⟩
  | 118 => ⟨S_, .i32⟩
  | 119 => ⟨S4194304, .i32⟩
  | 120 => ⟨S4194304, .i32⟩
  | 121 => ⟨S4194304, .i32⟩
  | 122 => ⟨S_, .i32⟩
  | 123 => ⟨S4194304, .i32⟩
  | 124 => ⟨S4194304, .i1⟩
  | 125 => ⟨S_, .i32⟩
  | 126 => ⟨S4194304, .i32⟩
  | 127 => ⟨S4194304, .i32⟩
  | _ => ⟨S16384x3, .f32⟩

abbrev hbmTy0_3 (i : Nat) : BufTy := match i % 128 with
  | 0 => ⟨S4194304, .i32⟩
  | 1 => ⟨S4194304x1, .i32⟩
  | 2 => ⟨S3x4194304, .f32⟩
  | 3 => ⟨S4194304, .f32⟩
  | 4 => ⟨S4194304, .f32⟩
  | 5 => ⟨S1x4194304, .f32⟩
  | 6 => ⟨S3x4194304, .f32⟩
  | 7 => ⟨S3x4194304, .f32⟩
  | 8 => ⟨S3x4194304, .f32⟩
  | 9 => ⟨S_, .i32⟩
  | 10 => ⟨S4194304, .i32⟩
  | 11 => ⟨S4194304, .i32⟩
  | 12 => ⟨S4194304, .i32⟩
  | 13 => ⟨S_, .i32⟩
  | 14 => ⟨S4194304, .i32⟩
  | 15 => ⟨S4194304, .i32⟩
  | 16 => ⟨S4194304, .i32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i32⟩
  | 23 => ⟨S4194304, .i32⟩
  | 24 => ⟨S4194304x1, .i32⟩
  | 25 => ⟨S3x4194304, .f32⟩
  | 26 => ⟨S4194304, .f32⟩
  | 27 => ⟨S4194304, .f32⟩
  | 28 => ⟨S1x4194304, .f32⟩
  | 29 => ⟨S3x4194304, .f32⟩
  | 30 => ⟨S3x4194304, .f32⟩
  | 31 => ⟨S3x4194304, .f32⟩
  | 32 => ⟨S_, .i32⟩
  | 33 => ⟨S4194304, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S4194304, .i32⟩
  | 40 => ⟨S_, .i32⟩
  | 41 => ⟨S4194304, .i32⟩
  | 42 => ⟨S4194304, .i1⟩
  | 43 => ⟨S_, .i32⟩
  | 44 => ⟨S4194304, .i32⟩
  | 45 => ⟨S4194304, .i32⟩
  | 46 => ⟨S4194304, .i32⟩
  | 47 => ⟨S4194304x1, .i32⟩
  | 48 => ⟨S3x4194304, .f32⟩
  | 49 => ⟨S4194304, .f32⟩
  | 50 => ⟨S4194304, .f32⟩
  | 51 => ⟨S1x4194304, .f32⟩
  | 52 => ⟨S3x4194304, .f32⟩
  | 53 => ⟨S3x4194304, .f32⟩
  | 54 => ⟨S3x4194304, .f32⟩
  | 55 => ⟨S_, .i32⟩
  | 56 => ⟨S4194304, .i32⟩
  | 57 => ⟨S4194304, .i32⟩
  | 58 => ⟨S4194304, .i32⟩
  | 59 => ⟨S_, .i32⟩
  | 60 => ⟨S4194304, .i32⟩
  | 61 => ⟨S4194304, .i32⟩
  | 62 => ⟨S4194304, .i32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i32⟩
  | 69 => ⟨S4194304, .i32⟩
  | 70 => ⟨S4194304x1, .i32⟩
  | 71 => ⟨S3x4194304, .f32⟩
  | 72 => ⟨S4194304, .f32⟩
  | 73 => ⟨S4194304, .f32⟩
  | 74 => ⟨S1x4194304, .f32⟩
  | 75 => ⟨S3x4194304, .f32⟩
  | 76 => ⟨S3x4194304, .f32⟩
  | 77 => ⟨S3x4194304, .f32⟩
  | 78 => ⟨S_, .i32⟩
  | 79 => ⟨S4194304, .i32⟩
  | 80 => ⟨S4194304, .i32⟩
  | 81 => ⟨S4194304, .i32⟩
  | 82 => ⟨S_, .i32⟩
  | 83 => ⟨S4194304, .i32⟩
  | 84 => ⟨S4194304, .i32⟩
  | 85 => ⟨S4194304, .i32⟩
  | 86 => ⟨S_, .i32⟩
  | 87 => ⟨S4194304, .i32⟩
  | 88 => ⟨S4194304, .i1⟩
  | 89 => ⟨S_, .i32⟩
  | 90 => ⟨S4194304, .i32⟩
  | 91 => ⟨S4194304, .i32⟩
  | 92 => ⟨S4194304, .i32⟩
  | 93 => ⟨S4194304x1, .i32⟩
  | 94 => ⟨S3x4194304, .f32⟩
  | 95 => ⟨S4194304, .f32⟩
  | 96 => ⟨S4194304, .f32⟩
  | 97 => ⟨S1x4194304, .f32⟩
  | 98 => ⟨S3x4194304, .f32⟩
  | 99 => ⟨S3x4194304, .f32⟩
  | 100 => ⟨S3x4194304, .f32⟩
  | 101 => ⟨S_, .i32⟩
  | 102 => ⟨S4194304, .i32⟩
  | 103 => ⟨S4194304, .i32⟩
  | 104 => ⟨S4194304, .i32⟩
  | 105 => ⟨S_, .i32⟩
  | 106 => ⟨S4194304, .i32⟩
  | 107 => ⟨S4194304, .i32⟩
  | 108 => ⟨S4194304, .i32⟩
  | 109 => ⟨S_, .i32⟩
  | 110 => ⟨S4194304, .i32⟩
  | 111 => ⟨S4194304, .i1⟩
  | 112 => ⟨S_, .i32⟩
  | 113 => ⟨S4194304, .i32⟩
  | 114 => ⟨S4194304, .i32⟩
  | 115 => ⟨S4194304, .i32⟩
  | 116 => ⟨S4194304x1, .i32⟩
  | 117 => ⟨S3x4194304, .f32⟩
  | 118 => ⟨S4194304, .f32⟩
  | 119 => ⟨S4194304, .f32⟩
  | 120 => ⟨S1x4194304, .f32⟩
  | 121 => ⟨S3x4194304, .f32⟩
  | 122 => ⟨S3x4194304, .f32⟩
  | 123 => ⟨S3x4194304, .f32⟩
  | 124 => ⟨S4194304x3, .f32⟩
  | 125 => ⟨S16384x256x3, .f32⟩
  | 126 => ⟨S16384x256x3, .f32⟩
  | 127 => ⟨S16384x256x3, .f32⟩
  | _ => ⟨S16384x3, .f32⟩

abbrev hbmTy0_4 (i : Nat) : BufTy := match i % 128 with
  | 0 => ⟨S_, .f32⟩
  | 1 => ⟨S16384x256x3, .f32⟩
  | 2 => ⟨S16384x256x3, .f32⟩
  | 3 => ⟨S_, .f32⟩
  | 4 => ⟨S16384x256x3, .f32⟩
  | 5 => ⟨S16384x256x3, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_cst_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_c_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_20 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_22 : Ref sig .tc := ⟨.hbm, 152, rfl⟩
abbrev main_v115 : Ref sig .tc := ⟨.hbm, 153, rfl⟩
abbrev main_v116 : Ref sig .tc := ⟨.hbm, 154, rfl⟩
abbrev main_c_23 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_25 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_v133 : Ref sig .tc := ⟨.hbm, 175, rfl⟩
abbrev main_v134 : Ref sig .tc := ⟨.hbm, 176, rfl⟩
abbrev main_c_27 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_c_28 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_29 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_30 : Ref sig .tc := ⟨.hbm, 196, rfl⟩
abbrev main_v151 : Ref sig .tc := ⟨.hbm, 197, rfl⟩
abbrev main_v152 : Ref sig .tc := ⟨.hbm, 198, rfl⟩
abbrev main_c_31 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_c_32 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_c_33 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_c_34 : Ref sig .tc := ⟨.hbm, 218, rfl⟩
abbrev main_v169 : Ref sig .tc := ⟨.hbm, 219, rfl⟩
abbrev main_v170 : Ref sig .tc := ⟨.hbm, 220, rfl⟩
abbrev main_c_35 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_36 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_c_37 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_c_38 : Ref sig .tc := ⟨.hbm, 240, rfl⟩
abbrev main_v187 : Ref sig .tc := ⟨.hbm, 241, rfl⟩
abbrev main_v188 : Ref sig .tc := ⟨.hbm, 242, rfl⟩
abbrev main_c_39 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_40 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_41 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_42 : Ref sig .tc := ⟨.hbm, 266, rfl⟩
abbrev main_v209 : Ref sig .tc := ⟨.hbm, 267, rfl⟩
abbrev main_v210 : Ref sig .tc := ⟨.hbm, 268, rfl⟩
abbrev main_cst_43 : Ref sig .tc := ⟨.hbm, 269, rfl⟩
abbrev main_v211 : Ref sig .tc := ⟨.hbm, 270, rfl⟩
abbrev main_v212 : Ref sig .tc := ⟨.hbm, 271, rfl⟩
abbrev main_cst_44 : Ref sig .tc := ⟨.hbm, 272, rfl⟩
abbrev main_v213 : Ref sig .tc := ⟨.hbm, 273, rfl⟩
abbrev main_v214 : Ref sig .tc := ⟨.hbm, 274, rfl⟩
abbrev main_cst_45 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_46 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_c_47 : Ref sig .tc := ⟨.hbm, 287, rfl⟩
abbrev main_call2_v0 : Ref sig .tc := ⟨.hbm, 288, rfl⟩
abbrev main_call2_v1 : Ref sig .tc := ⟨.hbm, 289, rfl⟩
abbrev main_call2_v2 : Ref sig .tc := ⟨.hbm, 290, rfl⟩
abbrev main_call2_v3 : Ref sig .tc := ⟨.hbm, 291, rfl⟩
abbrev main_call2_v4 : Ref sig .tc := ⟨.hbm, 292, rfl⟩
abbrev main_v225 : Ref sig .tc := ⟨.hbm, 293, rfl⟩
abbrev main_c_48 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_c_49 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_c_50 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_c_51 : Ref sig .tc := ⟨.hbm, 333, rfl⟩
abbrev main_v262 : Ref sig .tc := ⟨.hbm, 334, rfl⟩
abbrev main_v263 : Ref sig .tc := ⟨.hbm, 335, rfl⟩
abbrev main_c_52 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_c_53 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_c_54 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_c_55 : Ref sig .tc := ⟨.hbm, 355, rfl⟩
abbrev main_v280 : Ref sig .tc := ⟨.hbm, 356, rfl⟩
abbrev main_v281 : Ref sig .tc := ⟨.hbm, 357, rfl⟩
abbrev main_c_56 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_c_57 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_c_58 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_c_59 : Ref sig .tc := ⟨.hbm, 378, rfl⟩
abbrev main_v299 : Ref sig .tc := ⟨.hbm, 379, rfl⟩
abbrev main_v300 : Ref sig .tc := ⟨.hbm, 380, rfl⟩
abbrev main_c_60 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_c_61 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_c_62 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_c_63 : Ref sig .tc := ⟨.hbm, 401, rfl⟩
abbrev main_v318 : Ref sig .tc := ⟨.hbm, 402, rfl⟩
abbrev main_v319 : Ref sig .tc := ⟨.hbm, 403, rfl⟩
abbrev main_c_64 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_c_65 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_c_66 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_c_67 : Ref sig .tc := ⟨.hbm, 424, rfl⟩
abbrev main_v337 : Ref sig .tc := ⟨.hbm, 425, rfl⟩
abbrev main_v338 : Ref sig .tc := ⟨.hbm, 426, rfl⟩
abbrev main_c_68 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_c_69 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_c_70 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_c_71 : Ref sig .tc := ⟨.hbm, 447, rfl⟩
abbrev main_v356 : Ref sig .tc := ⟨.hbm, 448, rfl⟩
abbrev main_v357 : Ref sig .tc := ⟨.hbm, 449, rfl⟩
abbrev main_c_72 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_c_73 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_c_74 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_c_75 : Ref sig .tc := ⟨.hbm, 470, rfl⟩
abbrev main_v375 : Ref sig .tc := ⟨.hbm, 471, rfl⟩
abbrev main_v376 : Ref sig .tc := ⟨.hbm, 472, rfl⟩
abbrev main_c_76 : Ref sig .tc := ⟨.hbm, 473, rfl⟩
abbrev main_v377 : Ref sig .tc := ⟨.hbm, 474, rfl⟩
abbrev main_v378 : Ref sig .tc := ⟨.hbm, 475, rfl⟩
abbrev main_v379 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_v384 : Ref sig .tc := ⟨.hbm, 481, rfl⟩
abbrev main_v385 : Ref sig .tc := ⟨.hbm, 482, rfl⟩
abbrev main_v386 : Ref sig .tc := ⟨.hbm, 483, rfl⟩
abbrev main_v387 : Ref sig .tc := ⟨.hbm, 484, rfl⟩
abbrev main_c_77 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_c_78 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_c_79 : Ref sig .tc := ⟨.hbm, 493, rfl⟩
abbrev main_v394 : Ref sig .tc := ⟨.hbm, 494, rfl⟩
abbrev main_v395 : Ref sig .tc := ⟨.hbm, 495, rfl⟩
abbrev main_c_80 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_cst_81 : Ref sig .tc := ⟨.hbm, 512, rfl⟩
abbrev main_v411 : Ref sig .tc := ⟨.hbm, 513, rfl⟩
abbrev main_v412 : Ref sig .tc := ⟨.hbm, 514, rfl⟩
abbrev main_cst_82 : Ref sig .tc := ⟨.hbm, 515, rfl⟩
abbrev main_v413 : Ref sig .tc := ⟨.hbm, 516, rfl⟩
abbrev main_v414 : Ref sig .tc := ⟨.hbm, 517, rfl⟩

abbrev nD : Nat := 1
abbrev τ : Topo := Topo.v7x

variable {F : FTy → Type} [FloatOps F]

class Facts₀ : Prop where
  bcast_S16384x3_S16384x1x3_0_2 : S16384x3.BroadcastsInDim S16384x1x3 (![0, 2] : Fin 2 → Fin S16384x1x3.rank)
  bcast_S16384x256_S16384x256x1_0_1 : S16384x256.BroadcastsInDim S16384x256x1 (![0, 1] : Fin 2 → Fin S16384x256x1.rank)
  bcast_S16384x1x3_S16384x256x3_0_1_2 : S16384x1x3.BroadcastsInDim S16384x256x3 (![0, 1, 2] : Fin 3 → Fin S16384x256x3.rank)
  bcast_S16384x256x1_S16384x256x3_0_1_2 : S16384x256x1.BroadcastsInDim S16384x256x3 (![0, 1, 2] : Fin 3 → Fin S16384x256x3.rank)
  reducesTo_S16384x3_S16384_d1 : S16384x3.ReducesTo [1] S16384
  h_S_ : 0 < S_.numel
  bcast_S16384_S16384x1x1_0 : S16384.BroadcastsInDim S16384x1x1 (![0] : Fin 1 → Fin S16384x1x1.rank)
  shapeCasts_S16384x256x3_S4194304x3 : S16384x256x3.ShapeCasts S4194304x3
  bcast_S_S4194304x3 : S_.BroadcastsInDim S4194304x3 (![] : Fin 0 → Fin S4194304x3.rank)
  bcast_S_S3 : S_.BroadcastsInDim S3 (![] : Fin 0 → Fin S3.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  shapeCasts_S1x160x160x160_S1x4096000 : S1x160x160x160.ShapeCasts S1x4096000
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304_S1x4194304_1 : S4194304.BroadcastsInDim S1x4194304 (![1] : Fin 1 → Fin S1x4194304.rank)
  transposes_S1x4194304_S4194304x1_1_0 : S1x4194304.Transposes [1, 0] S4194304x1
  shapeCasts_S4194304x1_S16384x256x1 : S4194304x1.ShapeCasts S16384x256x1
  bcast_S_S16384x256x1 : S_.BroadcastsInDim S16384x256x1 (![] : Fin 0 → Fin S16384x256x1.rank)
  bcast_S16384x1x1_S16384x256x1_0_1_2 : S16384x1x1.BroadcastsInDim S16384x256x1 (![0, 1, 2] : Fin 3 → Fin S16384x256x1.rank)
  shapeCasts_S3x160x160x160_S3x4096000 : S3x160x160x160.ShapeCasts S3x4096000
  bcast_S1x4194304_S3x4194304_0_1 : S1x4194304.BroadcastsInDim S3x4194304 (![0, 1] : Fin 2 → Fin S3x4194304.rank)
  transposes_S3x4194304_S4194304x3_1_0 : S3x4194304.Transposes [1, 0] S4194304x3
  shapeCasts_S4194304x3_S16384x256x3 : S4194304x3.ShapeCasts S16384x256x3
  bcast_S_S16384x256x3 : S_.BroadcastsInDim S16384x256x3 (![] : Fin 0 → Fin S16384x256x3.rank)
  gather_S1x4096000_S4194304x1_S1x4194304_0_1_n_n_1_1_11_wf : GatherDims.WF S1x4096000 S4194304x1 S1x4194304 [0] [1] [] [1] [] 1 ![1, 1]
  gather_S3x4096000_S4194304x1_S3x4194304_0_1_n_n_1_1_31_wf : GatherDims.WF S3x4096000 S4194304x1 S3x4194304 [0] [1] [] [1] [] 1 ![3, 1]

variable [Facts₀]

def gather_S1x4096000_S4194304x1_S1x4194304_0_1_n_n_1_1_11 : GatherDims S1x4096000 S4194304x1 S1x4194304 where
  offsetDims := [0]
  collapsedSliceDims := [1]
  operandBatchingDims := []
  startIndicesBatchingDims := []
  startIndexMap := [1]
  indexVectorDim := 1
  sliceSizes := ![1, 1]
  wf := gather_S1x4096000_S4194304x1_S1x4194304_0_1_n_n_1_1_11_wf
def gather_S3x4096000_S4194304x1_S3x4194304_0_1_n_n_1_1_31 : GatherDims S3x4096000 S4194304x1 S3x4194304 where
  offsetDims := [0]
  collapsedSliceDims := [1]
  operandBatchingDims := []
  startIndicesBatchingDims := []
  startIndexMap := [1]
  indexVectorDim := 1
  sliceSizes := ![3, 1]
  wf := gather_S3x4096000_S4194304x1_S3x4194304_0_1_n_n_1_1_31_wf

class Facts : Prop extends Facts₀ where

variable [Facts]
-- ==== Proof.FrameBits.lean ====
/- The frame of `Kernel`: @main is twenty-one stretches of host operations, one pipelined region over a grid of
   128 points, and one more stretch of host operations.
   * The arrays as the region finds them: core `c`'s buffers after the twenty-one stretches, folded from the launch
     contents (`V0`, `V`). No operation of these stretches, and none after the region, writes one of the five
     argument arrays (`V_main_argK`, `W_main_argK`).
   * What the body leaves in the output block: the body reads each of its three input blocks whole, computes, and
     writes the output block whole through one rectangle, so the output's buffer afterwards is that one piece's
     value as a function of the three input blocks (`out0_3`); the inputs' buffers are left as they were
     (`sound_kernel`, `dats`, `body_obligation`).
   * Every weakly fair execution of @main on the TensorCores terminates, every array of the pipeline ends at what the
     proof data compute and every other unscoped buffer as the operations after the region leave it (`run_main`);
     in particular the five argument arrays end unchanged (`frame`), at any float model `F`. -/
import proofs.«178290_j77008763617691_2_alg».proof.Proof.Gen.Kernel.Launch
import proofs.«178290_j77008763617691_2_alg».proof.Proof.Gen.Kernel.Skeleton
import proofs.«178290_j77008763617691_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle whose long axis has 32768 coordinates
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    twenty-one stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operations after it. It reduces to the
    region CONTINUED BY the later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩ main_chain

/-- The operations after the region touch the pipeline's arrays and the buffers that bypass it only (each operation's
    buffers are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array of it). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data, a run to the frame run's post read at the five argument arrays —
    none is an array of the pipeline, so each is an unscoped buffer the region bypasses, left as the operations after
    the region leave it, which is as launched (`W_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's accesses -/

abbrev r0_0 : Rect S4x8x32768 := Rect.unit (s := S4x8x32768) ![0, 0, 0] S4x8x32768.size inb_S4x8x32768_S4x8x32768_0_0_0
abbrev r0_1 : Rect S3x32768 := Rect.unit (s := S3x32768) ![0, 0] S3x32768.size inb_S3x32768_S3x32768_0_0
abbrev r0_2 : Rect S1x32768 := Rect.unit (s := S1x32768) ![0, 0] S1x32768.size inb_S1x32768_S1x32768_0_0
abbrev r0_3 : Rect S4x32768 := Rect.unit (s := S4x32768) ![0, 0] S4x32768.size inb_S4x32768_S4x32768_0_0

/-! ## What the body leaves in the output window's buffer -/

/-- Window 3's staging buffer after the body, from the three input windows' blocks: its one store as one piece, the
    whole buffer, whose value is the body's computation on the three blocks read whole. -/
def out0_3 (x0 : Vec F S4x8x32768 .f32) (x1 : Vec F S3x32768 .f32) (x2 : Vec F S1x32768 .f32) : Vec F S4x32768 .f32 :=
  View.canon [⟨r0_3, k0_pay1 (k0_pay3 (View.ld x0 r0_0) (View.ld x1 r0_1)) (k0_pay4 (View.ld x2 r0_2)) (k0_pay5 (View.ld x0 r0_0) (View.ld x1 r0_1)) (Scalar.ofBits .f32 0x00000000#32) (k0_pay6 (View.ld x0 r0_0) (View.ld x1 r0_1)) (k0_pay7 (F := F))⟩]

/-- The one store's rectangle is the whole buffer, so it covers it. -/
theorem cover0_3 (p0 : Vec F S4x32768 .f32) (y : S4x32768.Idx) :
    ∃ pc ∈ ([⟨r0_3, p0⟩] : List (View.Piece (Elt F) S4x32768 .f32)), y ∈ pc.1.set :=
  View.cover_of_tiled [⟨r0_3, p0⟩] S4x32768.size (by rfl) y

/-! ## The body's triple -/

set_option maxHeartbeats 1000000 in
/-- The kernel body on whole staging memrefs, the inputs' at read contents `x0`, `x1`, `x2` and the output's at anything,
    runs to the continuation holding the inputs' as they were and the output's at `out0_3` of the inputs'. -/
theorem sound_kernel (c : Dev nD) (E : Set ℕ) (i : grid0.Coords) (arg1 : Memref sig .tc .vmem S4x8x32768 .f32) (harg1 : arg1.IsWhole) (arg2 : Memref sig .tc .vmem S3x32768 .f32) (harg2 : arg2.IsWhole) (arg3 : Memref sig .tc .vmem S1x32768 .f32) (harg3 : arg3.IsWhole) (arg4 : Memref sig .tc .vmem S4x32768 .f32) (harg4 : arg4.IsWhole)
    (x0 : Vec F S4x8x32768 .f32) (x1 : Vec F S3x32768 .f32) (x2 : Vec F S1x32768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them (`V`); after the body at
    point `t` each input's buffer at its block and the output's at `out0_3` of the input blocks; the invariant the scoped
    rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data compute and
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float model `F`: every weakly fair execution of @main terminates and the five argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.FrameIdeal.lean ====
/- The frame of `KernelIdeal`: @main is twenty-one stretches of host operations, one pipelined region over a grid of
   128 points, and one more stretch of host operations.
   * The arrays as the region finds them: core `c`'s buffers after the twenty-one stretches, folded from the launch
     contents (`V0`, `V`). No operation of these stretches, and none after the region, writes one of the five
     argument arrays (`V_main_argK`, `W_main_argK`).
   * What the body leaves in the output block: the body reads each of its three input blocks whole, computes, and
     writes the output block whole through one rectangle, so the output's buffer afterwards is that one piece's
     value as a function of the three input blocks (`out0_3`); the inputs' buffers are left as they were
     (`sound_kernel`, `dats`, `body_obligation`).
   * Every weakly fair execution of @main on the TensorCores terminates, every array of the pipeline ends at what the
     proof data compute and every other unscoped buffer as the operations after the region leave it (`run_main`);
     in particular the five argument arrays end unchanged (`frame`), at any float model `F`. -/
import proofs.«178290_j77008763617691_2_alg».proof.Proof.Gen.KernelIdeal.Launch
import proofs.«178290_j77008763617691_2_alg».proof.Proof.Gen.KernelIdeal.Skeleton
import proofs.«178290_j77008763617691_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle whose long axis has 32768 coordinates
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    twenty-one stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operations after it. It reduces to the
    region CONTINUED BY the later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩ main_chain

/-- The operations after the region touch the pipeline's arrays and the buffers that bypass it only (each operation's
    buffers are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array of it). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data, a run to the frame run's post read at the five argument arrays —
    none is an array of the pipeline, so each is an unscoped buffer the region bypasses, left as the operations after
    the region leave it, which is as launched (`W_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's accesses -/

abbrev r0_0 : Rect S4x8x32768 := Rect.unit (s := S4x8x32768) ![0, 0, 0] S4x8x32768.size inb_S4x8x32768_S4x8x32768_0_0_0
abbrev r0_1 : Rect S3x32768 := Rect.unit (s := S3x32768) ![0, 0] S3x32768.size inb_S3x32768_S3x32768_0_0
abbrev r0_2 : Rect S1x32768 := Rect.unit (s := S1x32768) ![0, 0] S1x32768.size inb_S1x32768_S1x32768_0_0
abbrev r0_3 : Rect S4x32768 := Rect.unit (s := S4x32768) ![0, 0] S4x32768.size inb_S4x32768_S4x32768_0_0

/-! ## What the body leaves in the output window's buffer -/

/-- Window 3's staging buffer after the body, from the three input windows' blocks: its one store as one piece, the
    whole buffer, whose value is the body's computation on the three blocks read whole. -/
def out0_3 (x0 : Vec F S4x8x32768 .f32) (x1 : Vec F S3x32768 .f32) (x2 : Vec F S1x32768 .f32) : Vec F S4x32768 .f32 :=
  View.canon [⟨r0_3, k0_pay1 (k0_pay3 (View.ld x0 r0_0) (View.ld x1 r0_1)) (k0_pay4 (View.ld x2 r0_2)) (k0_pay5 (View.ld x0 r0_0) (View.ld x1 r0_1)) (Scalar.ofBits .f32 0x00000000#32) (k0_pay6 (View.ld x0 r0_0) (View.ld x1 r0_1)) (k0_pay7 (F := F))⟩]

/-- The one store's rectangle is the whole buffer, so it covers it. -/
theorem cover0_3 (p0 : Vec F S4x32768 .f32) (y : S4x32768.Idx) :
    ∃ pc ∈ ([⟨r0_3, p0⟩] : List (View.Piece (Elt F) S4x32768 .f32)), y ∈ pc.1.set :=
  View.cover_of_tiled [⟨r0_3, p0⟩] S4x32768.size (by rfl) y

/-! ## The body's triple -/

set_option maxHeartbeats 1000000 in
/-- The kernel body on whole staging memrefs, the inputs' at read contents `x0`, `x1`, `x2` and the output's at anything,
    runs to the continuation holding the inputs' as they were and the output's at `out0_3` of the inputs'. -/
theorem sound_kernel (c : Dev nD) (E : Set ℕ) (i : grid0.Coords) (arg1 : Memref sig .tc .vmem S4x8x32768 .f32) (harg1 : arg1.IsWhole) (arg2 : Memref sig .tc .vmem S3x32768 .f32) (harg2 : arg2.IsWhole) (arg3 : Memref sig .tc .vmem S1x32768 .f32) (harg3 : arg3.IsWhole) (arg4 : Memref sig .tc .vmem S4x32768 .f32) (harg4 : arg4.IsWhole)
    (x0 : Vec F S4x8x32768 .f32) (x1 : Vec F S3x32768 .f32) (x2 : Vec F S1x32768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them (`V`); after the body at
    point `t` each input's buffer at its block and the output's at `out0_3` of the input blocks; the invariant the scoped
    rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data compute and
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float model `F`: every weakly fair execution of @main terminates and the five argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.SampleLaws.lean ====
/-
  Scalar laws on the extended reals for a trilinear grid sample followed by a density and a colour activation.

  * A row's eight weighted corner values summed from zero as one finite sum equal the same eight terms added left to
    right: addition on the extended reals is commutative and associative and zero is its unit, so no finiteness is needed.
  * For real `x` and `t` the density computed as `1 - exp ((0 - t) · s)`, with `s` the softplus of `x` evaluated by parts —
    `max x 0 + log (1 + exp (-|x|))`, behind a test `x - 0 ≠ x - 0` that never fires on a linear order —, is
    `1 - (1 + exp x) ^ (-t)`: over the reals `max x 0 + log (1 + exp (-|x|)) = log (1 + exp x)` (for `x ≥ 0` factor
    `exp x` out of `1 + exp x`; for `x ≤ 0` the two sides are the same term) and `b ^ y = exp (log b · y)` for `b > 0`.
    Here finiteness IS needed: at an infinite `x` or `t` the two sides meet different conventions.
  * The colour activation: the one-operation logistic IS `1 / (1 + exp (-x))`, for every extended real.
-/
import Idealize.ShloMosaic.PureOps.Ideal
import Idealize.ShloMosaic.PureOps.Ideal.Laws
import Mathlib.Analysis.SpecialFunctions.Pow.Real
import Mathlib.Analysis.SpecialFunctions.Log.Basic

noncomputable section

namespace Cert.GridSample.Law

open Idealize.ShloMosaic

/-! ## Softplus by parts, over the reals -/

theorem softplus_parts (x : ℝ) : max x 0 + Real.log (1 + Real.exp (-|x|)) = Real.log (1 + Real.exp x) := by
  rcases le_total 0 x with h | h
  · rw [max_eq_left h, abs_of_nonneg h]
    have e : (1 : ℝ) + Real.exp x = Real.exp x * (1 + Real.exp (-x)) := by
      rw [mul_add, mul_one, ← Real.exp_add, add_neg_cancel, Real.exp_zero]; ring
    rw [e, Real.log_mul (Real.exp_pos x).ne' (by positivity), Real.log_exp]
  · rw [max_eq_right h, abs_of_nonpos h, neg_neg, zero_add]

/-! ## The density, both ways -/

/-- The density as the kernel computes it, on extended reals. -/
def densK (t x : EReal) : EReal :=
  1 - Ideal.exp ((0 - t) * Scalar.select (Ideal.cmp .one (x - 0) (x - 0)) (x + 0)
    (max x 0 + Ideal.log1p (Ideal.exp (0 - max (x - 0) (-(x - 0))))))

/-- The density as the reference computes it. -/
def densR (t x : EReal) : EReal := 1 - Ideal.pow (1 + Ideal.exp x) (-t)

theorem densK_eq_densR (t x : ℝ) : densK (t : EReal) (x : EReal) = densR (t : EReal) (x : EReal) := by
  unfold densK densR
  have hcmp : Ideal.cmp .one ((x : EReal) - 0) ((x : EReal) - 0) = 0#1 := by
    simp [Ideal.cmp]
  have habs : max ((x : EReal) - 0) (-((x : EReal) - 0)) = ((|x| : ℝ) : EReal) := by
    rw [sub_zero, ← EReal.coe_neg, ← EReal.coe_strictMono.monotone.map_max]; rfl
  have hpos : (0 : ℝ) < 1 + Real.exp (-|x|) := by positivity
  have hpos' : (0 : ℝ) < 1 + Real.exp x := by positivity
  have hsel : Scalar.select (0#1) ((x : EReal) + 0)
      (max (x : EReal) 0 + Ideal.log1p (Ideal.exp (0 - ((|x| : ℝ) : EReal))))
      = ((max x 0 + Real.log (1 + Real.exp (-|x|)) : ℝ) : EReal) := by
    have h0 : (0 : EReal) - ((|x| : ℝ) : EReal) = ((-|x| : ℝ) : EReal) := by
      rw [zero_sub, EReal.coe_neg]
    have h1 : Ideal.exp ((-|x| : ℝ) : EReal) = ((Real.exp (-|x|) : ℝ) : EReal) := rfl
    have h2 : (1 : EReal) + ((Real.exp (-|x|) : ℝ) : EReal) = ((1 + Real.exp (-|x|) : ℝ) : EReal) := by
      rw [EReal.coe_add, EReal.coe_one]
    have h3 : Ideal.log ((1 + Real.exp (-|x|) : ℝ) : EReal) = ((Real.log (1 + Real.exp (-|x|)) : ℝ) : EReal) := by
      show (if (1 + Real.exp (-|x|) : ℝ) ≤ 0 then (⊥ : EReal) else _) = _
      rw [if_neg (not_le.mpr hpos)]
    have h4 : max (x : EReal) 0 = ((max x 0 : ℝ) : EReal) := by
      rw [← EReal.coe_zero, ← EReal.coe_strictMono.monotone.map_max]
    show (if (0#1 : BitVec 1) = 1 then _ else _) = _
    rw [if_neg (by decide), h0, Ideal.log1p, h1, h2, h3, h4, ← EReal.coe_add]
  rw [hcmp, habs, hsel, softplus_parts]
  have hk : (0 : EReal) - (t : EReal) = ((-t : ℝ) : EReal) := by rw [zero_sub, EReal.coe_neg]
  have hr1 : Ideal.exp (x : EReal) = ((Real.exp x : ℝ) : EReal) := rfl
  have hr2 : (1 : EReal) + ((Real.exp x : ℝ) : EReal) = ((1 + Real.exp x : ℝ) : EReal) := by
    rw [EReal.coe_add, EReal.coe_one]
  have hr3 : -(t : EReal) = ((-t : ℝ) : EReal) := by rw [EReal.coe_neg]
  rw [hk, ← EReal.coe_mul, hr1, hr2, hr3]
  show (1 : EReal) - ((Real.exp (-t * Real.log (1 + Real.exp x)) : ℝ) : EReal)
    = 1 - ((Real.rpow (1 + Real.exp x) (-t) : ℝ) : EReal)
  congr 2
  show _ = (1 + Real.exp x) ^ (-t)
  rw [Real.rpow_def_of_pos hpos', mul_comm]

/-! ## The colour -/

/-- The reference's logistic, spelt out. -/
def colR (x : EReal) : EReal := Ideal.div 1 (1 + Ideal.exp (-x))

theorem logistic_eq_colR (x : EReal) : Ideal.logistic x = colR x := rfl

/-! ## Eight terms summed two ways -/

theorem sum8_eq (f : Fin 8 → EReal) :
    0 + ∑ c : Fin 8, f c = f 0 + f 1 + f 2 + f 3 + f 4 + f 5 + f 6 + f 7 := by
  rw [zero_add, Fin.sum_univ_eight]

/-! ## Being a real number is kept by the operations of the sample's weights -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.floor {x : EReal} (hx : IsReal x) : IsReal (Ideal.liftRound Int.floor x) := by
  obtain ⟨a, rfl⟩ := hx; exact ⟨((⌊a⌋ : ℤ) : ℝ), rfl⟩
theorem IsReal.div_coe {x : EReal} (hx : IsReal x) {b : ℝ} (hb : b ≠ 0) : IsReal (Ideal.div x (b : EReal)) := by
  obtain ⟨a, rfl⟩ := hx
  refine ⟨a * b⁻¹, ?_⟩
  unfold Ideal.div
  rw [if_neg (by exact_mod_cast hb), ← EReal.coe_inv, ← EReal.coe_mul]
theorem IsReal.sqrt {x : EReal} (hx : IsReal x) (h0 : 0 ≤ x) : IsReal (Ideal.sqrt x) := by
  obtain ⟨a, rfl⟩ := hx
  have ha : (0 : ℝ) ≤ a := by exact_mod_cast h0
  exact ⟨Real.sqrt a, by show (if a < 0 then (⊥ : EReal) else _) = _; rw [if_neg (not_lt.mpr ha)]⟩
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

end Cert.GridSample.Law

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibConvAlgebra.lean ====
/-
  The algebra of a degree-normalised graph convolution, on the extended reals, over an abstract finite set of edges.

  One layer multiplies a node's row by c (its own degree factor, a non-negative real), adds the rows gathered along the
  node's incoming edges, each already scaled by its source's factor a e, adds the node's own row times c, and then a
  bias. Scaling the whole aggregate by c afterwards is the same as scaling every incoming term by a e · c and the own
  term by c · c: a non-negative REAL factor distributes over sums of extended reals, whatever infinities the rows
  hold. Where the aggregate is then contracted with a weight matrix, the statement is an identity of real numbers
  (distributivity and an exchange of two finite sums), stated over coercions because it fails at the infinities.
  Around these: the word 0x3F800000 is the real 1, the degree "one per incoming edge, plus one" is a positive real whose
  inverse square root is a non-negative real, and a finite dot product of reals is real.
-/
import Mathlib.Data.EReal.Operations
import Mathlib.Algebra.BigOperators.Ring.Finset
import Mathlib.Algebra.BigOperators.Group.Finset.Sigma
import Mathlib.Tactic.Ring
import Idealize.ShloMosaic.PureOps.Ideal
import Idealize.ShloMosaic.PureOps.Ideal.Laws
import proofs.«178290_j77008763617691_2_alg».proof.Proof.LibERealSum

open scoped BigOperators

namespace Cert.Lib.ConvAlgebra

open Idealize.ShloMosaic
open Cert.Lib.ERealSum (coe_sum)

/-! ## A non-negative real factor through a finite sum of extended reals -/

/-- A non-negative real factor distributes over a finite sum of extended reals (no finiteness of the terms: it is
    the two-term law, which holds for such a factor, by induction on the set). -/
theorem coe_mul_sum_of_nonneg {ε : Type*} (L : Finset ε) (c : ℝ) (hc : 0 ≤ c) (f : ε → EReal) :
    (c : EReal) * ∑ e ∈ L, f e = ∑ e ∈ L, (c : EReal) * f e := by
  classical
  induction L using Finset.induction_on with
  | empty => simp
  | insert x S hx ih =>
    rw [Finset.sum_insert hx, Finset.sum_insert hx,
      EReal.left_distrib_of_nonneg_of_ne_top (EReal.coe_nonneg.mpr hc) (EReal.coe_ne_top c), ih]

/-! ## One layer: the factor c pushed inside the aggregate -/

/-- Scaling the aggregate (incoming terms plus own term) by the non-negative real c, then adding the bias, is the
    aggregate of the incoming terms each scaled by a e · dd e (dd e = c on the edges) and the own term scaled by
    c · c, plus the bias. -/
theorem layer1 {ε : Type*} (L : Finset ε) (c : ℝ) (hc : 0 ≤ c) (Hg a dd : ε → EReal)
    (hdd : ∀ e ∈ L, dd e = (c : EReal)) (Hn b : EReal) :
    (c : EReal) * ((0 + ∑ e ∈ L, Hg e * a e) + Hn * (c : EReal)) + b
      = ((0 + ∑ e ∈ L, Hg e * (a e * dd e)) + Hn * ((c : EReal) * (c : EReal))) + b := by
  refine congrArg (· + b) ?_
  rw [zero_add, zero_add,
    EReal.left_distrib_of_nonneg_of_ne_top (EReal.coe_nonneg.mpr hc) (EReal.coe_ne_top c),
    coe_mul_sum_of_nonneg L c hc]
  congr 1
  · refine Finset.sum_congr rfl fun e he => ?_
    rw [hdd e he, mul_left_comm, mul_comm (c : EReal) (a e)]
  · rw [mul_left_comm]

/-- With real rows, factors and bias the layer's value, and its maximum with a real, is a real number. -/
theorem layer1_real {ε : Type*} (L : Finset ε) (c : ℝ) (Hg a : ε → ℝ) (Hn b z : ℝ) :
    ∃ r : ℝ, max ((c : EReal) * ((0 + ∑ e ∈ L, (Hg e : EReal) * (a e : EReal)) + (Hn : EReal) * (c : EReal))
      + (b : EReal)) (z : EReal) = (r : EReal) := by
  refine ⟨max (c * ((0 + ∑ e ∈ L, Hg e * a e) + Hn * c) + b) z, ?_⟩
  simp only [← EReal.coe_mul, ← coe_sum, ← EReal.coe_zero, ← EReal.coe_add]
  exact (EReal.coe_strictMono.monotone.map_max).symm

/-! ## One layer followed by a contraction with a weight matrix: an identity of real numbers -/

/-- The aggregate scaled by c and contracted with the weights w over κ, plus the bias, is the aggregate of the
    contracted incoming rows each scaled by a e · dd e and the contracted own row scaled by c · c, plus the bias:
    distributivity and the exchange of the sums over κ and over the edges, on real numbers. -/
theorem layer2 {ε κ : Type*} [Fintype κ] (L : Finset ε) (c : ℝ) (he : ε → κ → ℝ) (a : ε → ℝ) (dd : ε → EReal)
    (hdd : ∀ e ∈ L, dd e = (c : EReal)) (hn w : κ → ℝ) (b : EReal) :
    (∑ k, ((c : EReal) * ((0 + ∑ e ∈ L, (he e k : EReal) * (a e : EReal)) + (hn k : EReal) * (c : EReal)))
        * (w k : EReal)) + b
      = ((0 + ∑ e ∈ L, (∑ k, (he e k : EReal) * (w k : EReal)) * ((a e : EReal) * dd e))
          + (∑ k, (hn k : EReal) * (w k : EReal)) * ((c : EReal) * (c : EReal))) + b := by
  refine congrArg (· + b) ?_
  have hsum : ∑ e ∈ L, (∑ k, (he e k : EReal) * (w k : EReal)) * ((a e : EReal) * dd e)
      = ∑ e ∈ L, (∑ k, (he e k : EReal) * (w k : EReal)) * ((a e : EReal) * (c : EReal)) :=
    Finset.sum_congr rfl fun e h => by rw [hdd e h]
  rw [hsum]
  simp only [← EReal.coe_mul, ← coe_sum, ← EReal.coe_zero, ← EReal.coe_add]
  refine congrArg _ ?_
  simp only [zero_add, mul_add, add_mul, Finset.mul_sum, Finset.sum_mul, Finset.sum_add_distrib]
  congr 1
  · rw [Finset.sum_comm]
    exact Finset.sum_congr rfl fun e _ => Finset.sum_congr rfl fun k _ => by ring
  · exact Finset.sum_congr rfl fun k _ => by ring

/-! ## The word of 1, the degree, and a real dot product -/

/-- The 32-bit float word 0x3F800000 (sign 0, exponent field 127, significand field 0) is the real number 1. -/
theorem ofBits_one : Ideal.ofBits .f32 0x3F800000#32 = ((1 : ℝ) : EReal) := by
  simp [Ideal.ofBits, Ideal.ieee, -EReal.coe_mul]
  norm_num

/-- The degree of a node — one per incoming edge, counted from 0, plus one for the node itself — is the real number
    |L| + 1 > 0, so its inverse square root is the non-negative real (√(|L| + 1))⁻¹. -/
theorem rsqrt_degree {ε : Type*} (L : Finset ε) :
    ∃ r : ℝ, 0 ≤ r ∧ Ideal.rsqrt ((Ideal.ofBits .f32 0x00000000#32 + ∑ _e ∈ L, Ideal.ofBits .f32 0x3F800000#32)
      + Ideal.ofBits .f32 0x3F800000#32) = (r : EReal) := by
  refine ⟨(Real.sqrt ((L.card : ℝ) + 1))⁻¹, inv_nonneg.mpr (Real.sqrt_nonneg _), ?_⟩
  have harg : (Ideal.ofBits .f32 0x00000000#32 + ∑ _e ∈ L, Ideal.ofBits .f32 0x3F800000#32)
      + Ideal.ofBits .f32 0x3F800000#32 = ((((L.card : ℝ) + 1 : ℝ)) : EReal) := by
    rw [Ideal.ofBits_zero_f32, ofBits_one, zero_add, ← coe_sum, Finset.sum_const, nsmul_eq_mul, mul_one,
      ← EReal.coe_add]
  have hpos : (0 : ℝ) < (L.card : ℝ) + 1 := by positivity
  rw [harg, Ideal.rsqrt_coe, if_neg (not_lt.mpr hpos.le), if_neg hpos.ne']

/-- A finite dot product of two families of real numbers, read in the extended reals, is a real number. -/
theorem real_dot {κ : Type*} [Fintype κ] (u v : κ → EReal) (hu : ∀ k, ∃ r : ℝ, u k = r) (hv : ∀ k, ∃ r : ℝ, v k = r) :
    ∃ r : ℝ, ∑ k, u k * v k = (r : EReal) := by
  choose ru hru using hu
  choose rv hrv using hv
  refine ⟨∑ k, ru k * rv k, ?_⟩
  rw [coe_sum]
  exact Finset.sum_congr rfl fun k _ => by rw [hru k, hrv k, EReal.coe_mul]

end Cert.Lib.ConvAlgebra
-- ==== Proof.KernelPayload.lean ====
/-
  The kernel body's arithmetic read at one index of its output block.

  The body holds a block of corner values `g (ch, k, j)` (4 channels, 8 corners, 32768 points), the three fractional
  coordinates `(wx, wy, wz) (j)` of each point and the ray's interval length `t (j)`. From the fractions it builds the eight
  trilinear weights `wt k` — the products `wz' · wy' · wx'` with each primed factor the fraction or one minus it, in the
  corner order `(z, y, x)` counted in binary —, multiplies each corner by its weight and sums over the corners:
  `raw (ch, j) = ∑ k, g (ch, k, j) · wt k (j)`. Row 0 of the output is the density of `raw (0, j) + shift` over the interval,
  rows 1–3 the logistic of `raw (ch, j)`.
-/
import proofs.«178290_j77008763617691_2_alg».proof.Proof.Gen.KernelIdeal.Skeleton
import proofs.«178290_j77008763617691_2_alg».proof.Proof.SampleLaws
import proofs.«178290_j77008763617691_2_alg».proof.Proof.LibConvAlgebra
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Cert.GridSample

/-- The number one as the programs spell it: the f32 word of 1.0 read as an extended real. -/
abbrev one : EReal := Ideal.ofBits .f32 0x3F800000#32
/-- The density shift as the programs spell it. -/
abbrev shift : EReal := Ideal.ofBits .f32 0xC15D0C54#32
/-- Zero as the programs spell it. -/
abbrev zero : EReal := Ideal.ofBits .f32 0x00000000#32

/-- The eight trilinear weights of a point from its three fractions, corners in the order (z, y, x) in binary. -/
def wt (wx wy wz : EReal) (k : Fin 8) : EReal :=
  match k with
  | ⟨0, _⟩ => (one - wz) * (one - wy) * (one - wx)
  | ⟨1, _⟩ => (one - wz) * (one - wy) * wx
  | ⟨2, _⟩ => (one - wz) * wy * (one - wx)
  | ⟨3, _⟩ => (one - wz) * wy * wx
  | ⟨4, _⟩ => wz * (one - wy) * (one - wx)
  | ⟨5, _⟩ => wz * (one - wy) * wx
  | ⟨6, _⟩ => wz * wy * (one - wx)
  | ⟨7, _⟩ => wz * wy * wx
  | ⟨_ + 8, h⟩ => absurd h (by omega)

/-- A point's weighted corner sum in one channel. -/
def raw (g : Fin 8 → EReal) (wx wy wz : EReal) : EReal := ∑ k : Fin 8, g k * wt wx wy wz k

/-! ## The rows of the fractions block -/

theorem frac_row0 (x1 : FVec Ideal S3x32768 .f32) (j : Fin 32768) :
    extractStridedSlice S1x32768 ![0, 0] (shapeCast S3x32768 x1 shapeCasts_S3x32768_S3x32768) slices_S3x32768_o0_0_S1x32768
      (ix2 (0 : Fin 1) j) = x1 (ix2 (0 : Fin 3) j) := by
  rw [shapeCast_self]
  refine extractStridedSlice_apply _ _ _ _ (ix2 (0 : Fin 3) j) fun a => ?_
  match a with
  | ⟨0, _⟩ => rfl
  | ⟨1, _⟩ => exact (Nat.zero_add _).symm

theorem frac_row1 (x1 : FVec Ideal S3x32768 .f32) (j : Fin 32768) :
    extractStridedSlice S1x32768 ![1, 0] (shapeCast S3x32768 x1 shapeCasts_S3x32768_S3x32768) slices_S3x32768_o1_0_S1x32768
      (ix2 (0 : Fin 1) j) = x1 (ix2 (1 : Fin 3) j) := by
  rw [shapeCast_self]
  refine extractStridedSlice_apply _ _ _ _ (ix2 (1 : Fin 3) j) fun a => ?_
  match a with
  | ⟨0, _⟩ => rfl
  | ⟨1, _⟩ => exact (Nat.zero_add _).symm

theorem frac_row2 (x1 : FVec Ideal S3x32768 .f32) (j : Fin 32768) :
    extractStridedSlice S1x32768 ![2, 0] (shapeCast S3x32768 x1 shapeCasts_S3x32768_S3x32768) slices_S3x32768_o2_0_S1x32768
      (ix2 (0 : Fin 1) j) = x1 (ix2 (2 : Fin 3) j) := by
  rw [shapeCast_self]
  refine extractStridedSlice_apply _ _ _ _ (ix2 (2 : Fin 3) j) fun a => ?_
  match a with
  | ⟨0, _⟩ => rfl
  | ⟨1, _⟩ => exact (Nat.zero_add _).symm

/-! ## The weighted corner sum -/

set_option hygiene false in
/-- One corner's term: the broadcast of the weights row k to every channel, read at (ch, k, j), is weight k of point j. -/
local macro "corner_term" kk:num : tactic => `(tactic|
  ( refine (broadcastTo_apply _ _ (ix3 ch (⟨$kk, by omega⟩ : Fin 8) j) (ix3 (0 : Fin 1) (⟨$kk, by omega⟩ : Fin 8) j) (fun a => by
        match a with
        | ⟨0, _⟩ => rfl
        | ⟨1, _⟩ => rfl
        | ⟨2, _⟩ => rfl)).trans ?_
    refine (shapeCast_addUnit_apply ![8, 32768] _ _ _).trans ?_
    refine (concatenate_apply_piece (t := S8x32768) (0 : Fin 2) _ _ _ $kk ?_ S1x32768 _ rfl rfl $kk ?_ (ix2 (0 : Fin 1) j) ?_ ?_).trans ?_
    · exact (by decide : $kk < 8)
    · rfl
    · intro b hb
      match b with
      | ⟨0, _⟩ => exact absurd rfl hb
      | ⟨1, _⟩ => rfl
    · rfl
    simp only [mulf_apply, subf_apply, broadcast_apply, frac_row0, frac_row1, frac_row2]
    rfl ))

theorem pay2_apply (x0 : FVec Ideal S4x8x32768 .f32) (x1 : FVec Ideal S3x32768 .f32) (ch : Fin 4) (j : Fin 32768) :
    k0_pay2 (F := Ideal) x0 x1 (ix2 ch j)
      = raw (fun k => x0 (ix3 ch k j)) (x1 (ix2 (0 : Fin 3) j)) (x1 (ix2 (1 : Fin 3) j)) (x1 (ix2 (2 : Fin 3) j)) := by
  unfold k0_pay2 raw
  dsimp only
  refine (Ideal.multiReduction_add_single _ 0x00000000#32 reduces_S4x8x32768_S4x32768 (.inl rfl) rfl (ix2 ch j)).trans ?_
  show ∑ k : Fin 8, _ = _
  refine Finset.sum_congr rfl fun k _ => ?_
  have hl : reduces_S4x8x32768_S4x32768.lift (ix2 ch j) k = ix3 ch k j := by
    funext a
    match a with
    | ⟨0, _⟩ => rfl
    | ⟨1, _⟩ => rfl
    | ⟨2, _⟩ => rfl
  rw [hl]
  show (shapeCast S4x8x32768 x0 shapeCasts_S4x8x32768_S4x8x32768) (ix3 ch k j) * _ = _
  rw [shapeCast_self]
  refine congrArg (x0 (ix3 ch k j) * ·) ?_
  match k with
  | ⟨0, _⟩ => corner_term 0
  | ⟨1, _⟩ => corner_term 1
  | ⟨2, _⟩ => corner_term 2
  | ⟨3, _⟩ => corner_term 3
  | ⟨4, _⟩ => corner_term 4
  | ⟨5, _⟩ => corner_term 5
  | ⟨6, _⟩ => corner_term 6
  | ⟨7, _⟩ => corner_term 7

/-! ## The stored block, row by row -/

/-- What the body stores into its output block, as a function of its three input blocks. -/
abbrev stored (x0 : FVec Ideal S4x8x32768 .f32) (x1 : FVec Ideal S3x32768 .f32) (x2 : FVec Ideal S1x32768 .f32) :
    FVec Ideal S4x32768 .f32 :=
  k0_pay1 (k0_pay3 x0 x1) (k0_pay4 x2) (k0_pay5 x0 x1) (Scalar.ofBits .f32 0x00000000#32) (k0_pay6 x0 x1) (k0_pay7 (F := Ideal))

theorem sum_row0 (v : FVec Ideal S4x32768 .f32) (j : Fin 32768) :
    extractStridedSlice S1x32768 ![0, 0] v slices_S4x32768_o0_0_S1x32768 (ix2 (0 : Fin 1) j) = v (ix2 (0 : Fin 4) j) := by
  refine extractStridedSlice_apply _ _ _ _ (ix2 (0 : Fin 4) j) fun a => ?_
  match a with
  | ⟨0, _⟩ => rfl
  | ⟨1, _⟩ => exact (Nat.zero_add _).symm

theorem sum_rows (v : FVec Ideal S4x32768 .f32) (ch : Fin 3) (j : Fin 32768) :
    extractStridedSlice S3x32768 ![1, 0] v slices_S4x32768_o1_0_S3x32768 (ix2 ch j)
      = v (ix2 (⟨ch.val + 1, by omega⟩ : Fin 4) j) := by
  refine extractStridedSlice_apply _ _ _ _ (ix2 (⟨ch.val + 1, by omega⟩ : Fin 4) j) fun a => ?_
  match a with
  | ⟨0, _⟩ => exact Nat.add_comm _ _
  | ⟨1, _⟩ => exact (Nat.zero_add _).symm

/-- The exponential, log1p and absolute value at an index are those of the element. -/
theorem exp_apply {s : Shape} (v : FVec Ideal s .f32) (i : s.Idx) : exp v i = Ideal.exp (v i) := rfl
theorem log1p_apply {s : Shape} (v : FVec Ideal s .f32) (i : s.Idx) : log1p v i = Ideal.log1p (v i) := rfl
theorem absf_apply {s : Shape} (v : FVec Ideal s .f32) (i : s.Idx) : absf v i = max (v i) (-(v i)) := rfl

/-- The one-operation logistic at an index is the logistic of the element. -/
theorem logistic_apply {s : Shape} (v : FVec Ideal s .f32) (i : s.Idx) : logistic v i = Ideal.logistic (v i) := rfl

/-- Row 0 of the stored block: the density of the point's weighted corner sum in channel 0, shifted, over its interval. -/
theorem stored_density (x0 : FVec Ideal S4x8x32768 .f32) (x1 : FVec Ideal S3x32768 .f32) (x2 : FVec Ideal S1x32768 .f32)
    (j : Fin 32768) :
    stored x0 x1 x2 (ix2 (0 : Fin 4) j)
      = Law.densK (x2 (ix2 (0 : Fin 1) j))
          (raw (fun k => x0 (ix3 (0 : Fin 4) k j)) (x1 (ix2 (0 : Fin 3) j)) (x1 (ix2 (1 : Fin 3) j)) (x1 (ix2 (2 : Fin 3) j)) + shift) := by
  unfold stored k0_pay1
  try dsimp only
  refine (concatenate_apply_piece (t := S4x32768) (0 : Fin 2) _ _ _ 0 ?_ S1x32768 _ rfl rfl 0 ?_ (ix2 (0 : Fin 1) j) ?_ ?_).trans ?_
  · exact (by decide : 0 < 2)
  · rfl
  · intro b hb
    match b with
    | ⟨0, _⟩ => exact absurd rfl hb
    | ⟨1, _⟩ => rfl
  · rfl
  have hx : k0_pay5 (F := Ideal) x0 x1 (ix2 (0 : Fin 1) j)
      = raw (fun k => x0 (ix3 (0 : Fin 4) k j)) (x1 (ix2 (0 : Fin 3) j)) (x1 (ix2 (1 : Fin 3) j)) (x1 (ix2 (2 : Fin 3) j)) + shift := by
    unfold k0_pay5
    try dsimp only
    show extractStridedSlice S1x32768 ![0, 0] (k0_pay2 (F := Ideal) x0 x1) slices_S4x32768_o0_0_S1x32768 (ix2 (0 : Fin 1) j) + shift = _
    rw [sum_row0, pay2_apply]
  have ht : k0_pay4 (F := Ideal) x2 (ix2 (0 : Fin 1) j) = zero - x2 (ix2 (0 : Fin 1) j) := by
    unfold k0_pay4
    try dsimp only
    rw [shapeCast_self]
    rfl
  have hm : k0_pay6 (F := Ideal) x0 x1 (ix2 (0 : Fin 1) j) = max (k0_pay5 (F := Ideal) x0 x1 (ix2 (0 : Fin 1) j)) zero := rfl
  have h7 : k0_pay7 (F := Ideal) (ix2 (0 : Fin 1) j) = zero := rfl
  simp only [subf_apply, mulf_apply, addf_apply, select_apply, cmpf_apply, broadcast_apply, exp_apply, log1p_apply,
    absf_apply, hm, ht, hx, h7]
  unfold Law.densK
  have hc : ∀ a b : EReal, FloatOps.cmpf (F := Ideal) (φ := .f32) .one a b = Ideal.cmp .one a b := fun _ _ => rfl
  have h1 : FloatOps.ofBits (F := Ideal) .f32 0x3F800000#32 = (1 : EReal) := by
    rw [Ideal.ofBits_def, Cert.Lib.ConvAlgebra.ofBits_one, EReal.coe_one]
  have h0 : FloatOps.ofBits (F := Ideal) .f32 0x00000000#32 = (0 : EReal) := by
    rw [Ideal.ofBits_def, Ideal.ofBits_zero_f32]
  have hz : zero = (0 : EReal) := Ideal.ofBits_zero_f32
  simp only [hc, h1, h0, hz]

/-- Rows 1–3 of the stored block: the logistic of the point's weighted corner sum in that channel. -/
theorem stored_color (x0 : FVec Ideal S4x8x32768 .f32) (x1 : FVec Ideal S3x32768 .f32) (x2 : FVec Ideal S1x32768 .f32)
    (ch : Fin 3) (j : Fin 32768) :
    stored x0 x1 x2 (ix2 (⟨ch.val + 1, by omega⟩ : Fin 4) j)
      = Ideal.logistic (raw (fun k => x0 (ix3 (⟨ch.val + 1, by omega⟩ : Fin 4) k j))
          (x1 (ix2 (0 : Fin 3) j)) (x1 (ix2 (1 : Fin 3) j)) (x1 (ix2 (2 : Fin 3) j))) := by
  unfold stored k0_pay1
  try dsimp only
  refine (concatenate_apply_piece (t := S4x32768) (0 : Fin 2) _ _ _ 1 ?_ S3x32768 _ rfl rfl 1 ?_ (ix2 ch j) ?_ ?_).trans ?_
  · exact (by decide : 1 < 2)
  · rfl
  · intro b hb
    match b with
    | ⟨0, _⟩ => exact absurd rfl hb
    | ⟨1, _⟩ => rfl
  · exact Nat.add_comm _ _
  refine (logistic_apply (k0_pay3 (F := Ideal) x0 x1) (ix2 ch j)).trans (congrArg Ideal.logistic ?_)
  unfold k0_pay3
  try dsimp only
  rw [sum_rows, pay2_apply]

end Cert.KernelIdeal.Pay

end
-- ==== Proof.KernelArray.lean ====
/-
  From blocks to the array: what the region's output array holds after the run, as one function of the three operand
  arrays as the region finds them.

  The grid has 128 points. Point `t` reads columns `t·32768 … t·32768 + 32767` of each operand (all channels, all
  corners) and writes the same columns of the output, all four rows. Every output index lies in exactly the block of the
  point `n / 32768`, so the blocks cover the array, and the array after the run is, index by index, the body's stored value
  at that column: row 0 the density, rows 1–3 the logistic of the weighted corner sums.
-/
import proofs.«178290_j77008763617691_2_alg».proof.Proof.FrameIdeal
import proofs.«178290_j77008763617691_2_alg».proof.Proof.KernelPayload
import Idealize.ShloMosaic.Lib.Pipeline.Value

set_option maxRecDepth 16384

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.GridSample

variable (m : (ℓ : Loc nD τ sig) → Buf (Elt Ideal) ℓ) (ρ : Dev nD → PrngReg)

/-- The output array's element in row `ch`, column `n`, from the operand arrays. -/
def outAt (A0 : S4x8x4194304.Idx → EReal) (A1 : S3x4194304.Idx → EReal) (A2 : S1x4194304.Idx → EReal)
    (ch : Fin 4) (n : Fin 4194304) : EReal :=
  if ch.val = 0 then
    Law.densK (A2 (ix2 (0 : Fin 1) n))
      (raw (fun k => A0 (ix3 (0 : Fin 4) k n)) (A1 (ix2 (0 : Fin 3) n)) (A1 (ix2 (1 : Fin 3) n)) (A1 (ix2 (2 : Fin 3) n)) + shift)
  else
    Ideal.logistic (raw (fun k => A0 (ix3 ch k n)) (A1 (ix2 (0 : Fin 3) n)) (A1 (ix2 (1 : Fin 3) n)) (A1 (ix2 (2 : Fin 3) n)))

/-- The output array as one function. -/
def out (A0 : S4x8x4194304.Idx → EReal) (A1 : S3x4194304.Idx → EReal) (A2 : S1x4194304.Idx → EReal) :
    S4x4194304.Idx → EReal :=
  fun i => outAt A0 A1 A2 ⟨(i 0).val, idx2_lt0 i⟩ ⟨(i 1).val, idx2_lt1 i⟩

/-- Column `j` of point `t`'s blocks is column `t·32768 + j` of the arrays. -/
def col (t : Fin 128) (j : Fin 32768) : Fin 4194304 := ⟨t.val * 32768 + j.val, by omega⟩

theorem N128 : cfg0.N = 128 := N_0

/-- The printed index maps over the grid: every window's block index is 0 on every axis but the last, and the point's
    number on the last. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a number below 128. -/
def pt (t : Fin cfg0.N) : Fin 128 := ⟨t.val, lt_of_lt_of_eq t.isLt N128⟩

/-! ## Where each window's block sits in its array -/

theorem emb0 (t : Fin cfg0.N) (ch : Fin 4) (k : Fin 8) (j : Fin 32768) :
    ((cfg0.win 0).blk t).view.emb (ix3 ch k j) = ix3 ch k (col (pt t) j) := by
  obtain ⟨e0, e1, e2, -, -, -, -, -, -⟩ := idx_facts t
  funext a; apply Fin.ext
  match a with
  | ⟨0, _⟩ => show win0_0.index t (0 : Fin 3) * 4 + 1 * ch.val = ch.val; omega
  | ⟨1, _⟩ => show win0_0.index t (1 : Fin 3) * 8 + 1 * k.val = k.val; omega
  | ⟨2, _⟩ => show win0_0.index t (2 : Fin 3) * 32768 + 1 * j.val = t.val * 32768 + j.val; omega

theorem emb1 (t : Fin cfg0.N) (a' : Fin 3) (j : Fin 32768) :
    ((cfg0.win 1).blk t).view.emb (ix2 a' j) = ix2 a' (col (pt t) j) := by
  obtain ⟨-, -, -, e0, e1, -, -, -, -⟩ := idx_facts t
  funext a; apply Fin.ext
  match a with
  | ⟨0, _⟩ => show win0_1.index t (0 : Fin 2) * 3 + 1 * a'.val = a'.val; omega
  | ⟨1, _⟩ => show win0_1.index t (1 : Fin 2) * 32768 + 1 * j.val = t.val * 32768 + j.val; omega

theorem emb2 (t : Fin cfg0.N) (j : Fin 32768) :
    ((cfg0.win 2).blk t).view.emb (ix2 (0 : Fin 1) j) = ix2 (0 : Fin 1) (col (pt t) j) := by
  obtain ⟨-, -, -, -, -, e0, e1, -, -⟩ := idx_facts t
  funext a; apply Fin.ext
  match a with
  | ⟨0, _⟩ => show win0_2.index t (0 : Fin 2) * 1 + 1 * 0 = 0; omega
  | ⟨1, _⟩ => show win0_2.index t (1 : Fin 2) * 32768 + 1 * j.val = t.val * 32768 + j.val; omega

theorem emb3 (t : Fin cfg0.N) (ch : Fin 4) (j : Fin 32768) :
    ((cfg0.win 3).blk t).view.emb (ix2 ch j) = ix2 ch (col (pt t) j) := by
  obtain ⟨-, -, -, -, -, -, -, e0, e1⟩ := idx_facts t
  funext a; apply Fin.ext
  match a with
  | ⟨0, _⟩ => show win0_3.index t (0 : Fin 2) * 4 + 1 * ch.val = ch.val; omega
  | ⟨1, _⟩ => show win0_3.index t (1 : Fin 2) * 32768 + 1 * j.val = t.val * 32768 + j.val; omega

/-- A block read at a block index is the array read where the block sits. -/
theorem iblk0_apply (c : Dev nD) (t : Fin cfg0.N) (ch : Fin 4) (k : Fin 8) (j : Fin 32768) :
    iblk m c 0 t (ix3 ch k j) = V m c main_v118 (ix3 ch k (col (pt t) j)) := by
  show V m c main_v118 (((cfg0.win 0).blk t).view.emb (ix3 ch k j)) = _
  rw [emb0]
theorem iblk1_apply (c : Dev nD) (t : Fin cfg0.N) (a' : Fin 3) (j : Fin 32768) :
    iblk m c 1 t (ix2 a' j) = V m c main_v119 (ix2 a' (col (pt t) j)) := by
  show V m c main_v119 (((cfg0.win 1).blk t).view.emb (ix2 a' j)) = _
  rw [emb1]
theorem iblk2_apply (c : Dev nD) (t : Fin cfg0.N) (j : Fin 32768) :
    iblk m c 2 t (ix2 (0 : Fin 1) j) = V m c main_v12 (ix2 (0 : Fin 1) (col (pt t) j)) := by
  show V m c main_v12 (((cfg0.win 2).blk t).view.emb (ix2 (0 : Fin 1) j)) = _
  rw [emb2]

/-! ## What a point writes back, and the array after the run -/

/-- The operand arrays as the region finds them. -/
abbrev A0 (c : Dev nD) : S4x8x4194304.Idx → EReal := V m c main_v118
abbrev A1 (c : Dev nD) : S3x4194304.Idx → EReal := V m c main_v119
abbrev A2 (c : Dev nD) : S1x4194304.Idx → EReal := V m c main_v12

/-- WHAT POINT `t` WRITES BACK is block `t` of `out` of the operand arrays. -/
theorem flushed_eq (c : Dev nD) (t : Fin cfg0.N) :
    (dats m 0 c).flushed 3 t = ((cfg0.win 3).blk t).view.read (Elt Ideal) (out (A0 m c) (A1 m c) (A2 m c)) := by
  show (cfg0.win 3).cut (grid0.coords t) ((dats m 0 c).after 3 t) = _
  rw [after0_3]
  unfold out0_3
  rw [View.canon_unit_zero hz2]
  simp only [View.ld_unit_zero (S := S4x8x32768) hz3, View.ld_unit_zero (S := S3x32768) hz2, View.ld_unit_zero (S := S1x32768) hz2]
  funext y
  obtain ⟨ch, j, rfl⟩ : ∃ (ch : Fin 4) (j : Fin 32768), y = ix2 ch j := ⟨y 0, y 1, eq_ix2 y⟩
  show stored (iblk m c 0 t) (iblk m c 1 t) (iblk m c 2 t) (ix2 ch j)
    = out (A0 m c) (A1 m c) (A2 m c) (((cfg0.win 3).blk t).view.emb (ix2 ch j))
  rw [emb3]
  show _ = outAt (A0 m c) (A1 m c) (A2 m c) ch (col (pt t) j)
  unfold outAt
  by_cases h0 : ch.val = 0
  · obtain rfl : ch = (0 : Fin 4) := Fin.ext h0
    rw [if_pos h0]
    refine (stored_density (iblk m c 0 t) (iblk m c 1 t) (iblk m c 2 t) j).trans ?_
    simp only [iblk0_apply, iblk1_apply, iblk2_apply]
  · rw [if_neg h0]
    obtain ⟨ch', rfl⟩ : ∃ ch' : Fin 3, ch = ⟨ch'.val + 1, by omega⟩ := ⟨⟨ch.val - 1, by omega⟩, Fin.ext (by show ch.val = ch.val - 1 + 1; omega)⟩
    refine (stored_color (iblk m c 0 t) (iblk m c 1 t) (iblk m c 2 t) ch' j).trans ?_
    simp only [iblk0_apply, iblk1_apply]

/-- An index of the output array is in point `t`'s block iff each coordinate is in the block's range on its axis. -/
theorem mem_blk (t : Fin cfg0.N) (i : S4x4194304.Idx) :
    i ∈ ((cfg0.win 3).blk t).view.set ↔ ∀ a : Fin 2, win0_3.index t a * S4x32768.size a ≤ (i a).val
      ∧ (i a).val < win0_3.index t a * S4x32768.size a + S4x32768.size a := by
  show i ∈ ((View.whole main_v120).slice (win0_3.rect t)).set ↔ _
  rw [View.set_slice_whole, Rect.mem_set_unit]
  exact Iff.rfl

/-- Every index of the output array lies in the block of the point its column falls in. -/
theorem cover (i : S4x4194304.Idx) :
    ∃ t : Fin cfg0.N, (cfg0.win 3).flush t = true ∧ i ∈ ((cfg0.win 3).blk t).view.set := by
  have hi0 : (i 0).val < 4 := idx2_lt0 i
  have hi1 : (i 1).val < 4194304 := idx2_lt1 i
  let t : Fin cfg0.N := ⟨(i 1).val / 32768, by rw [N128]; omega⟩
  obtain ⟨-, -, -, -, -, -, -, e0, e1⟩ := idx_facts t
  refine ⟨t, flush0_3 t, ?_⟩
  rw [mem_blk]
  intro a
  have ht : t.val = (i 1).val / 32768 := rfl
  match a with
  | ⟨0, _⟩ => show win0_3.index t (0 : Fin 2) * 4 ≤ (i 0).val ∧ (i 0).val < win0_3.index t (0 : Fin 2) * 4 + 4; omega
  | ⟨1, _⟩ => show win0_3.index t (1 : Fin 2) * 32768 ≤ (i 1).val ∧ (i 1).val < win0_3.index t (1 : Fin 2) * 32768 + 32768; omega

/-- THE OUTPUT ARRAY after the run is `out` of the operand arrays as the region finds them. -/
theorem final (c : Dev nD) : (dats m 0 c).arrAt 3 cfg0.N = out (A0 m c) (A1 m c) (A2 m c) :=
  (dats m 0 c).arrAt_eq_of_cover 3 (out (A0 m c) (A1 m c) (A2 m c)) (fun t _ => flushed_eq m c t) cover

end Cert.KernelIdeal.Arr

end
-- ==== Proof.KernelResults.lean ====
/-
  The two results of the kernel's program, read at an index.

  After the region the program slices row 0 of the output array [4, N] and reshapes it to [16384, 256, 1] — the density —
  and slices rows 1–3, transposes them to [N, 3] and reshapes to [16384, 256, 3] — the colour. Both reshapes keep the
  row-major position, so element (r, p, ·) is column r·256 + p of the output array.
-/
import proofs.«178290_j77008763617691_2_alg».proof.Proof.KernelArray
import Idealize.ShloMosaic.Lib.StableHlo.Run

set_option maxRecDepth 16384

noncomputable section

namespace Cert.KernelIdeal.Res

open Cert.KernelIdeal Cert.KernelIdeal.Gen Cert.KernelIdeal.Hand Cert.KernelIdeal.Pay Cert.KernelIdeal.Arr
open Idealize.ShloMosaic Idealize.ShloMosaic.TcCoe Idealize.ShloMosaic.ValueIdx Idealize.SL.Sem Idealize.ShloMosaic.StableHlo
open Idealize.ShloMosaic.Pipeline (Dat)
open Cert.GridSample

variable (m : (ℓ : Loc nD τ sig) → Buf (Elt Ideal) ℓ) (ρ : Dev nD → PrngReg)

/-- Column r·256 + p. -/
def flat (r : Fin 16384) (p : Fin 256) : Fin 4194304 := ⟨r.val * 256 + p.val, by omega⟩

/-- The density result as the operations after the region leave it: the slice of row 0 of the output array, reshaped twice. -/
theorem res0_eq (c : Dev nD) :
    Pipeline.afterTail₀ cfgs (dats m) 0 (V0 m) [hostOps1] c main_v123
      = shapeCast S16384x256x1 (shapeCast S4194304 (extractStridedSlice S1x4194304 ![0, 0]
          (out (A0 m c) (A1 m c) (A2 m c)) slices_S4x4194304_S1x4194304_0_0) shapeCasts_S1x4194304_S4194304)
          shapeCasts_S4194304_S16384x256x1 := by
  unfold Pipeline.afterTail₀
  simp only [List.flatten_cons, List.flatten_nil, List.append_nil]
  after_results
  rw [Pipeline.withArrays_arr spec0 launch0.win.arr_inj c _ _ 3, final]
  rfl

/-- The colour result: the slice of rows 1–3, transposed and reshaped. -/
theorem res1_eq (c : Dev nD) :
    Pipeline.afterTail₀ cfgs (dats m) 0 (V0 m) [hostOps1] c main_v126
      = shapeCast S16384x256x3 (transpose S4194304x3 [1, 0] (extractStridedSlice S3x4194304 ![1, 0]
          (out (A0 m c) (A1 m c) (A2 m c)) slices_S4x4194304_S3x4194304_1_0) transposes_S3x4194304_S4194304x3_1_0)
          shapeCasts_S4194304x3_S16384x256x3 := by
  unfold Pipeline.afterTail₀
  simp only [List.flatten_cons, List.flatten_nil, List.append_nil]
  after_results
  rw [Pipeline.withArrays_arr spec0 launch0.win.arr_inj c _ _ 3, final]
  rfl

/-! ## The results at an index -/

/-- The density result at (r, p, 0) is row 0 of the output array at column r·256 + p. -/
theorem res0_apply (c : Dev nD) (r : Fin 16384) (p : Fin 256) :
    Pipeline.afterTail₀ cfgs (dats m) 0 (V0 m) [hostOps1] c main_v123 (ix3 r p (0 : Fin 1))
      = outAt (A0 m c) (A1 m c) (A2 m c) (0 : Fin 4) (flat r p) := by
  rw [res0_eq]
  refine (shapeCast_apply _ _ (ix3 r p (0 : Fin 1)) (ix1 (flat r p)) ?_).trans ?_
  · rw [Shape.rowMajor_val_one, Shape.rowMajor_val_three]
    show r.val * 256 + p.val = (r.val * 256 + p.val) * 1 + 0
    omega
  refine (shapeCast_apply _ _ (ix1 (flat r p)) (ix2 (0 : Fin 1) (flat r p)) ?_).trans ?_
  · rw [Shape.rowMajor_val_one, Shape.rowMajor_val_two]
    show 0 * 4194304 + (r.val * 256 + p.val) = r.val * 256 + p.val
    omega
  refine (extractStridedSlice_apply _ _ _ (ix2 (0 : Fin 1) (flat r p)) (ix2 (0 : Fin 4) (flat r p)) fun a => ?_).trans ?_
  · match a with
    | ⟨0, _⟩ => rfl
    | ⟨1, _⟩ => exact (Nat.zero_add _).symm
  rfl

/-- The colour result at (r, p, ch) is row ch + 1 of the output array at column r·256 + p. -/
theorem res1_apply (c : Dev nD) (r : Fin 16384) (p : Fin 256) (ch : Fin 3) :
    Pipeline.afterTail₀ cfgs (dats m) 0 (V0 m) [hostOps1] c main_v126 (ix3 r p ch)
      = outAt (A0 m c) (A1 m c) (A2 m c) (⟨ch.val + 1, by omega⟩ : Fin 4) (flat r p) := by
  rw [res1_eq]
  refine (shapeCast_apply _ _ (ix3 r p ch) (ix2 (flat r p) ch) ?_).trans ?_
  · rw [Shape.rowMajor_val_two, Shape.rowMajor_val_three]
    show (r.val * 256 + p.val) * 3 + ch.val = (r.val * 256 + p.val) * 3 + ch.val
    rfl
  refine (transpose_apply _ _ _ (ix2 (flat r p) ch) (ix2 ch (flat r p)) fun b => ?_).trans ?_
  · match b with
    | ⟨0, _⟩ => rfl
    | ⟨1, _⟩ => rfl
  refine (extractStridedSlice_apply _ _ _ (ix2 ch (flat r p)) (ix2 (⟨ch.val + 1, by omega⟩ : Fin 4) (flat r p)) fun a => ?_).trans ?_
  · match a with
    | ⟨0, _⟩ => exact Nat.add_comm _ _
    | ⟨1, _⟩ => exact (Nat.zero_add _).symm
  rfl

end Cert.KernelIdeal.Res

end
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.KernelOperands.lean ====
import proofs.«178290_j77008763617691_2_alg».proof.Proof.FrameIdeal
import proofs.«178290_j77008763617691_2_alg».proof.Proof.LibEdgeIndex
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 65536

noncomputable section

namespace Cert.KernelIdeal.Operands

open Cert.KernelIdeal Cert.KernelIdeal.Gen
open Idealize.ShloMosaic Idealize.ShloMosaic.TcCoe Idealize.ShloMosaic.ValueIdx Idealize.ShloMosaic.StableHlo
open Idealize.SL Idealize.SL.Sem

/- The region's three operand arrays, as the region finds them, READ AT AN INDEX in terms of earlier buffers of the
   same program:
   * the transposed weights: element (a, n) of one operand is element (n, a) of the array it transposes (`w1t_apply`);
   * the interval lengths: element (0, n) of another is element n / 256 of the per-ray norms, the reshape being of a
     row-major [16384, 256] array (`interval_apply`);
   * the eight corner samples: for corner k, element (ch, k, n) of the third is element (ch, j) of the grid table
     whenever the k-th corner's index at n reads j < 4096000 — through the concatenation, the broadcast, the transpose,
     the wrap of negative indices (the identity there), the bounds test (true there) and the row gather
     (`corner_k_apply`);
   * the grid table itself: row 0 is the density array and rows 1–3 the color array, each at the 4-D index whose
     row-major position is the column (`grid_apply_density`, `grid_apply_color`). -/
/-! ## A fold over stretches of operations, cut at a stretch -/

/-- Of a fold over stretches `A`, one stretch `s`, and stretches `B`: at a buffer no operation of `B` writes, the fold is
    the stretch `s` run from the fold over `A`. -/
theorem after_mid {Val : EltTy → Type} (A : List (List (HloOp τ sig Val))) (s : List (HloOp τ sig Val))
    (B : List (List (HloOp τ sig Val))) (M : Valuation τ sig Val) (b : DevRef τ sig)
    (h : ∀ op ∈ B.flatten, b ∉ op.writes) :
    StableHlo.after (A ++ s :: B).flatten M b = StableHlo.after s (StableHlo.after A.flatten M) b := by
  rw [List.flatten_append, List.flatten_cons, StableHlo.after_append, StableHlo.after_append]
  exact StableHlo.after_of_forall_not_mem _ _ h

/-- At a buffer no operation of the stretches `B` writes, the fold over `A` then `B` is the fold over `A`. -/
theorem after_split {Val : EltTy → Type} (A B : List (List (HloOp τ sig Val))) (M : Valuation τ sig Val) (b : DevRef τ sig)
    (h : ∀ op ∈ B.flatten, b ∉ op.writes) :
    StableHlo.after (A ++ B).flatten M b = StableHlo.after A.flatten M b := by
  rw [List.flatten_append, StableHlo.after_append]
  exact StableHlo.after_of_forall_not_mem _ _ h

variable (m : (ℓ : Loc nD τ sig) → Buf (Elt Ideal) ℓ) (c : Dev nD)

/-- Core `c`'s buffers after the first `k` stretches of host operations. -/
abbrev W2 : Valuation τ sig (Elt Ideal) := StableHlo.after (List.flatten [hostOps0, hostOps0_1]) (fun b => m (c, b))
abbrev W4 : Valuation τ sig (Elt Ideal) := StableHlo.after (List.flatten [hostOps0, hostOps0_1, hostOps0_2, hostOps0_3]) (fun b => m (c, b))
abbrev W5 : Valuation τ sig (Elt Ideal) := StableHlo.after (List.flatten [hostOps0, hostOps0_1, hostOps0_2, hostOps0_3, hostOps0_4]) (fun b => m (c, b))
abbrev W6 : Valuation τ sig (Elt Ideal) := StableHlo.after (List.flatten [hostOps0, hostOps0_1, hostOps0_2, hostOps0_3, hostOps0_4, hostOps0_5]) (fun b => m (c, b))
abbrev W7 : Valuation τ sig (Elt Ideal) := StableHlo.after (List.flatten [hostOps0, hostOps0_1, hostOps0_2, hostOps0_3, hostOps0_4, hostOps0_5, hostOps0_6]) (fun b => m (c, b))
abbrev W8 : Valuation τ sig (Elt Ideal) := StableHlo.after (List.flatten [hostOps0, hostOps0_1, hostOps0_2, hostOps0_3, hostOps0_4, hostOps0_5, hostOps0_6, hostOps0_7]) (fun b => m (c, b))
abbrev W9 : Valuation τ sig (Elt Ideal) := StableHlo.after (List.flatten [hostOps0, hostOps0_1, hostOps0_2, hostOps0_3, hostOps0_4, hostOps0_5, hostOps0_6, hostOps0_7, hostOps0_8]) (fun b => m (c, b))
abbrev W10 : Valuation τ sig (Elt Ideal) := StableHlo.after (List.flatten [hostOps0, hostOps0_1, hostOps0_2, hostOps0_3, hostOps0_4, hostOps0_5, hostOps0_6, hostOps0_7, hostOps0_8, hostOps0_9]) (fun b => m (c, b))
abbrev W11 : Valuation τ sig (Elt Ideal) := StableHlo.after (List.flatten [hostOps0, hostOps0_1, hostOps0_2, hostOps0_3, hostOps0_4, hostOps0_5, hostOps0_6, hostOps0_7, hostOps0_8, hostOps0_9, hostOps0_10]) (fun b => m (c, b))
abbrev W12 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11]) (fun b => m (c, b))
abbrev W13 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
abbrev W14 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))
abbrev W15 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b))
abbrev W16 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
abbrev W17 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))
abbrev W18 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (fun b => m (c, b))
abbrev W19 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
abbrev W20 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b))

/-! ## The eight-operand operation's result, and the results of a stretch by one pass -/

/-- An operation over a LITERAL family of eight references leaves, at its result buffer, its function of the eight
    operands' contents, each at its own reference. -/
theorem nary8_result' {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- Each operation's result at its own buffer rewritten to its function's value and at any other reference to what was
    there, in one pass. -/
macro "stretch_results" : tactic =>
  `(tactic| (simp (disch := decide) only [after_cons, after_nil,
      nullary_result', unary_result', binary_result', ternary_result', reshape_result', nary8_result',
      nullary_result_ne', unary_result_ne', binary_result_ne', ternary_result_ne', reshape_result_ne', nary_result_ne']))

/-! ## A reduction by `and` from 1 over operands that are all 1 -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_one f l fun n hn => h n (List.mem_cons_of_mem _ hn)

/-- A reduction by `and` from the constant 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun i hi => hx i (by simpa using (List.mem_filter.mp hi).2)

/-- A value written through a typed reference and read back through it is the value. -/
theorem ofBuf_toBuf {Val : EltTy → Type} {T : BufTy} (x : TRef sig T) (v : T.Contents Val) : x.ofBuf (x.toBuf v) = v := by
  obtain ⟨r, rfl, _, _⟩ := x
  rfl

/-! ## The row-take, read at an index

What the called function computes from a table `g` of 4096000 rows of 4 and a column `L` of 4194304 row numbers: a
negative number is wrapped (4096000 added), the wrapped numbers are the start indices of a row gather, and a row
whose start index is outside [0, 4095999] is replaced by a fixed word. At a row whose number reads `j` with
`j < 4096000` the wrap is the identity, the bounds test holds, and the result row is row `j` of the table. -/

/-- The start indices: the row numbers, negative ones wrapped, as a column. -/
def takeStart (L : IVec S4194304 32) : IVec S4194304x1 32 :=
  broadcastInDim S4194304x1 ![0] bcast_S4194304_S4194304x1_0
    (select (cmpi .slt L (broadcastInDim S4194304 ![] bcast_S_S4194304 (constantI S_ 32 0#32)))
      (addi L (broadcastInDim S4194304 ![] bcast_S_S4194304 (constantI S_ 32 4096000#32))) L)

/-- Whether each start index is inside [0, 4095999]. -/
def takeInb (L : IVec S4194304 32) : IVec S4194304 1 :=
  Host.reduce IntOp.andi
    (andi (cmpi .sge (takeStart L) (broadcastInDim S4194304x1 ![] bcast_S_S4194304x1 (constantI S_ 32 0#32)))
      (cmpi .sle (takeStart L) (broadcastInDim S4194304x1 ![0, 1] bcast_S1x1_S4194304x1_0_1
        (broadcastInDim S1x1 ![1] bcast_S1_S1x1_1 (constantI S1 32 4095999#32)))))
    (constantI S_ 1 1#1) reducesTo_S4194304x1_S4194304_d1 h_S_

/-- The rows taken. -/
def takeTerm (g : S4096000x4.Idx → Ideal .f32) (L : IVec S4194304 32) : S4194304x4.Idx → Ideal .f32 :=
  select (broadcastInDim S4194304x4 ![0] bcast_S4194304_S4194304x4_0 (takeInb L))
    (Host.gather gather_S4096000x4_S4194304x1_S4194304x4_1_0_n_n_0_1_14 g (takeStart L))
    (broadcastInDim S4194304x4 ![] bcast_S_S4194304x4 (constant S_ .f32 0x7FC00000#32))

/-- A start index at a row whose number reads a natural number is that number. -/
theorem takeStart_apply (L : IVec S4194304 32) (i : S4194304x1.Idx) (n : Fin 4194304) (hi : (i 0).val = n.val) {j : Nat}
    (h : (L (ix1 n)).toInt = (j : Int)) : takeStart L i = L (ix1 n) := by
  unfold takeStart
  refine (broadcastInDim_apply _ _ _ i (ix1 n) (fun a => by fin_cases a; show n.val = (i 0).val; omega)).trans ?_
  show Scalar.select (IntOp.cmpi .slt (L (ix1 n)) 0#32) _ (L (ix1 n)) = L (ix1 n)
  exact Cert.Lib.EdgeIndex.select_slt_zero_of_nonneg _ (by omega) _ _

/-- The bounds test holds at a row whose number reads `j < 4096000`. -/
theorem takeInb_apply (L : IVec S4194304 32) (n : Fin 4194304) {j : Nat} (hj : j < 4096000)
    (h : (L (ix1 n)).toInt = (j : Int)) : takeInb L (ix1 n) = 1#1 := by
  unfold takeInb
  refine reduce_andi_one _ _ _ _ _ rfl (fun i hi => ?_)
  have h0 : (i 0).val = n.val := congrArg (fun z : S4194304.Idx => (z 0).val) hi
  show IntOp.andi (IntOp.cmpi .sge (takeStart L i) 0#32) (IntOp.cmpi .sle (takeStart L i) 4095999#32) = 1#1
  rw [takeStart_apply L i n h0 h]
  refine IntOp.andi_eq_one.mpr ⟨IntOp.cmpi_sge.mpr ?_, IntOp.cmpi_sle.mpr ?_⟩
  · rw [h]; show (0 : Int) ≤ j; omega
  · rw [h]; show (j : Int) ≤ 4095999; omega

/-- THE ROW-TAKE AT A ROW WHOSE NUMBER READS `j < 4096000`: row `j` of the table, column for column. -/
theorem takeTerm_apply (g : S4096000x4.Idx → Ideal .f32) (L : IVec S4194304 32) (n : Fin 4194304) (ch : Fin 4) {j : Nat}
    (hj : j < 4096000) (h : (L (ix1 n)).toInt = (j : Int)) : takeTerm g L (ix2 n ch) = g (ix2 ⟨j, hj⟩ ch) := by
  unfold takeTerm
  show Scalar.select (broadcastInDim S4194304x4 ![0] bcast_S4194304_S4194304x4_0 (takeInb L) (ix2 n ch)) _ _ = _
  rw [broadcastInDim_apply _ _ (takeInb L) (ix2 n ch) (ix1 n) (fun a => by fin_cases a; rfl), takeInb_apply L n hj h,
    select_one]
  exact Cert.Lib.EdgeIndex.gatherRows_apply_of_toInt_eq gather_S4096000x4_S4194304x1_S4194304x4_1_0_n_n_0_1_14_wf g
    (takeStart L) (ix2 n ch) hj (by rw [takeStart_apply L _ n rfl h]; exact h)

/-! ## The 4-D position of a column of the grid table -/

/-- The three spatial coordinates of row-major position `k` of a 160 × 160 × 160 grid. -/
abbrev gridZ (k : Fin 4096000) : Fin 160 := ⟨k.val / 25600, by have := k.isLt; omega⟩
abbrev gridY (k : Fin 4096000) : Fin 160 := ⟨k.val / 160 % 160, Nat.mod_lt _ (by decide)⟩
abbrev gridX (k : Fin 4096000) : Fin 160 := ⟨k.val % 160, Nat.mod_lt _ (by decide)⟩

/-! ## The transposed weights -/

theorem e119 : Hand.V m c main_v119 = StableHlo.after hostOps0_20 (W20 m c) (Proc.devRef .tc main_v119) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] hostOps0_20 [] _ _ (by intro op hop; exact absurd hop (by simp))

theorem e23 : Hand.V m c main_v23 = W20 m c (Proc.devRef .tc main_v23) :=
  after_split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] [hostOps0_20] _ _ (List.forall_iff_forall_mem.mp (by
    simp only [hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- (O1) The second operand is the transpose of the fractional positions. -/
theorem w1t_apply (a : Fin 3) (n : Fin 4194304) :
    Hand.V m c main_v119 (ix2 a n) = Hand.V m c main_v23 (ix2 n a) := by
  rw [e119, e23]
  generalize W20 m c = W
  simp only [hostOps0_20]
  stretch_results
  exact transpose_apply [1, 0] _ _ (ix2 a n) (ix2 n a) (fun b => by fin_cases b <;> rfl)

/-! ## The interval lengths -/

theorem e12 : Hand.V m c main_v12 = StableHlo.after hostOps0_2 (W2 m c) (Proc.devRef .tc main_v12) :=
  after_mid [hostOps0, hostOps0_1] hostOps0_2 [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e9 : Hand.V m c main_v9 = W2 m c (Proc.devRef .tc main_v9) :=
  after_split [hostOps0, hostOps0_1] [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- (O2) The third operand at sample `n` is the norm of ray `n / 256`: two broadcasts and a row-major reshape. -/
theorem interval_apply (n : Fin 4194304) :
    Hand.V m c main_v12 (ix2 0 n) = Hand.V m c main_v9 (ix1 ⟨n.val / 256, by have := n.isLt; omega⟩) := by
  rw [e12, e9]
  generalize W2 m c = W
  simp only [hostOps0_2]
  stretch_results
  show shapeCast S1x4194304 _ shapeCasts_S16384x256_S1x4194304 (ix2 0 n) = _
  have hn := n.isLt
  refine (shapeCast_apply _ _ (ix2 0 n) (ix2 ⟨n.val / 256, by omega⟩ ⟨n.val % 256, by omega⟩) ?_).trans ?_
  · rw [Shape.rowMajor_val_two, Shape.rowMajor_val_two]
    show n.val / 256 * 256 + n.val % 256 = 0 * 4194304 + n.val
    omega
  refine (broadcastInDim_apply _ _ _ _ (ix2 ⟨n.val / 256, by omega⟩ 0) (fun a => by fin_cases a <;> rfl)).trans ?_
  exact broadcastInDim_apply _ _ _ _ (ix1 ⟨n.val / 256, by omega⟩) (fun a => by fin_cases a <;> rfl)

/-! ## The grid table -/

theorem e44 : Hand.V m c main_v44 = StableHlo.after hostOps0_4 (W4 m c) (Proc.devRef .tc main_v44) :=
  after_mid [hostOps0, hostOps0_1, hostOps0_2, hostOps0_3] hostOps0_4 [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eA3 : W4 m c (Proc.devRef .tc main_arg3) = m ((c.tc : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eA4 : W4 m c (Proc.devRef .tc main_arg4) = m ((c.tc : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- (O4) Row 0 of the grid table is the density array, at the 4-D index whose row-major position is the column. -/
theorem grid_apply_density (k : Fin 4096000) :
    Hand.V m c main_v44 (ix2 0 k) = m ((c.tc : Thread nD τ).loc main_arg3) (ix4 0 (gridZ k) (gridY k) (gridX k)) := by
  rw [e44, ← eA3 m c]
  generalize W4 m c = W
  simp only [hostOps0_4]
  stretch_results
  show shapeCast S4x4096000 _ shapeCasts_S4x160x160x160_S4x4096000 (ix2 0 k) = _
  have hk := k.isLt
  refine (shapeCast_apply _ _ (ix2 0 k) (ix4 0 (gridZ k) (gridY k) (gridX k)) ?_).trans ?_
  · rw [Shape.rowMajor_val_four, Shape.rowMajor_val_two]
    show ((0 * 160 + k.val / 25600) * 160 + k.val / 160 % 160) * 160 + k.val % 160 = 0 * 4096000 + k.val
    omega
  exact concatenate_pair_apply_left (s₁ := S1x160x160x160) (s₂ := S3x160x160x160) 0 _ _ _ (ix4 (0 : Fin 4) (gridZ k) (gridY k) (gridX k)) rfl (ix4 (0 : Fin 1) (gridZ k) (gridY k) (gridX k)) (fun b => by fin_cases b <;> rfl)

/-- (O4) Rows 1–3 of the grid table are the color array's channels. -/
theorem grid_apply_color (ch : Fin 3) (k : Fin 4096000) :
    Hand.V m c main_v44 (ix2 ⟨ch.val + 1, by have := ch.isLt; omega⟩ k)
      = m ((c.tc : Thread nD τ).loc main_arg4) (ix4 ch (gridZ k) (gridY k) (gridX k)) := by
  rw [e44, ← eA4 m c]
  generalize W4 m c = W
  simp only [hostOps0_4]
  stretch_results
  have hk := k.isLt
  have hc := ch.isLt
  show shapeCast S4x4096000 _ shapeCasts_S4x160x160x160_S4x4096000 (ix2 (⟨ch.val + 1, by omega⟩ : Fin 4) k) = _
  refine (shapeCast_apply _ _ (ix2 (⟨ch.val + 1, by omega⟩ : Fin 4) k)
    (ix4 (⟨ch.val + 1, by omega⟩ : Fin 4) (gridZ k) (gridY k) (gridX k)) ?_).trans ?_
  · rw [Shape.rowMajor_val_four, Shape.rowMajor_val_two]
    show (((ch.val + 1) * 160 + k.val / 25600) * 160 + k.val / 160 % 160) * 160 + k.val % 160 = (ch.val + 1) * 4096000 + k.val
    omega
  exact concatenate_pair_apply_right (s₁ := S1x160x160x160) (s₂ := S3x160x160x160) 0 _ _ _ (ix4 (⟨ch.val + 1, by omega⟩ : Fin 4) (gridZ k) (gridY k) (gridX k)) rfl rfl (ix4 ch (gridZ k) (gridY k) (gridX k))
    (fun b hb => by fin_cases b <;> first | rfl | exact absurd rfl hb) rfl

/-! ## The table the calls gather from is the grid table transposed -/

theorem e45 : W5 m c (Proc.devRef .tc main_v45) = StableHlo.after hostOps0_4 (W4 m c) (Proc.devRef .tc main_v45) :=
  after_mid [hostOps0, hostOps0_1, hostOps0_2, hostOps0_3] hostOps0_4 [] _ _ (by intro op hop; exact absurd hop (by simp))

theorem t45 (jj : Fin 4096000) (ch : Fin 4) :
    W5 m c (Proc.devRef .tc main_v45) (ix2 jj ch) = Hand.V m c main_v44 (ix2 ch jj) := by
  rw [e45, e44]
  generalize W4 m c = W
  simp only [hostOps0_4]
  stretch_results
  exact transpose_apply [1, 0] _ _ (ix2 jj ch) (ix2 ch jj) (fun b => by fin_cases b <;> rfl)

/-! ## Reading and writing through a typed reference whose buffer has the stated type is the identity -/

theorem ob_v45 (v : (⟨S4096000x4, .f32⟩ : BufTy).Contents (Elt Ideal)) : (TRef.of main_v45 : TRef sig ⟨S4096000x4, .f32⟩).ofBuf v = v := rfl
theorem ob_L0 (v : (⟨S4194304, .i32⟩ : BufTy).Contents (Elt Ideal)) : (TRef.of main_v51 : TRef sig ⟨S4194304, .i32⟩).ofBuf v = v := rfl
theorem tb_R0 (v : (⟨S4194304x4, .f32⟩ : BufTy).Contents (Elt Ideal)) : (TRef.of main_v52 : TRef sig ⟨S4194304x4, .f32⟩).toBuf v = v := rfl
theorem ob_L1 (v : (⟨S4194304, .i32⟩ : BufTy).Contents (Elt Ideal)) : (TRef.of main_v59 : TRef sig ⟨S4194304, .i32⟩).ofBuf v = v := rfl
theorem tb_R1 (v : (⟨S4194304x4, .f32⟩ : BufTy).Contents (Elt Ideal)) : (TRef.of main_v60 : TRef sig ⟨S4194304x4, .f32⟩).toBuf v = v := rfl
theorem ob_L2 (v : (⟨S4194304, .i32⟩ : BufTy).Contents (Elt Ideal)) : (TRef.of main_v67 : TRef sig ⟨S4194304, .i32⟩).ofBuf v = v := rfl
theorem tb_R2 (v : (⟨S4194304x4, .f32⟩ : BufTy).Contents (Elt Ideal)) : (TRef.of main_v68 : TRef sig ⟨S4194304x4, .f32⟩).toBuf v = v := rfl
theorem ob_L3 (v : (⟨S4194304, .i32⟩ : BufTy).Contents (Elt Ideal)) : (TRef.of main_v75 : TRef sig ⟨S4194304, .i32⟩).ofBuf v = v := rfl
theorem tb_R3 (v : (⟨S4194304x4, .f32⟩ : BufTy).Contents (Elt Ideal)) : (TRef.of main_v76 : TRef sig ⟨S4194304x4, .f32⟩).toBuf v = v := rfl
theorem ob_L4 (v : (⟨S4194304, .i32⟩ : BufTy).Contents (Elt Ideal)) : (TRef.of main_v83 : TRef sig ⟨S4194304, .i32⟩).ofBuf v = v := rfl
theorem tb_R4 (v : (⟨S4194304x4, .f32⟩ : BufTy).Contents (Elt Ideal)) : (TRef.of main_v84 : TRef sig ⟨S4194304x4, .f32⟩).toBuf v = v := rfl
theorem ob_L5 (v : (⟨S4194304, .i32⟩ : BufTy).Contents (Elt Ideal)) : (TRef.of main_v91 : TRef sig ⟨S4194304, .i32⟩).ofBuf v = v := rfl
theorem tb_R5 (v : (⟨S4194304x4, .f32⟩ : BufTy).Contents (Elt Ideal)) : (TRef.of main_v92 : TRef sig ⟨S4194304x4, .f32⟩).toBuf v = v := rfl
theorem ob_L6 (v : (⟨S4194304, .i32⟩ : BufTy).Contents (Elt Ideal)) : (TRef.of main_v99 : TRef sig ⟨S4194304, .i32⟩).ofBuf v = v := rfl
theorem tb_R6 (v : (⟨S4194304x4, .f32⟩ : BufTy).Contents (Elt Ideal)) : (TRef.of main_v100 : TRef sig ⟨S4194304x4, .f32⟩).toBuf v = v := rfl
theorem ob_L7 (v : (⟨S4194304, .i32⟩ : BufTy).Contents (Elt Ideal)) : (TRef.of main_v107 : TRef sig ⟨S4194304, .i32⟩).ofBuf v = v := rfl
theorem tb_R7 (v : (⟨S4194304x4, .f32⟩ : BufTy).Contents (Elt Ideal)) : (TRef.of main_v108 : TRef sig ⟨S4194304x4, .f32⟩).toBuf v = v := rfl

/-! ## The eight corners -/

theorem e118 : Hand.V m c main_v118 = StableHlo.after hostOps0_20 (W20 m c) (Proc.devRef .tc main_v118) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] hostOps0_20 [] _ _ (by intro op hop; exact absurd hop (by simp))

/-! ### Corner 0 -/

/-- The call's result is the row-take of its two operands. -/
theorem take_call0 (W : Valuation τ sig (Elt Ideal)) :
    StableHlo.after hostOps0_5 W (Proc.devRef .tc main_v52) = takeTerm (W (Proc.devRef .tc main_v45)) (W (Proc.devRef .tc main_v51)) := by
  simp only [hostOps0_5]
  stretch_results
  simp only [ofBuf_toBuf, tb_R0, ob_v45, ob_L0]
  rfl

theorem eL0 : Hand.V m c main_v51 = W5 m c (Proc.devRef .tc main_v51) :=
  after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT0 : W20 m c (Proc.devRef .tc main_v53) = StableHlo.after hostOps0_6 (W6 m c) (Proc.devRef .tc main_v53) :=
  after_mid [hostOps0, hostOps0_1, hostOps0_2, hostOps0_3, hostOps0_4, hostOps0_5] hostOps0_6 [hostOps0_7, hostOps0_8, hostOps0_9, hostOps0_10, hostOps0_11, hostOps0_12, hostOps0_13, hostOps0_14, hostOps0_15, hostOps0_16, hostOps0_17, hostOps0_18, hostOps0_19] _ _ (List.forall_iff_forall_mem.mp (by
    simp only [hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR0 : W6 m c (Proc.devRef .tc main_v52) = StableHlo.after hostOps0_5 (W5 m c) (Proc.devRef .tc main_v52) :=
  after_mid [hostOps0, hostOps0_1, hostOps0_2, hostOps0_3, hostOps0_4] hostOps0_5 [] _ _ (by intro op hop; exact absurd hop (by simp))

/-- Piece 0 of the concatenation, read at (ch, 0, n): the transposed result of call 0 at (ch, n). -/
theorem cat0 (W : Valuation τ sig (Elt Ideal)) (ch : Fin 4) (n : Fin 4194304) :
    StableHlo.after hostOps0_20 W (Proc.devRef .tc main_v118) (ix3 ch (⟨0, by decide⟩ : Fin 8) n) = W (Proc.devRef .tc main_v53) (ix2 ch n) := by
  simp only [hostOps0_20]
  stretch_results
  refine (concatenate_apply_piece 1 _ _ (ix3 ch (⟨0, by decide⟩ : Fin 8) n) 0 (by simp) S4x1x4194304
    (broadcastInDim S4x1x4194304 ![0, 2] bcast_S4x4194304_S4x1x4194304_0_2 (W (Proc.devRef .tc main_v53))) rfl rfl 0 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr0 (W : Valuation τ sig (Elt Ideal)) (ch : Fin 4) (n : Fin 4194304) :
    StableHlo.after hostOps0_6 W (Proc.devRef .tc main_v53) (ix2 ch n) = W (Proc.devRef .tc main_v52) (ix2 n ch) := by
  simp only [hostOps0_6]
  stretch_results
  exact transpose_apply [1, 0] _ _ (ix2 ch n) (ix2 n ch) (fun b => by fin_cases b <;> rfl)

/-- (O3) Corner 0: where its index at sample `n` reads `j < 4096000`, the first operand at (ch, 0, n) is the grid table at (ch, j). -/
theorem corner_0_apply (ch : Fin 4) (n : Fin 4194304) {j : Nat} (hj : j < 4096000)
    (h : (Hand.V m c main_v51 (ix1 n)).toInt = (j : Int)) :
    Hand.V m c main_v118 (ix3 ch (⟨0, by decide⟩ : Fin 8) n) = Hand.V m c main_v44 (ix2 ch ⟨j, hj⟩) := by
  rw [eL0] at h
  rw [e118, cat0 (W20 m c) ch n, eT0, tr0 (W6 m c) ch n, eR0, take_call0 (W5 m c)]
  refine (takeTerm_apply _ _ n ch hj h).trans ?_
  rw [t45]

/-! ### Corner 1 -/

/-- The call's result is the row-take of its two operands. -/
theorem take_call1 (W : Valuation τ sig (Elt Ideal)) :
    StableHlo.after hostOps0_7 W (Proc.devRef .tc main_v60) = takeTerm (W (Proc.devRef .tc main_v45)) (W (Proc.devRef .tc main_v59)) := by
  simp only [hostOps0_7]
  stretch_results
  simp only [ofBuf_toBuf, tb_R1, ob_v45, ob_L1]
  rfl

theorem eL1 : Hand.V m c main_v59 = W7 m c (Proc.devRef .tc main_v59) :=
  after_split [hostOps0, hostOps0_1, hostOps0_2, hostOps0_3, hostOps0_4, hostOps0_5, hostOps0_6] [hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_1 : W7 m c (Proc.devRef .tc main_v45) = W5 m c (Proc.devRef .tc main_v45) :=
  after_split [hostOps0, hostOps0_1, hostOps0_2, hostOps0_3, hostOps0_4] [hostOps0_5, hostOps0_6] _ _ (List.forall_iff_forall_mem.mp (by
    simp only [hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT1 : W20 m c (Proc.devRef .tc main_v61) = StableHlo.after hostOps0_8 (W8 m c) (Proc.devRef .tc main_v61) :=
  after_mid [hostOps0, hostOps0_1, hostOps0_2, hostOps0_3, hostOps0_4, hostOps0_5, hostOps0_6, hostOps0_7] hostOps0_8 [hostOps0_9, hostOps0_10, hostOps0_11, hostOps0_12, hostOps0_13, hostOps0_14, hostOps0_15, hostOps0_16, hostOps0_17, hostOps0_18, hostOps0_19] _ _ (List.forall_iff_forall_mem.mp (by
    simp only [hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR1 : W8 m c (Proc.devRef .tc main_v60) = StableHlo.after hostOps0_7 (W7 m c) (Proc.devRef .tc main_v60) :=
  after_mid [hostOps0, hostOps0_1, hostOps0_2, hostOps0_3, hostOps0_4, hostOps0_5, hostOps0_6] hostOps0_7 [] _ _ (by intro op hop; exact absurd hop (by simp))

/-- Piece 1 of the concatenation, read at (ch, 1, n): the transposed result of call 1 at (ch, n). -/
theorem cat1 (W : Valuation τ sig (Elt Ideal)) (ch : Fin 4) (n : Fin 4194304) :
    StableHlo.after hostOps0_20 W (Proc.devRef .tc main_v118) (ix3 ch (⟨1, by decide⟩ : Fin 8) n) = W (Proc.devRef .tc main_v61) (ix2 ch n) := by
  simp only [hostOps0_20]
  stretch_results
  refine (concatenate_apply_piece 1 _ _ (ix3 ch (⟨1, by decide⟩ : Fin 8) n) 1 (by simp) S4x1x4194304
    (broadcastInDim S4x1x4194304 ![0, 2] bcast_S4x4194304_S4x1x4194304_0_2 (W (Proc.devRef .tc main_v61))) rfl rfl 1 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr1 (W : Valuation τ sig (Elt Ideal)) (ch : Fin 4) (n : Fin 4194304) :
    StableHlo.after hostOps0_8 W (Proc.devRef .tc main_v61) (ix2 ch n) = W (Proc.devRef .tc main_v60) (ix2 n ch) := by
  simp only [hostOps0_8]
  stretch_results
  exact transpose_apply [1, 0] _ _ (ix2 ch n) (ix2 n ch) (fun b => by fin_cases b <;> rfl)

/-- (O3) Corner 1: where its index at sample `n` reads `j < 4096000`, the first operand at (ch, 1, n) is the grid table at (ch, j). -/
theorem corner_1_apply (ch : Fin 4) (n : Fin 4194304) {j : Nat} (hj : j < 4096000)
    (h : (Hand.V m c main_v59 (ix1 n)).toInt = (j : Int)) :
    Hand.V m c main_v118 (ix3 ch (⟨1, by decide⟩ : Fin 8) n) = Hand.V m c main_v44 (ix2 ch ⟨j, hj⟩) := by
  rw [eL1] at h
  rw [e118, cat1 (W20 m c) ch n, eT1, tr1 (W8 m c) ch n, eR1, take_call1 (W7 m c)]
  refine (takeTerm_apply _ _ n ch hj h).trans ?_
  rw [e45_1, t45]

/-! ### Corner 2 -/

/-- The call's result is the row-take of its two operands. -/
theorem take_call2 (W : Valuation τ sig (Elt Ideal)) :
    StableHlo.after hostOps0_9 W (Proc.devRef .tc main_v68) = takeTerm (W (Proc.devRef .tc main_v45)) (W (Proc.devRef .tc main_v67)) := by
  simp only [hostOps0_9]
  stretch_results
  simp only [ofBuf_toBuf, tb_R2, ob_v45, ob_L2]
  rfl

theorem eL2 : Hand.V m c main_v67 = W9 m c (Proc.devRef .tc main_v67) :=
  after_split [hostOps0, hostOps0_1, hostOps0_2, hostOps0_3, hostOps0_4, hostOps0_5, hostOps0_6, hostOps0_7, hostOps0_8] [hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_2 : W9 m c (Proc.devRef .tc main_v45) = W5 m c (Proc.devRef .tc main_v45) :=
  after_split [hostOps0, hostOps0_1, hostOps0_2, hostOps0_3, hostOps0_4] [hostOps0_5, hostOps0_6, hostOps0_7, hostOps0_8] _ _ (List.forall_iff_forall_mem.mp (by
    simp only [hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT2 : W20 m c (Proc.devRef .tc main_v69) = StableHlo.after hostOps0_10 (W10 m c) (Proc.devRef .tc main_v69) :=
  after_mid [hostOps0, hostOps0_1, hostOps0_2, hostOps0_3, hostOps0_4, hostOps0_5, hostOps0_6, hostOps0_7, hostOps0_8, hostOps0_9] hostOps0_10 [hostOps0_11, hostOps0_12, hostOps0_13, hostOps0_14, hostOps0_15, hostOps0_16, hostOps0_17, hostOps0_18, hostOps0_19] _ _ (List.forall_iff_forall_mem.mp (by
    simp only [hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR2 : W10 m c (Proc.devRef .tc main_v68) = StableHlo.after hostOps0_9 (W9 m c) (Proc.devRef .tc main_v68) :=
  after_mid [hostOps0, hostOps0_1, hostOps0_2, hostOps0_3, hostOps0_4, hostOps0_5, hostOps0_6, hostOps0_7, hostOps0_8] hostOps0_9 [] _ _ (by intro op hop; exact absurd hop (by simp))

/-- Piece 2 of the concatenation, read at (ch, 2, n): the transposed result of call 2 at (ch, n). -/
theorem cat2 (W : Valuation τ sig (Elt Ideal)) (ch : Fin 4) (n : Fin 4194304) :
    StableHlo.after hostOps0_20 W (Proc.devRef .tc main_v118) (ix3 ch (⟨2, by decide⟩ : Fin 8) n) = W (Proc.devRef .tc main_v69) (ix2 ch n) := by
  simp only [hostOps0_20]
  stretch_results
  refine (concatenate_apply_piece 1 _ _ (ix3 ch (⟨2, by decide⟩ : Fin 8) n) 2 (by simp) S4x1x4194304
    (broadcastInDim S4x1x4194304 ![0, 2] bcast_S4x4194304_S4x1x4194304_0_2 (W (Proc.devRef .tc main_v69))) rfl rfl 2 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr2 (W : Valuation τ sig (Elt Ideal)) (ch : Fin 4) (n : Fin 4194304) :
    StableHlo.after hostOps0_10 W (Proc.devRef .tc main_v69) (ix2 ch n) = W (Proc.devRef .tc main_v68) (ix2 n ch) := by
  simp only [hostOps0_10]
  stretch_results
  exact transpose_apply [1, 0] _ _ (ix2 ch n) (ix2 n ch) (fun b => by fin_cases b <;> rfl)

/-- (O3) Corner 2: where its index at sample `n` reads `j < 4096000`, the first operand at (ch, 2, n) is the grid table at (ch, j). -/
theorem corner_2_apply (ch : Fin 4) (n : Fin 4194304) {j : Nat} (hj : j < 4096000)
    (h : (Hand.V m c main_v67 (ix1 n)).toInt = (j : Int)) :
    Hand.V m c main_v118 (ix3 ch (⟨2, by decide⟩ : Fin 8) n) = Hand.V m c main_v44 (ix2 ch ⟨j, hj⟩) := by
  rw [eL2] at h
  rw [e118, cat2 (W20 m c) ch n, eT2, tr2 (W10 m c) ch n, eR2, take_call2 (W9 m c)]
  refine (takeTerm_apply _ _ n ch hj h).trans ?_
  rw [e45_2, t45]

/-! ### Corner 3 -/

/-- The call's result is the row-take of its two operands. -/
theorem take_call3 (W : Valuation τ sig (Elt Ideal)) :
    StableHlo.after hostOps0_11 W (Proc.devRef .tc main_v76) = takeTerm (W (Proc.devRef .tc main_v45)) (W (Proc.devRef .tc main_v75)) := by
  simp only [hostOps0_11]
  stretch_results
  simp only [ofBuf_toBuf, tb_R3, ob_v45, ob_L3]
  rfl

theorem eL3 : Hand.V m c main_v75 = W11 m c (Proc.devRef .tc main_v75) :=
  after_split [hostOps0, hostOps0_1, hostOps0_2, hostOps0_3, hostOps0_4, hostOps0_5, hostOps0_6, hostOps0_7, hostOps0_8, hostOps0_9, hostOps0_10] [hostOps0_11, hostOps0_12, hostOps0_13, hostOps0_14, hostOps0_15, hostOps0_16, hostOps0_17, hostOps0_18, hostOps0_19, hostOps0_20] _ _ (List.forall_iff_forall_mem.mp (by
    simp only [hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_3 : W11 m c (Proc.devRef .tc main_v45) = W5 m c (Proc.devRef .tc main_v45) :=
  after_split [hostOps0, hostOps0_1, hostOps0_2, hostOps0_3, hostOps0_4] [hostOps0_5, hostOps0_6, hostOps0_7, hostOps0_8, hostOps0_9, hostOps0_10] _ _ (List.forall_iff_forall_mem.mp (by
    simp only [hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT3 : W20 m c (Proc.devRef .tc main_v77) = StableHlo.after hostOps0_12 (W12 m c) (Proc.devRef .tc main_v77) :=
  after_mid [hostOps0, hostOps0_1, hostOps0_2, hostOps0_3, hostOps0_4, hostOps0_5, hostOps0_6, hostOps0_7, hostOps0_8, hostOps0_9, hostOps0_10, hostOps0_11] hostOps0_12 [hostOps0_13, hostOps0_14, hostOps0_15, hostOps0_16, hostOps0_17, hostOps0_18, hostOps0_19] _ _ (List.forall_iff_forall_mem.mp (by
    simp only [hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR3 : W12 m c (Proc.devRef .tc main_v76) = StableHlo.after hostOps0_11 (W11 m c) (Proc.devRef .tc main_v76) :=
  after_mid [hostOps0, hostOps0_1, hostOps0_2, hostOps0_3, hostOps0_4, hostOps0_5, hostOps0_6, hostOps0_7, hostOps0_8, hostOps0_9, hostOps0_10] hostOps0_11 [] _ _ (by intro op hop; exact absurd hop (by simp))

/-- Piece 3 of the concatenation, read at (ch, 3, n): the transposed result of call 3 at (ch, n). -/
theorem cat3 (W : Valuation τ sig (Elt Ideal)) (ch : Fin 4) (n : Fin 4194304) :
    StableHlo.after hostOps0_20 W (Proc.devRef .tc main_v118) (ix3 ch (⟨3, by decide⟩ : Fin 8) n) = W (Proc.devRef .tc main_v77) (ix2 ch n) := by
  simp only [hostOps0_20]
  stretch_results
  refine (concatenate_apply_piece 1 _ _ (ix3 ch (⟨3, by decide⟩ : Fin 8) n) 3 (by simp) S4x1x4194304
    (broadcastInDim S4x1x4194304 ![0, 2] bcast_S4x4194304_S4x1x4194304_0_2 (W (Proc.devRef .tc main_v77))) rfl rfl 3 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr3 (W : Valuation τ sig (Elt Ideal)) (ch : Fin 4) (n : Fin 4194304) :
    StableHlo.after hostOps0_12 W (Proc.devRef .tc main_v77) (ix2 ch n) = W (Proc.devRef .tc main_v76) (ix2 n ch) := by
  simp only [hostOps0_12]
  stretch_results
  exact transpose_apply [1, 0] _ _ (ix2 ch n) (ix2 n ch) (fun b => by fin_cases b <;> rfl)

/-- (O3) Corner 3: where its index at sample `n` reads `j < 4096000`, the first operand at (ch, 3, n) is the grid table at (ch, j). -/
theorem corner_3_apply (ch : Fin 4) (n : Fin 4194304) {j : Nat} (hj : j < 4096000)
    (h : (Hand.V m c main_v75 (ix1 n)).toInt = (j : Int)) :
    Hand.V m c main_v118 (ix3 ch (⟨3, by decide⟩ : Fin 8) n) = Hand.V m c main_v44 (ix2 ch ⟨j, hj⟩) := by
  rw [eL3] at h
  rw [e118, cat3 (W20 m c) ch n, eT3, tr3 (W12 m c) ch n, eR3, take_call3 (W11 m c)]
  refine (takeTerm_apply _ _ n ch hj h).trans ?_
  rw [e45_3, t45]

/-! ### Corner 4 -/

/-- The call's result is the row-take of its two operands. -/
theorem take_call4 (W : Valuation τ sig (Elt Ideal)) :
    StableHlo.after hostOps0_13 W (Proc.devRef .tc main_v84) = takeTerm (W (Proc.devRef .tc main_v45)) (W (Proc.devRef .tc main_v83)) := by
  simp only [hostOps0_13]
  stretch_results
  simp only [ofBuf_toBuf, tb_R4, ob_v45, ob_L4]
  rfl

theorem eL4 : Hand.V m c main_v83 = W13 m c (Proc.devRef .tc main_v83) :=
  after_split [hostOps0, hostOps0_1, hostOps0_2, hostOps0_3, hostOps0_4, hostOps0_5, hostOps0_6, hostOps0_7, hostOps0_8, hostOps0_9, hostOps0_10, hostOps0_11, hostOps0_12] [hostOps0_13, hostOps0_14, hostOps0_15, hostOps0_16, hostOps0_17, hostOps0_18, hostOps0_19, hostOps0_20] _ _ (List.forall_iff_forall_mem.mp (by
    simp only [hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_4 : W13 m c (Proc.devRef .tc main_v45) = W5 m c (Proc.devRef .tc main_v45) :=
  after_split [hostOps0, hostOps0_1, hostOps0_2, hostOps0_3, hostOps0_4] [hostOps0_5, hostOps0_6, hostOps0_7, hostOps0_8, hostOps0_9, hostOps0_10, hostOps0_11, hostOps0_12] _ _ (List.forall_iff_forall_mem.mp (by
    simp only [hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT4 : W20 m c (Proc.devRef .tc main_v85) = StableHlo.after hostOps0_14 (W14 m c) (Proc.devRef .tc main_v85) :=
  after_mid [hostOps0, hostOps0_1, hostOps0_2, hostOps0_3, hostOps0_4, hostOps0_5, hostOps0_6, hostOps0_7, hostOps0_8, hostOps0_9, hostOps0_10, hostOps0_11, hostOps0_12, hostOps0_13] hostOps0_14 [hostOps0_15, hostOps0_16, hostOps0_17, hostOps0_18, hostOps0_19] _ _ (List.forall_iff_forall_mem.mp (by
    simp only [hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR4 : W14 m c (Proc.devRef .tc main_v84) = StableHlo.after hostOps0_13 (W13 m c) (Proc.devRef .tc main_v84) :=
  after_mid [hostOps0, hostOps0_1, hostOps0_2, hostOps0_3, hostOps0_4, hostOps0_5, hostOps0_6, hostOps0_7, hostOps0_8, hostOps0_9, hostOps0_10, hostOps0_11, hostOps0_12] hostOps0_13 [] _ _ (by intro op hop; exact absurd hop (by simp))

/-- Piece 4 of the concatenation, read at (ch, 4, n): the transposed result of call 4 at (ch, n). -/
theorem cat4 (W : Valuation τ sig (Elt Ideal)) (ch : Fin 4) (n : Fin 4194304) :
    StableHlo.after hostOps0_20 W (Proc.devRef .tc main_v118) (ix3 ch (⟨4, by decide⟩ : Fin 8) n) = W (Proc.devRef .tc main_v85) (ix2 ch n) := by
  simp only [hostOps0_20]
  stretch_results
  refine (concatenate_apply_piece 1 _ _ (ix3 ch (⟨4, by decide⟩ : Fin 8) n) 4 (by simp) S4x1x4194304
    (broadcastInDim S4x1x4194304 ![0, 2] bcast_S4x4194304_S4x1x4194304_0_2 (W (Proc.devRef .tc main_v85))) rfl rfl 4 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr4 (W : Valuation τ sig (Elt Ideal)) (ch : Fin 4) (n : Fin 4194304) :
    StableHlo.after hostOps0_14 W (Proc.devRef .tc main_v85) (ix2 ch n) = W (Proc.devRef .tc main_v84) (ix2 n ch) := by
  simp only [hostOps0_14]
  stretch_results
  exact transpose_apply [1, 0] _ _ (ix2 ch n) (ix2 n ch) (fun b => by fin_cases b <;> rfl)

/-- (O3) Corner 4: where its index at sample `n` reads `j < 4096000`, the first operand at (ch, 4, n) is the grid table at (ch, j). -/
theorem corner_4_apply (ch : Fin 4) (n : Fin 4194304) {j : Nat} (hj : j < 4096000)
    (h : (Hand.V m c main_v83 (ix1 n)).toInt = (j : Int)) :
    Hand.V m c main_v118 (ix3 ch (⟨4, by decide⟩ : Fin 8) n) = Hand.V m c main_v44 (ix2 ch ⟨j, hj⟩) := by
  rw [eL4] at h
  rw [e118, cat4 (W20 m c) ch n, eT4, tr4 (W14 m c) ch n, eR4, take_call4 (W13 m c)]
  refine (takeTerm_apply _ _ n ch hj h).trans ?_
  rw [e45_4, t45]

/-! ### Corner 5 -/

/-- The call's result is the row-take of its two operands. -/
theorem take_call5 (W : Valuation τ sig (Elt Ideal)) :
    StableHlo.after hostOps0_15 W (Proc.devRef .tc main_v92) = takeTerm (W (Proc.devRef .tc main_v45)) (W (Proc.devRef .tc main_v91)) := by
  simp only [hostOps0_15]
  stretch_results
  simp only [ofBuf_toBuf, tb_R5, ob_v45, ob_L5]
  rfl

theorem eL5 : Hand.V m c main_v91 = W15 m c (Proc.devRef .tc main_v91) :=
  after_split [hostOps0, hostOps0_1, hostOps0_2, hostOps0_3, hostOps0_4, hostOps0_5, hostOps0_6, hostOps0_7, hostOps0_8, hostOps0_9, hostOps0_10, hostOps0_11, hostOps0_12, hostOps0_13, hostOps0_14] [hostOps0_15, hostOps0_16, hostOps0_17, hostOps0_18, hostOps0_19, hostOps0_20] _ _ (List.forall_iff_forall_mem.mp (by
    simp only [hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_5 : W15 m c (Proc.devRef .tc main_v45) = W5 m c (Proc.devRef .tc main_v45) :=
  after_split [hostOps0, hostOps0_1, hostOps0_2, hostOps0_3, hostOps0_4] [hostOps0_5, hostOps0_6, hostOps0_7, hostOps0_8, hostOps0_9, hostOps0_10, hostOps0_11, hostOps0_12, hostOps0_13, hostOps0_14] _ _ (List.forall_iff_forall_mem.mp (by
    simp only [hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT5 : W20 m c (Proc.devRef .tc main_v93) = StableHlo.after hostOps0_16 (W16 m c) (Proc.devRef .tc main_v93) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] hostOps0_16 [hostOps0_17, hostOps0_18, hostOps0_19] _ _ (List.forall_iff_forall_mem.mp (by
    simp only [hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR5 : W16 m c (Proc.devRef .tc main_v92) = StableHlo.after hostOps0_15 (W15 m c) (Proc.devRef .tc main_v92) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14] hostOps0_15 [] _ _ (by intro op hop; exact absurd hop (by simp))

/-- Piece 5 of the concatenation, read at (ch, 5, n): the transposed result of call 5 at (ch, n). -/
theorem cat5 (W : Valuation τ sig (Elt Ideal)) (ch : Fin 4) (n : Fin 4194304) :
    StableHlo.after hostOps0_20 W (Proc.devRef .tc main_v118) (ix3 ch (⟨5, by decide⟩ : Fin 8) n) = W (Proc.devRef .tc main_v93) (ix2 ch n) := by
  simp only [hostOps0_20]
  stretch_results
  refine (concatenate_apply_piece 1 _ _ (ix3 ch (⟨5, by decide⟩ : Fin 8) n) 5 (by simp) S4x1x4194304
    (broadcastInDim S4x1x4194304 ![0, 2] bcast_S4x4194304_S4x1x4194304_0_2 (W (Proc.devRef .tc main_v93))) rfl rfl 5 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr5 (W : Valuation τ sig (Elt Ideal)) (ch : Fin 4) (n : Fin 4194304) :
    StableHlo.after hostOps0_16 W (Proc.devRef .tc main_v93) (ix2 ch n) = W (Proc.devRef .tc main_v92) (ix2 n ch) := by
  simp only [hostOps0_16]
  stretch_results
  exact transpose_apply [1, 0] _ _ (ix2 ch n) (ix2 n ch) (fun b => by fin_cases b <;> rfl)

/-- (O3) Corner 5: where its index at sample `n` reads `j < 4096000`, the first operand at (ch, 5, n) is the grid table at (ch, j). -/
theorem corner_5_apply (ch : Fin 4) (n : Fin 4194304) {j : Nat} (hj : j < 4096000)
    (h : (Hand.V m c main_v91 (ix1 n)).toInt = (j : Int)) :
    Hand.V m c main_v118 (ix3 ch (⟨5, by decide⟩ : Fin 8) n) = Hand.V m c main_v44 (ix2 ch ⟨j, hj⟩) := by
  rw [eL5] at h
  rw [e118, cat5 (W20 m c) ch n, eT5, tr5 (W16 m c) ch n, eR5, take_call5 (W15 m c)]
  refine (takeTerm_apply _ _ n ch hj h).trans ?_
  rw [e45_5, t45]

/-! ### Corner 6 -/

/-- The call's result is the row-take of its two operands. -/
theorem take_call6 (W : Valuation τ sig (Elt Ideal)) :
    StableHlo.after hostOps0_17 W (Proc.devRef .tc main_v100) = takeTerm (W (Proc.devRef .tc main_v45)) (W (Proc.devRef .tc main_v99)) := by
  simp only [hostOps0_17]
  stretch_results
  simp only [ofBuf_toBuf, tb_R6, ob_v45, ob_L6]
  rfl

theorem eL6 : Hand.V m c main_v99 = W17 m c (Proc.devRef .tc main_v99) :=
  after_split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps0_17, hostOps0_18, hostOps0_19, hostOps0_20] _ _ (List.forall_iff_forall_mem.mp (by
    simp only [hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_6 : W17 m c (Proc.devRef .tc main_v45) = W5 m c (Proc.devRef .tc main_v45) :=
  after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eT6 : W20 m c (Proc.devRef .tc main_v101) = StableHlo.after hostOps0_18 (W18 m c) (Proc.devRef .tc main_v101) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] hostOps0_18 [hostOps0_19] _ _ (List.forall_iff_forall_mem.mp (by
    simp only [hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR6 : W18 m c (Proc.devRef .tc main_v100) = StableHlo.after hostOps0_17 (W17 m c) (Proc.devRef .tc main_v100) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] hostOps0_17 [] _ _ (by intro op hop; exact absurd hop (by simp))

/-- Piece 6 of the concatenation, read at (ch, 6, n): the transposed result of call 6 at (ch, n). -/
theorem cat6 (W : Valuation τ sig (Elt Ideal)) (ch : Fin 4) (n : Fin 4194304) :
    StableHlo.after hostOps0_20 W (Proc.devRef .tc main_v118) (ix3 ch (⟨6, by decide⟩ : Fin 8) n) = W (Proc.devRef .tc main_v101) (ix2 ch n) := by
  simp only [hostOps0_20]
  stretch_results
  refine (concatenate_apply_piece 1 _ _ (ix3 ch (⟨6, by decide⟩ : Fin 8) n) 6 (by simp) S4x1x4194304
    (broadcastInDim S4x1x4194304 ![0, 2] bcast_S4x4194304_S4x1x4194304_0_2 (W (Proc.devRef .tc main_v101))) rfl rfl 6 rfl (ix3 ch 0 n)
    (fun b hb => by fin_cases b <;> first | rfl | exact absurd rfl hb) rfl).trans ?_
  exact broadcastInDim_apply _ _ _ (ix3 ch 0 n) (ix2 ch n) (fun a => by fin_cases a <;> rfl)

theorem tr6 (W : Valuation τ sig (Elt Ideal)) (ch : Fin 4) (n : Fin 4194304) :
    StableHlo.after hostOps0_18 W (Proc.devRef .tc main_v101) (ix2 ch n) = W (Proc.devRef .tc main_v100) (ix2 n ch) := by
  simp only [hostOps0_18]
  stretch_results
  exact transpose_apply [1, 0] _ _ (ix2 ch n) (ix2 n ch) (fun b => by fin_cases b <;> rfl)

/-- (O3) Corner 6: where its index at sample `n` reads `j < 4096000`, the first operand at (ch, 6, n) is the grid table at (ch, j). -/
theorem corner_6_apply (ch : Fin 4) (n : Fin 4194304) {j : Nat} (hj : j < 4096000)
    (h : (Hand.V m c main_v99 (ix1 n)).toInt = (j : Int)) :
    Hand.V m c main_v118 (ix3 ch (⟨6, by decide⟩ : Fin 8) n) = Hand.V m c main_v44 (ix2 ch ⟨j, hj⟩) := by
  rw [eL6] at h
  rw [e118, cat6 (W20 m c) ch n, eT6, tr6 (W18 m c) ch n, eR6, take_call6 (W17 m c)]
  refine (takeTerm_apply _ _ n ch hj h).trans ?_
  rw [e45_6, t45]

/-! ### Corner 7 -/

/-- The call's result is the row-take of its two operands. -/
theorem take_call7 (W : Valuation τ sig (Elt Ideal)) :
    StableHlo.after hostOps0_19 W (Proc.devRef .tc main_v108) = takeTerm (W (Proc.devRef .tc main_v45)) (W (Proc.devRef .tc main_v107)) := by
  simp only [hostOps0_19]
  stretch_results
  simp only [ofBuf_toBuf, tb_R7, ob_v45, ob_L7]
  rfl

theorem eL7 : Hand.V m c main_v107 = W19 m c (Proc.devRef .tc main_v107) :=
  after_split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps0_19, hostOps0_20] _ _ (List.forall_iff_forall_mem.mp (by
    simp only [hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem e45_7 : W19 m c (Proc.devRef .tc main_v45) = W5 m c (Proc.devRef .tc main_v45) :=
  after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16, hostOps0_17, hostOps0_18] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem eR7 : W20 m c (Proc.devRef .tc main_v108) = StableHlo.after hostOps0_19 (W19 m c) (Proc.devRef .tc main_v108) :=
  after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] hostOps0_19 [] _ _ (by intro op hop; exact absurd hop (by simp))

/-- Piece 7 of the concatenation, read at (ch, 7, n): the result of call 7 at (n, ch), its transpose being in the same stretch. -/
theorem cat7 (W : Valuation τ sig (Elt Ideal)) (ch : Fin 4) (n : Fin 4194304) :
    StableHlo.after hostOps0_20 W (Proc.devRef .tc main_v118) (ix3 ch (⟨7, by decide⟩ : Fin 8) n) = W (Proc.devRef .tc main_v108) (ix2 n ch) := by
  simp only [hostOps0_20]
  stretch_results
  refine (concatenate_apply_piece 1 _ _ (ix3 ch (⟨7, by decide⟩ : Fin 8) n) 7 (by simp) S4x1x4194304
    (broadcastInDim S4x1x4194304 ![0, 2] bcast_S4x4194304_S4x1x4194304_0_2
      (transpose S4x4194304 [1, 0] (W (Proc.devRef .tc main_v108)) transposes_S4194304x4_S4x4194304_1_0)) rfl rfl 7 rfl (ix3 ch 0 n)
    (fun b hb => by fin_cases b <;> first | rfl | exact absurd rfl hb) rfl).trans ?_
  refine (broadcastInDim_apply _ _ _ (ix3 ch 0 n) (ix2 ch n) (fun a => by fin_cases a <;> rfl)).trans ?_
  exact transpose_apply [1, 0] _ _ (ix2 ch n) (ix2 n ch) (fun b => by fin_cases b <;> rfl)

/-- (O3) Corner 7: where its index at sample `n` reads `j < 4096000`, the first operand at (ch, 7, n) is the grid table at (ch, j). -/
theorem corner_7_apply (ch : Fin 4) (n : Fin 4194304) {j : Nat} (hj : j < 4096000)
    (h : (Hand.V m c main_v107 (ix1 n)).toInt = (j : Int)) :
    Hand.V m c main_v118 (ix3 ch (⟨7, by decide⟩ : Fin 8) n) = Hand.V m c main_v44 (ix2 ch ⟨j, hj⟩) := by
  rw [eL7] at h
  rw [e118, cat7 (W20 m c) ch n, eR7, take_call7 (W19 m c)]
  refine (takeTerm_apply _ _ n ch hj h).trans ?_
  rw [e45_7, t45]

end Cert.KernelIdeal.Operands

end
-- ==== Proof.Spec.lean ====
/-
  What both programs compute, element by element, in one vocabulary.

  For a sample point n = r·256 + p along ray r: its three fractional grid coordinates `W1 n a`, the eight linear cell
  numbers `lin k n` of the corners of its grid cell (32-bit words; `cell k n` is the cell actually read, after the wrap of
  negative numbers and the clamp into the table that every gather applies), the ray's interval length `T r`, the eight
  corner values of the density grid and of each colour grid, their trilinear combination `rawD`, `rawC`, and the two
  results: the density `1 - (1 + exp (rawD + shift)) ^ (-T)` and the colour `1 / (1 + exp (-rawC))`. The shared
  quantities are named by the reference program's own stages; the kernel's program computes the same ones.
-/
import proofs.«178290_j77008763617691_2_alg».proof.Proof.RefRead
import proofs.«178290_j77008763617691_2_alg».proof.Proof.KernelPayload
import proofs.«178290_j77008763617691_2_alg».proof.Proof.LibEdgeIndex

noncomputable section

namespace Cert.GridSample.Spec

open Idealize.ShloMosaic Idealize.ShloMosaic.ValueIdx
open Cert.ReferenceIdeal Cert.ReferenceIdeal.Read
open Cert.KernelIdeal.Pay (wt raw shift one)
open Cert.Lib.EdgeIndex (wrapNeg)

variable (a0 a1 : FVec Ideal S16384x3 .f32) (a2 : FVec Ideal S16384x256 .f32)
  (a3 : FVec Ideal S1x160x160x160 .f32) (a4 : FVec Ideal S3x160x160x160 .f32)

/-- Sample point p of ray r, numbered along the flattened axis. -/
def flat (r : Fin 16384) (p : Fin 256) : Fin 4194304 := ⟨r.val * 256 + p.val, by omega⟩

/-- The ray's interval length: the Euclidean norm of its direction. -/
def T (r : Fin 16384) : EReal := val_main_v8 (F := Ideal) a1 (ix1 r)

/-- The point's fractional grid coordinate on axis a (x, y, z). -/
def W1 (n : Fin 4194304) (a : Fin 3) : EReal := val_main_v21 (F := Ideal) a0 a1 a2 (ix2 n a)

/-- The linear cell number of corner k of the point's grid cell, as the 32-bit word the programs compute. -/
def lin (k : Fin 8) (n : Fin 4194304) : BitVec 32 :=
  match k with
  | ⟨0, _⟩ => val_main_v61 (F := Ideal) a0 a1 a2 (ix1 n)
  | ⟨1, _⟩ => val_main_v78 (F := Ideal) a0 a1 a2 (ix1 n)
  | ⟨2, _⟩ => val_main_v96 (F := Ideal) a0 a1 a2 (ix1 n)
  | ⟨3, _⟩ => val_main_v114 (F := Ideal) a0 a1 a2 (ix1 n)
  | ⟨4, _⟩ => val_main_v132 (F := Ideal) a0 a1 a2 (ix1 n)
  | ⟨5, _⟩ => val_main_v150 (F := Ideal) a0 a1 a2 (ix1 n)
  | ⟨6, _⟩ => val_main_v168 (F := Ideal) a0 a1 a2 (ix1 n)
  | ⟨7, _⟩ => val_main_v186 (F := Ideal) a0 a1 a2 (ix1 n)
  | ⟨_ + 8, h⟩ => absurd h (by omega)

/-- The eight cases, spelt out. -/
theorem lin_0 (hk : 0 < 8) (n : Fin 4194304) : lin a0 a1 a2 ⟨0, hk⟩ n = val_main_v61 (F := Ideal) a0 a1 a2 (ix1 n) := rfl
theorem lin_1 (hk : 1 < 8) (n : Fin 4194304) : lin a0 a1 a2 ⟨1, hk⟩ n = val_main_v78 (F := Ideal) a0 a1 a2 (ix1 n) := rfl
theorem lin_2 (hk : 2 < 8) (n : Fin 4194304) : lin a0 a1 a2 ⟨2, hk⟩ n = val_main_v96 (F := Ideal) a0 a1 a2 (ix1 n) := rfl
theorem lin_3 (hk : 3 < 8) (n : Fin 4194304) : lin a0 a1 a2 ⟨3, hk⟩ n = val_main_v114 (F := Ideal) a0 a1 a2 (ix1 n) := rfl
theorem lin_4 (hk : 4 < 8) (n : Fin 4194304) : lin a0 a1 a2 ⟨4, hk⟩ n = val_main_v132 (F := Ideal) a0 a1 a2 (ix1 n) := rfl
theorem lin_5 (hk : 5 < 8) (n : Fin 4194304) : lin a0 a1 a2 ⟨5, hk⟩ n = val_main_v150 (F := Ideal) a0 a1 a2 (ix1 n) := rfl
theorem lin_6 (hk : 6 < 8) (n : Fin 4194304) : lin a0 a1 a2 ⟨6, hk⟩ n = val_main_v168 (F := Ideal) a0 a1 a2 (ix1 n) := rfl
theorem lin_7 (hk : 7 < 8) (n : Fin 4194304) : lin a0 a1 a2 ⟨7, hk⟩ n = val_main_v186 (F := Ideal) a0 a1 a2 (ix1 n) := rfl

/-- The table row a gather reads for that word: negative words wrapped by the table's length, then the signed value
    clamped into the table. -/
def cell (k : Fin 8) (n : Fin 4194304) : Fin 4096000 :=
  ⟨min (wrapNeg 4096000#32 (lin a0 a1 a2 k n)).toInt.toNat (4096000 - 1), by omega⟩

/-- Corner k's density-grid value, and its colour-grid value in channel ch: the flattened grids read at the cell. -/
def gD (k : Fin 8) (n : Fin 4194304) : EReal := val_main_v43 (F := Ideal) a3 (ix2 (0 : Fin 1) (cell a0 a1 a2 k n))
def gC (ch : Fin 3) (k : Fin 8) (n : Fin 4194304) : EReal := val_main_v243 (F := Ideal) a4 (ix2 ch (cell a0 a1 a2 k n))

/-- The trilinear combinations. -/
def rawD (n : Fin 4194304) : EReal :=
  raw (fun k => gD a0 a1 a2 a3 k n) (W1 a0 a1 a2 n 0) (W1 a0 a1 a2 n 1) (W1 a0 a1 a2 n 2)
def rawC (ch : Fin 3) (n : Fin 4194304) : EReal :=
  raw (fun k => gC a0 a1 a2 a4 ch k n) (W1 a0 a1 a2 n 0) (W1 a0 a1 a2 n 1) (W1 a0 a1 a2 n 2)

/-- The two results. -/
def density (r : Fin 16384) (p : Fin 256) : EReal :=
  Law.densR (T a1 r) (rawD a0 a1 a2 a3 (flat r p) + shift)
def color (r : Fin 16384) (p : Fin 256) (ch : Fin 3) : EReal :=
  Law.colR (rawC a0 a1 a2 a4 ch (flat r p))

end Cert.GridSample.Spec

end
-- ==== Proof.LinBounds.lean ====
/-
  The linear cell numbers stay inside the table.

  Each grid coordinate is clipped into [0, 159] before it is used — `min 159 (max 0 ·)` for the cell's lower corner,
  `min (· + 1) 159` for the upper — so, whatever the inputs, every one of the three coordinates of every corner reads a
  number between 0 and 159, and the linear number (z·160 + y)·160 + x, computed on 32-bit words, reads
  z·25600 + y·160 + x ≤ 159·25600 + 159·160 + 159 = 4095999 with no wrap-around.
-/
import proofs.«178290_j77008763617691_2_alg».proof.Proof.Spec

noncomputable section

namespace Cert.GridSample.Bounds

open Idealize.ShloMosaic Idealize.ShloMosaic.ValueIdx
open Cert.ReferenceIdeal Cert.ReferenceIdeal.Read

/-! ## Words that read a small natural number -/

/-- A 32-bit word reads, signed, a number in [0, M] (M below 2³¹) iff its unsigned value is at most M. -/
theorem small_iff (b : BitVec 32) (M : Nat) (hM : M < 2147483648) :
    (0 ≤ b.toInt ∧ b.toInt ≤ (M : Int)) ↔ b.toNat ≤ M := by
  have hb := b.isLt
  rw [BitVec.toInt_eq_toNat_cond]
  split_ifs with h <;> omega

theorem toInt_of_small (b : BitVec 32) (M : Nat) (hM : M < 2147483648) (h : b.toNat ≤ M) : b.toInt = (b.toNat : Int) := by
  rw [BitVec.toInt_eq_toNat_cond, if_pos (by omega)]

/-- The clip lands in [0, 159], whatever it is applied to. -/
theorem clip_small (x : BitVec 32) : (IntOp.minsi 159#32 (IntOp.maxsi 0#32 x)).toNat ≤ 159 := by
  rw [← small_iff _ 159 (by norm_num)]
  unfold IntOp.minsi IntOp.maxsi
  have h159 : (159#32 : BitVec 32).toInt = 159 := by decide
  have h0 : (0#32 : BitVec 32).toInt = 0 := by decide
  simp only [BitVec.slt_eq_decide, h159, h0, decide_eq_true_eq]
  split_ifs <;> constructor <;> omega

/-- The upper corner's coordinate: one more than a number in [0, 159], capped at 159. -/
theorem next_small (b : BitVec 32) (hb : b.toNat ≤ 159) : (IntOp.minsi (IntOp.addi b 1#32) 159#32).toNat ≤ 159 := by
  rw [← small_iff _ 159 (by norm_num)]
  have hadd : (IntOp.addi b 1#32).toNat = b.toNat + 1 := by
    show (b + 1#32).toNat = _
    rw [BitVec.toNat_add]
    have : (1#32 : BitVec 32).toNat = 1 := by decide
    omega
  have haddI : (IntOp.addi b 1#32).toInt = (b.toNat : Int) + 1 := by
    rw [toInt_of_small _ 160 (by norm_num) (by omega), hadd]; push_cast; rfl
  unfold IntOp.minsi
  have h159 : (159#32 : BitVec 32).toInt = 159 := by decide
  simp only [BitVec.slt_eq_decide, h159, decide_eq_true_eq]
  split_ifs <;> constructor <;> omega

/-- The linear number of three coordinates in [0, 159], on 32-bit words, reads below the table's length. -/
theorem lin_small (x y z : BitVec 32) (hx : x.toNat ≤ 159) (hy : y.toNat ≤ 159) (hz : z.toNat ≤ 159) :
    ∃ j : Nat, j < 4096000 ∧
      (IntOp.addi (IntOp.muli (IntOp.addi (IntOp.muli z 160#32) y) 160#32) x).toInt = (j : Int) := by
  have h160 : (160#32 : BitVec 32).toNat = 160 := by decide
  have e1 : (IntOp.muli z 160#32).toNat = z.toNat * 160 := by
    show (z * 160#32).toNat = _
    rw [BitVec.toNat_mul, h160]; omega
  have e2 : (IntOp.addi (IntOp.muli z 160#32) y).toNat = z.toNat * 160 + y.toNat := by
    show (IntOp.muli z 160#32 + y).toNat = _
    rw [BitVec.toNat_add, e1]; omega
  have e3 : (IntOp.muli (IntOp.addi (IntOp.muli z 160#32) y) 160#32).toNat = (z.toNat * 160 + y.toNat) * 160 := by
    show (IntOp.addi (IntOp.muli z 160#32) y * 160#32).toNat = _
    rw [BitVec.toNat_mul, e2, h160]; omega
  have e4 : (IntOp.addi (IntOp.muli (IntOp.addi (IntOp.muli z 160#32) y) 160#32) x).toNat
      = (z.toNat * 160 + y.toNat) * 160 + x.toNat := by
    show (IntOp.muli (IntOp.addi (IntOp.muli z 160#32) y) 160#32 + x).toNat = _
    rw [BitVec.toNat_add, e3]; omega
  refine ⟨(z.toNat * 160 + y.toNat) * 160 + x.toNat, by omega, ?_⟩
  rw [toInt_of_small _ 4095999 (by norm_num) (by rw [e4]; omega), e4]

/-! ## The programs' coordinates -/

variable (a0 a1 : FVec Ideal S16384x3 .f32) (a2 : FVec Ideal S16384x256 .f32)

/-- The lower corner's coordinates, at any index. -/
theorem lower_small (i : S4194304x3.Idx) : (val_main_v25 (F := Ideal) a0 a1 a2 i).toNat ≤ 159 := by
  simp only [val_main_v25_apply, val_main_call1_v4_apply, val_main_call1_v3_apply, val_main_c_apply,
    val_main_call1_v2_apply, val_main_call1_v1_apply, val_main_call1_v0_apply, val_main_c_6_apply]
  exact clip_small _

/-- The upper corner's coordinates, at any index. -/
theorem upper_small (i : S4194304x3.Idx) : (val_main_v30 (F := Ideal) a0 a1 a2 i).toNat ≤ 159 := by
  simp only [val_main_v30_apply, val_main_v27_apply, val_main_v26_apply, val_main_c_7_apply, val_main_v29_apply,
    val_main_v28_apply, val_main_c_apply]
  exact next_small _ (lower_small a0 a1 a2 i)

/-- Every corner's linear cell number reads a table row. -/
theorem lin_range (k : Fin 8) (n : Fin 4194304) :
    ∃ j : Nat, j < 4096000 ∧ (Spec.lin a0 a1 a2 k n).toInt = (j : Int) := by
  have L := lower_small a0 a1 a2
  have Uu := upper_small a0 a1 a2
  match k with
  | ⟨0, _⟩ =>
    show ∃ j : Nat, j < 4096000 ∧ (val_main_v61 (F := Ideal) a0 a1 a2 (ix1 n)).toInt = (j : Int)
    simp only [val_main_v61_apply, val_main_v60_apply, val_main_v58_apply, val_main_v57_apply, val_main_v36_apply, val_main_v35_apply, val_main_v56_apply, val_main_c_8_apply, val_main_v34_apply, val_main_v33_apply, val_main_v59_apply, val_main_c_9_apply, val_main_v32_apply, val_main_v31_apply]
    exact lin_small _ _ _ (L _) (L _) (L _)
  | ⟨1, _⟩ =>
    show ∃ j : Nat, j < 4096000 ∧ (val_main_v78 (F := Ideal) a0 a1 a2 (ix1 n)).toInt = (j : Int)
    simp only [val_main_v78_apply, val_main_v77_apply, val_main_v75_apply, val_main_v74_apply, val_main_v36_apply, val_main_v35_apply, val_main_v73_apply, val_main_c_12_apply, val_main_v34_apply, val_main_v33_apply, val_main_v76_apply, val_main_c_13_apply, val_main_v38_apply, val_main_v37_apply]
    exact lin_small _ _ _ (Uu _) (L _) (L _)
  | ⟨2, _⟩ =>
    show ∃ j : Nat, j < 4096000 ∧ (val_main_v96 (F := Ideal) a0 a1 a2 (ix1 n)).toInt = (j : Int)
    simp only [val_main_v96_apply, val_main_v95_apply, val_main_v93_apply, val_main_v92_apply, val_main_v36_apply, val_main_v35_apply, val_main_v91_apply, val_main_c_16_apply, val_main_v40_apply, val_main_v39_apply, val_main_v94_apply, val_main_c_17_apply, val_main_v32_apply, val_main_v31_apply]
    exact lin_small _ _ _ (L _) (Uu _) (L _)
  | ⟨3, _⟩ =>
    show ∃ j : Nat, j < 4096000 ∧ (val_main_v114 (F := Ideal) a0 a1 a2 (ix1 n)).toInt = (j : Int)
    simp only [val_main_v114_apply, val_main_v113_apply, val_main_v111_apply, val_main_v110_apply, val_main_v36_apply, val_main_v35_apply, val_main_v109_apply, val_main_c_20_apply, val_main_v40_apply, val_main_v39_apply, val_main_v112_apply, val_main_c_21_apply, val_main_v38_apply, val_main_v37_apply]
    exact lin_small _ _ _ (Uu _) (Uu _) (L _)
  | ⟨4, _⟩ =>
    show ∃ j : Nat, j < 4096000 ∧ (val_main_v132 (F := Ideal) a0 a1 a2 (ix1 n)).toInt = (j : Int)
    simp only [val_main_v132_apply, val_main_v131_apply, val_main_v129_apply, val_main_v128_apply, val_main_v42_apply, val_main_v41_apply, val_main_v127_apply, val_main_c_24_apply, val_main_v34_apply, val_main_v33_apply, val_main_v130_apply, val_main_c_25_apply, val_main_v32_apply, val_main_v31_apply]
    exact lin_small _ _ _ (L _) (L _) (Uu _)
  | ⟨5, _⟩ =>
    show ∃ j : Nat, j < 4096000 ∧ (val_main_v150 (F := Ideal) a0 a1 a2 (ix1 n)).toInt = (j : Int)
    simp only [val_main_v150_apply, val_main_v149_apply, val_main_v147_apply, val_main_v146_apply, val_main_v42_apply, val_main_v41_apply, val_main_v145_apply, val_main_c_28_apply, val_main_v34_apply, val_main_v33_apply, val_main_v148_apply, val_main_c_29_apply, val_main_v38_apply, val_main_v37_apply]
    exact lin_small _ _ _ (Uu _) (L _) (Uu _)
  | ⟨6, _⟩ =>
    show ∃ j : Nat, j < 4096000 ∧ (val_main_v168 (F := Ideal) a0 a1 a2 (ix1 n)).toInt = (j : Int)
    simp only [val_main_v168_apply, val_main_v167_apply, val_main_v165_apply, val_main_v164_apply, val_main_v42_apply, val_main_v41_apply, val_main_v163_apply, val_main_c_32_apply, val_main_v40_apply, val_main_v39_apply, val_main_v166_apply, val_main_c_33_apply, val_main_v32_apply, val_main_v31_apply]
    exact lin_small _ _ _ (L _) (Uu _) (Uu _)
  | ⟨7, _⟩ =>
    show ∃ j : Nat, j < 4096000 ∧ (val_main_v186 (F := Ideal) a0 a1 a2 (ix1 n)).toInt = (j : Int)
    simp only [val_main_v186_apply, val_main_v185_apply, val_main_v183_apply, val_main_v182_apply, val_main_v42_apply, val_main_v41_apply, val_main_v181_apply, val_main_c_36_apply, val_main_v40_apply, val_main_v39_apply, val_main_v184_apply, val_main_c_37_apply, val_main_v38_apply, val_main_v37_apply]
    exact lin_small _ _ _ (Uu _) (Uu _) (Uu _)

end Cert.GridSample.Bounds

end
-- ==== Proof.RealChain.lean ====
/-
  Under finite inputs the sampled quantities are real numbers.

  A fractional grid coordinate is `pos - ⌊pos⌋` with `pos = ((o + d·l) - (-1)) / 2 · (160 - 1)`: sums, differences and
  products of real numbers, a quotient by the real number 2, and a floor, so a real number. The interval length is the
  square root of a sum of three squares of real numbers, a non-negative real number, so a real number. A grid value read
  at any cell is an entry of a grid. The trilinear weights are products of fractions and of one minus a fraction, and a
  corner sum is a finite sum of products of reals.
-/
import proofs.«178290_j77008763617691_2_alg».proof.Proof.Spec

noncomputable section

namespace Cert.GridSample.Reals

open Idealize.ShloMosaic Idealize.ShloMosaic.ValueIdx
open Cert.ReferenceIdeal Cert.ReferenceIdeal.Read
open Cert.GridSample.Law (IsReal)
open Cert.KernelIdeal.Pay (wt raw shift one)

/-! ## The programs' float literals are real numbers -/

/-- An f32 word whose exponent field is not all ones denotes a real number. -/
theorem ofBits_f32_real (b : BitVec 32) (h : (b.extractLsb' 23 8).toNat ≠ 2 ^ 8 - 1) : IsReal (Ideal.ofBits .f32 b) := by
  show ∃ r : ℝ, Ideal.ieee 8 23 b = (r : EReal)
  unfold Ideal.ieee
  simp only []
  rw [if_neg h]
  split_ifs <;> exact ⟨_, rfl⟩

theorem one_real : IsReal (Ideal.ofBits .f32 0x3F800000#32) := ofBits_f32_real _ (by decide)
theorem negone_real : IsReal (Ideal.ofBits .f32 0xBF800000#32) := ofBits_f32_real _ (by decide)
theorem c160_real : IsReal (Ideal.ofBits .f32 0x43200000#32) := ofBits_f32_real _ (by decide)
theorem shift_real : IsReal (Ideal.ofBits .f32 0xC15D0C54#32) := ofBits_f32_real _ (by decide)
theorem zero_real : IsReal (Ideal.ofBits .f32 0x00000000#32) := ofBits_f32_real _ (by decide)

/-- The word 0x40000000 is the real number 2. -/
theorem ofBits_two : Ideal.ofBits .f32 0x40000000#32 = ((2 : ℝ) : EReal) := by
  simp [Ideal.ofBits, Ideal.ieee, -EReal.coe_mul]
  norm_num

variable (a0 a1 : FVec Ideal S16384x3 .f32) (a2 : FVec Ideal S16384x256 .f32)
  (a3 : FVec Ideal S1x160x160x160 .f32) (a4 : FVec Ideal S3x160x160x160 .f32)

/-! ## The fractions -/

/-- The fractional part of the grid position of `o + d·l`, for real `o`, `d`, `l`, is a real number. -/
theorem frac_real {o d l : EReal} (ho : IsReal o) (hd : IsReal d) (hl : IsReal l) :
    IsReal (Ideal.div ((o + d * l) - Ideal.ofBits .f32 0xBF800000#32) ((2 : ℝ) : EReal)
        * (Ideal.ofBits .f32 0x43200000#32 - Ideal.ofBits .f32 0x3F800000#32)
      - Ideal.liftRound Int.floor (Ideal.div ((o + d * l) - Ideal.ofBits .f32 0xBF800000#32) ((2 : ℝ) : EReal)
        * (Ideal.ofBits .f32 0x43200000#32 - Ideal.ofBits .f32 0x3F800000#32))) := by
  have hpos : IsReal (Ideal.div ((o + d * l) - Ideal.ofBits .f32 0xBF800000#32) ((2 : ℝ) : EReal)
      * (Ideal.ofBits .f32 0x43200000#32 - Ideal.ofBits .f32 0x3F800000#32)) :=
    (((ho.add (hd.mul hl)).sub negone_real).div_coe (by norm_num)).mul (c160_real.sub one_real)
  exact hpos.sub hpos.floor

theorem W1_real (h0 : ∀ i, IsReal (a0 i)) (h1 : ∀ i, IsReal (a1 i)) (h2 : ∀ i, IsReal (a2 i))
    (n : Fin 4194304) (a : Fin 3) : IsReal (Spec.W1 a0 a1 a2 n a) := by
  unfold Spec.W1
  simp only [val_main_v21_apply, val_main_v19_apply, val_main_v14_apply, val_main_v12_apply, val_main_v10_apply, val_main_v7_apply, val_main_v6_apply, val_main_v0_apply, val_main_v5_apply, val_main_v3_apply, val_main_v1_apply, val_main_v4_apply, val_main_v2_apply, val_main_v11_apply, val_main_cst_2_apply, val_main_v13_apply, val_main_cst_3_apply, val_main_v18_apply, val_main_v17_apply, val_main_v16_apply, val_main_cst_apply, val_main_v15_apply, val_main_cst_4_apply, val_main_v20_apply]
  simp only [Ideal.subf_def, Ideal.mulf_def, Ideal.addf_def, Ideal.hostDivf_def, Ideal.hostUnary_floor_def, Ideal.ofBits_def,
    ofBits_two]
  exact frac_real (h0 _) (h1 _) (h2 _)

/-! ## The interval length -/

theorem mul_self_nonneg_of_real {x : EReal} (hx : IsReal x) : 0 ≤ x * x := by
  obtain ⟨r, rfl⟩ := hx
  rw [← EReal.coe_mul]
  exact_mod_cast mul_self_nonneg r

theorem T_real (h1 : ∀ i, IsReal (a1 i)) (r : Fin 16384) : IsReal (Spec.T a1 r) := by
  unfold Spec.T
  rw [val_main_v8_apply, val_main_call0_v1_apply]
  simp only [val_main_call0_v0_apply, val_main_call0_cst_apply, Ideal.mulf_def, Ideal.hostUnary_sqrt_def, Ideal.ofBits_def,
    Ideal.ofBits_zero_f32, zero_add]
  refine IsReal.sqrt (IsReal.sum _ _ fun k _ => (h1 _).mul (h1 _)) ?_
  exact Finset.sum_nonneg fun k _ => mul_self_nonneg_of_real (h1 _)

/-! ## The grid values and the corner sums -/

theorem gD_real (h3 : ∀ i, IsReal (a3 i)) (k : Fin 8) (n : Fin 4194304) : IsReal (Spec.gD a0 a1 a2 a3 k n) := by
  unfold Spec.gD
  rw [val_main_v43_apply]
  exact h3 _

theorem wt_real {wx wy wz : EReal} (hx : IsReal wx) (hy : IsReal wy) (hz : IsReal wz) (k : Fin 8) : IsReal (wt wx wy wz k) := by
  have o := one_real
  match k with
  | ⟨0, _⟩ => exact ((o.sub hz).mul (o.sub hy)).mul (o.sub hx)
  | ⟨1, _⟩ => exact ((o.sub hz).mul (o.sub hy)).mul hx
  | ⟨2, _⟩ => exact ((o.sub hz).mul hy).mul (o.sub hx)
  | ⟨3, _⟩ => exact ((o.sub hz).mul hy).mul hx
  | ⟨4, _⟩ => exact (hz.mul (o.sub hy)).mul (o.sub hx)
  | ⟨5, _⟩ => exact (hz.mul (o.sub hy)).mul hx
  | ⟨6, _⟩ => exact (hz.mul hy).mul (o.sub hx)
  | ⟨7, _⟩ => exact (hz.mul hy).mul hx

theorem rawD_shift_real (h0 : ∀ i, IsReal (a0 i)) (h1 : ∀ i, IsReal (a1 i)) (h2 : ∀ i, IsReal (a2 i)) (h3 : ∀ i, IsReal (a3 i))
    (n : Fin 4194304) : IsReal (Spec.rawD a0 a1 a2 a3 n + shift) := by
  unfold Spec.rawD raw
  exact (IsReal.sum _ _ fun k _ => (gD_real a0 a1 a2 a3 h3 k n).mul
    (wt_real (W1_real a0 a1 a2 h0 h1 h2 n 0) (W1_real a0 a1 a2 h0 h1 h2 n 1) (W1_real a0 a1 a2 h0 h1 h2 n 2) k)).add shift_real

end Cert.GridSample.Reals

end
-- ==== Proof.KernelSide.lean ====
/-
  The kernel's two results, element by element, in the shared vocabulary.

  The region's operands, as it finds them, hold at column n: the point's three fractions (the transposed fraction array), its
  ray's interval length (the norm broadcast along the ray's samples), and for each channel and corner the grid value at the
  corner's cell (eight row gathers from the channels-last table; the cell numbers lie inside the table, so no gather falls back
  to its fill value). So the output array's row 0 is the density as the kernel computes it, of the shared quantities, and
  rows 1–3 the logistic of the shared corner sums. For finite inputs the interval length and the corner sum are real numbers,
  and there the kernel's density — exp of minus the interval times a softplus taken by parts — is the reference's power.
-/
import proofs.«178290_j77008763617691_2_alg».proof.Proof.KernelResults
import proofs.«178290_j77008763617691_2_alg».proof.Proof.KernelOperands
import proofs.«178290_j77008763617691_2_alg».proof.Proof.LinBounds
import proofs.«178290_j77008763617691_2_alg».proof.Proof.RealChain

set_option maxRecDepth 16384

noncomputable section

namespace Cert.KernelIdeal.Side

open Cert.KernelIdeal Cert.KernelIdeal.Gen Cert.KernelIdeal.Hand Cert.KernelIdeal.Pay Cert.KernelIdeal.Arr
open Cert.KernelIdeal.Operands
open Idealize.ShloMosaic Idealize.ShloMosaic.TcCoe Idealize.ShloMosaic.ValueIdx Idealize.SL.Sem
open Cert.GridSample
open Cert.GridSample.Law (IsReal)
open Cert.ReferenceIdeal.Read
open Cert.Lib.EdgeIndex (wrapNeg wrapNeg_of_toInt_eq clamp_of_toInt_eq)

variable (m : (ℓ : Loc nD τ sig) → Buf (Elt Ideal) ℓ) (c : Dev nD)

/-- The five argument arrays as launched. -/
abbrev a0 : FVec Ideal S16384x3 .f32 := m ((c.tc : Thread nD τ).loc main_arg0)
abbrev a1 : FVec Ideal S16384x3 .f32 := m ((c.tc : Thread nD τ).loc main_arg1)
abbrev a2 : FVec Ideal S16384x256 .f32 := m ((c.tc : Thread nD τ).loc main_arg2)
abbrev a3 : FVec Ideal S1x160x160x160 .f32 := m ((c.tc : Thread nD τ).loc main_arg3)
abbrev a4 : FVec Ideal S3x160x160x160 .f32 := m ((c.tc : Thread nD τ).loc main_arg4)

/-! ## Cells -/

/-- The cell a gather reads is the cell number itself when it reads below the table's length. -/
theorem cell_eq (k : Fin 8) (n : Fin 4194304) {j : Nat} (hj : j < 4096000)
    (h : (Spec.lin (a0 m c) (a1 m c) (a2 m c) k n).toInt = (j : Int)) :
    Spec.cell (a0 m c) (a1 m c) (a2 m c) k n = ⟨j, hj⟩ := by
  unfold Spec.cell
  refine Fin.ext ?_
  show min (wrapNeg 4096000#32 (Spec.lin (a0 m c) (a1 m c) (a2 m c) k n)).toInt.toNat (4096000 - 1) = j
  rw [wrapNeg_of_toInt_eq _ _ h]
  exact clamp_of_toInt_eq _ h hj

/-- The four-dimensional position of a flattened cell. -/
theorem grid_pos_density (q : Fin 4096000) :
    idx_main_v43 (ix2 (0 : Fin 1) q) = ix4 (0 : Fin 1) (gridZ q) (gridY q) (gridX q) := by
  have hq := q.isLt
  funext a; refine Fin.ext ?_
  match a with
  | ⟨0, _⟩ => rfl
  | ⟨1, _⟩ => show (0 * 4096000 + q.val) / 25600 % 160 = q.val / 25600; omega
  | ⟨2, _⟩ => show (0 * 4096000 + q.val) / 160 % 160 = q.val / 160 % 160; omega
  | ⟨3, _⟩ => show (0 * 4096000 + q.val) % 160 = q.val % 160; omega

theorem grid_pos_color (ch : Fin 3) (q : Fin 4096000) :
    idx_main_v243 (ix2 ch q) = ix4 ch (gridZ q) (gridY q) (gridX q) := by
  have hq := q.isLt
  have hc := ch.isLt
  funext a; refine Fin.ext ?_
  match a with
  | ⟨0, _⟩ => show (ch.val * 4096000 + q.val) / 4096000 = ch.val; omega
  | ⟨1, _⟩ => show (ch.val * 4096000 + q.val) / 25600 % 160 = q.val / 25600; omega
  | ⟨2, _⟩ => show (ch.val * 4096000 + q.val) / 160 % 160 = q.val / 160 % 160; omega
  | ⟨3, _⟩ => show (ch.val * 4096000 + q.val) % 160 = q.val % 160; omega

/-- The kernel program's host prefix computes the same position chain as the reference program: its fraction array, its
    interval lengths and its eight cell-number arrays are the reference's stage functions of the same three arguments. -/
structure Bridged : Prop where
  frac : (V m c main_v23 : S4194304x3.Idx → EReal) = val_main_v21 (F := Ideal) (a0 m c) (a1 m c) (a2 m c)
  norm : (V m c main_v9 : S16384.Idx → EReal) = val_main_v8 (F := Ideal) (a1 m c)
  lin0 : (V m c main_v51 : S4194304.Idx → BitVec 32) = val_main_v61 (F := Ideal) (a0 m c) (a1 m c) (a2 m c)
  lin1 : (V m c main_v59 : S4194304.Idx → BitVec 32) = val_main_v78 (F := Ideal) (a0 m c) (a1 m c) (a2 m c)
  lin2 : (V m c main_v67 : S4194304.Idx → BitVec 32) = val_main_v96 (F := Ideal) (a0 m c) (a1 m c) (a2 m c)
  lin3 : (V m c main_v75 : S4194304.Idx → BitVec 32) = val_main_v114 (F := Ideal) (a0 m c) (a1 m c) (a2 m c)
  lin4 : (V m c main_v83 : S4194304.Idx → BitVec 32) = val_main_v132 (F := Ideal) (a0 m c) (a1 m c) (a2 m c)
  lin5 : (V m c main_v91 : S4194304.Idx → BitVec 32) = val_main_v150 (F := Ideal) (a0 m c) (a1 m c) (a2 m c)
  lin6 : (V m c main_v99 : S4194304.Idx → BitVec 32) = val_main_v168 (F := Ideal) (a0 m c) (a1 m c) (a2 m c)
  lin7 : (V m c main_v107 : S4194304.Idx → BitVec 32) = val_main_v186 (F := Ideal) (a0 m c) (a1 m c) (a2 m c)

variable (hB : Bridged m c)
include hB

/-! ## The corners -/

theorem corner0 (hk : 0 < 8) (ch : Fin 4) (n : Fin 4194304) {j : Nat} (hj : j < 4096000)
    (h : (val_main_v61 (F := Ideal) (a0 m c) (a1 m c) (a2 m c) (ix1 n)).toInt = (j : Int)) :
    V m c main_v118 (ix3 ch (⟨0, hk⟩ : Fin 8) n) = V m c main_v44 (ix2 ch ⟨j, hj⟩) :=
  corner_0_apply m c ch n hj ((congrArg BitVec.toInt (congrFun hB.lin0 (ix1 n))).trans h)
theorem corner1 (hk : 1 < 8) (ch : Fin 4) (n : Fin 4194304) {j : Nat} (hj : j < 4096000)
    (h : (val_main_v78 (F := Ideal) (a0 m c) (a1 m c) (a2 m c) (ix1 n)).toInt = (j : Int)) :
    V m c main_v118 (ix3 ch (⟨1, hk⟩ : Fin 8) n) = V m c main_v44 (ix2 ch ⟨j, hj⟩) :=
  corner_1_apply m c ch n hj ((congrArg BitVec.toInt (congrFun hB.lin1 (ix1 n))).trans h)
theorem corner2 (hk : 2 < 8) (ch : Fin 4) (n : Fin 4194304) {j : Nat} (hj : j < 4096000)
    (h : (val_main_v96 (F := Ideal) (a0 m c) (a1 m c) (a2 m c) (ix1 n)).toInt = (j : Int)) :
    V m c main_v118 (ix3 ch (⟨2, hk⟩ : Fin 8) n) = V m c main_v44 (ix2 ch ⟨j, hj⟩) :=
  corner_2_apply m c ch n hj ((congrArg BitVec.toInt (congrFun hB.lin2 (ix1 n))).trans h)
theorem corner3 (hk : 3 < 8) (ch : Fin 4) (n : Fin 4194304) {j : Nat} (hj : j < 4096000)
    (h : (val_main_v114 (F := Ideal) (a0 m c) (a1 m c) (a2 m c) (ix1 n)).toInt = (j : Int)) :
    V m c main_v118 (ix3 ch (⟨3, hk⟩ : Fin 8) n) = V m c main_v44 (ix2 ch ⟨j, hj⟩) :=
  corner_3_apply m c ch n hj ((congrArg BitVec.toInt (congrFun hB.lin3 (ix1 n))).trans h)
theorem corner4 (hk : 4 < 8) (ch : Fin 4) (n : Fin 4194304) {j : Nat} (hj : j < 4096000)
    (h : (val_main_v132 (F := Ideal) (a0 m c) (a1 m c) (a2 m c) (ix1 n)).toInt = (j : Int)) :
    V m c main_v118 (ix3 ch (⟨4, hk⟩ : Fin 8) n) = V m c main_v44 (ix2 ch ⟨j, hj⟩) :=
  corner_4_apply m c ch n hj ((congrArg BitVec.toInt (congrFun hB.lin4 (ix1 n))).trans h)
theorem corner5 (hk : 5 < 8) (ch : Fin 4) (n : Fin 4194304) {j : Nat} (hj : j < 4096000)
    (h : (val_main_v150 (F := Ideal) (a0 m c) (a1 m c) (a2 m c) (ix1 n)).toInt = (j : Int)) :
    V m c main_v118 (ix3 ch (⟨5, hk⟩ : Fin 8) n) = V m c main_v44 (ix2 ch ⟨j, hj⟩) :=
  corner_5_apply m c ch n hj ((congrArg BitVec.toInt (congrFun hB.lin5 (ix1 n))).trans h)
theorem corner6 (hk : 6 < 8) (ch : Fin 4) (n : Fin 4194304) {j : Nat} (hj : j < 4096000)
    (h : (val_main_v168 (F := Ideal) (a0 m c) (a1 m c) (a2 m c) (ix1 n)).toInt = (j : Int)) :
    V m c main_v118 (ix3 ch (⟨6, hk⟩ : Fin 8) n) = V m c main_v44 (ix2 ch ⟨j, hj⟩) :=
  corner_6_apply m c ch n hj ((congrArg BitVec.toInt (congrFun hB.lin6 (ix1 n))).trans h)
theorem corner7 (hk : 7 < 8) (ch : Fin 4) (n : Fin 4194304) {j : Nat} (hj : j < 4096000)
    (h : (val_main_v186 (F := Ideal) (a0 m c) (a1 m c) (a2 m c) (ix1 n)).toInt = (j : Int)) :
    V m c main_v118 (ix3 ch (⟨7, hk⟩ : Fin 8) n) = V m c main_v44 (ix2 ch ⟨j, hj⟩) :=
  corner_7_apply m c ch n hj ((congrArg BitVec.toInt (congrFun hB.lin7 (ix1 n))).trans h)

/-- Corner k of the corner array at column n, in any channel: the channel's row of the flattened grid table at the
    corner's cell, when the corner's cell number reads j below the table's length. -/
theorem corner_apply (k : Fin 8) (ch : Fin 4) (n : Fin 4194304) {j : Nat} (hj : j < 4096000)
    (h : (Spec.lin (a0 m c) (a1 m c) (a2 m c) k n).toInt = (j : Int)) :
    V m c main_v118 (ix3 ch k n) = V m c main_v44 (ix2 ch ⟨j, hj⟩) := by
  obtain ⟨kv, hk⟩ := k
  interval_cases kv
  · exact corner0 m c hB hk ch n hj ((Spec.lin_0 (a0 m c) (a1 m c) (a2 m c) hk n).symm ▸ h)
  · exact corner1 m c hB hk ch n hj ((Spec.lin_1 (a0 m c) (a1 m c) (a2 m c) hk n).symm ▸ h)
  · exact corner2 m c hB hk ch n hj ((Spec.lin_2 (a0 m c) (a1 m c) (a2 m c) hk n).symm ▸ h)
  · exact corner3 m c hB hk ch n hj ((Spec.lin_3 (a0 m c) (a1 m c) (a2 m c) hk n).symm ▸ h)
  · exact corner4 m c hB hk ch n hj ((Spec.lin_4 (a0 m c) (a1 m c) (a2 m c) hk n).symm ▸ h)
  · exact corner5 m c hB hk ch n hj ((Spec.lin_5 (a0 m c) (a1 m c) (a2 m c) hk n).symm ▸ h)
  · exact corner6 m c hB hk ch n hj ((Spec.lin_6 (a0 m c) (a1 m c) (a2 m c) hk n).symm ▸ h)
  · exact corner7 m c hB hk ch n hj ((Spec.lin_7 (a0 m c) (a1 m c) (a2 m c) hk n).symm ▸ h)

/-- Channel 0's corners are the density grid's corner values. -/
theorem corner_density (k : Fin 8) (n : Fin 4194304) :
    A0 m c (ix3 (0 : Fin 4) k n) = Spec.gD (a0 m c) (a1 m c) (a2 m c) (a3 m c) k n := by
  obtain ⟨j, hj, h⟩ := Bounds.lin_range (a0 m c) (a1 m c) (a2 m c) k n
  refine (corner_apply m c hB k 0 n hj h).trans ((grid_apply_density m c ⟨j, hj⟩).trans ?_)
  unfold Spec.gD
  rw [cell_eq m c k n hj h, val_main_v43_apply, grid_pos_density]

/-- Channels 1–3's corners are the colour grid's corner values. -/
theorem corner_color (ch : Fin 3) (k : Fin 8) (n : Fin 4194304) :
    A0 m c (ix3 (⟨ch.val + 1, by omega⟩ : Fin 4) k n) = Spec.gC (a0 m c) (a1 m c) (a2 m c) (a4 m c) ch k n := by
  obtain ⟨j, hj, h⟩ := Bounds.lin_range (a0 m c) (a1 m c) (a2 m c) k n
  refine (corner_apply m c hB k _ n hj h).trans ((grid_apply_color m c ch ⟨j, hj⟩).trans ?_)
  unfold Spec.gC
  rw [cell_eq m c k n hj h, val_main_v243_apply, grid_pos_color]

/-! ## The fractions and the interval -/

theorem frac_apply (a : Fin 3) (n : Fin 4194304) : A1 m c (ix2 a n) = Spec.W1 (a0 m c) (a1 m c) (a2 m c) n a := by
  exact (w1t_apply m c a n).trans (congrFun hB.frac (ix2 n a))

theorem interval_eq (r : Fin 16384) (p : Fin 256) : A2 m c (ix2 (0 : Fin 1) (Res.flat r p)) = Spec.T (a1 m c) r := by
  refine (interval_apply m c (Res.flat r p)).trans ((congrFun hB.norm _).trans ?_)
  unfold Spec.T
  refine congrArg _ (congrArg ix1 (Fin.ext ?_))
  show (r.val * 256 + p.val) / 256 = r.val
  have := p.isLt
  omega

/-! ## The two results -/

/-- The kernel's density result at (r, p, 0), for real argument entries, is the shared density. -/
theorem density_apply (h0 : ∀ i, IsReal (a0 m c i)) (h1 : ∀ i, IsReal (a1 m c i)) (h2 : ∀ i, IsReal (a2 m c i))
    (h3 : ∀ i, IsReal (a3 m c i)) (r : Fin 16384) (p : Fin 256) :
    Pipeline.afterTail₀ cfgs (dats m) 0 (V0 m) [hostOps1] c main_v123 (ix3 r p (0 : Fin 1))
      = Spec.density (a0 m c) (a1 m c) (a2 m c) (a3 m c) r p := by
  rw [Res.res0_apply]
  unfold outAt
  rw [if_pos (show ((0 : Fin 4).val = 0) from rfl), interval_eq m c hB]
  simp only [frac_apply m c hB, corner_density m c hB]
  obtain ⟨t, ht⟩ := Reals.T_real (a1 m c) h1 r
  obtain ⟨x, hx⟩ := Reals.rawD_shift_real (a0 m c) (a1 m c) (a2 m c) (a3 m c) h0 h1 h2 h3 (Spec.flat r p)
  show Law.densK (Spec.T (a1 m c) r) (Spec.rawD (a0 m c) (a1 m c) (a2 m c) (a3 m c) (Spec.flat r p) + shift)
    = Law.densR (Spec.T (a1 m c) r) (Spec.rawD (a0 m c) (a1 m c) (a2 m c) (a3 m c) (Spec.flat r p) + shift)
  rw [ht, hx]
  exact Law.densK_eq_densR t x

/-- The kernel's colour result at (r, p, ch) is the shared colour. -/
theorem color_apply (r : Fin 16384) (p : Fin 256) (ch : Fin 3) :
    Pipeline.afterTail₀ cfgs (dats m) 0 (V0 m) [hostOps1] c main_v126 (ix3 r p ch)
      = Spec.color (a0 m c) (a1 m c) (a2 m c) (a4 m c) r p ch := by
  rw [Res.res1_apply]
  unfold outAt
  rw [if_neg (by show ¬ (ch.val + 1 = 0); omega)]
  simp only [frac_apply m c hB, corner_color m c hB]
  rfl

end Cert.KernelIdeal.Side

end
-- ==== Proof.KernelBridge.lean ====
/- The sample positions, computed twice: the program's host operations before the region compute, operation for
   operation, the chain the reference program computes from the same three argument arrays — the fractional
   coordinates, the per-ray norm, the clipped integer coordinates and the eight linear cell numbers
   (z · 160 + y) · 160 + x over the lower or upper coordinate on each axis. So each of these buffers, as the region
   finds it, IS the reference's stage function of the three arrays as launched (`V_frac`, `V_norm`, `V_lin0` … `V_lin7`).
   Each is read stretch by stretch: a buffer of one stretch is that stretch's operations applied to buffers of earlier
   stretches, which are the reference's stage functions by the earlier steps. -/
import proofs.«178290_j77008763617691_2_alg».proof.Proof.KernelOperands
import proofs.«178290_j77008763617691_2_alg».proof.Proof.RefRead

set_option maxRecDepth 65536

noncomputable section

namespace Cert.KernelIdeal.Bridge

open Cert.KernelIdeal Cert.KernelIdeal.Gen Cert.KernelIdeal.Operands
open Idealize.ShloMosaic Idealize.ShloMosaic.TcCoe Idealize.ShloMosaic.StableHlo
open Idealize.SL Idealize.SL.Sem
open Cert.ReferenceIdeal.Read

variable (m : (ℓ : Loc nD τ sig) → Buf (Elt Ideal) ℓ) (c : Dev nD)

/-- Core `c`'s buffers after the first stretch, and after the first three. -/
abbrev W1 : Valuation τ sig (Elt Ideal) := StableHlo.after (List.flatten [hostOps0]) (fun b => m (c, b))
abbrev W3 : Valuation τ sig (Elt Ideal) := StableHlo.after (List.flatten [hostOps0, hostOps0_1, hostOps0_2]) (fun b => m (c, b))

/-! ## Reading and writing through a typed reference whose buffer has the stated type is the identity -/

theorem ob_arg1 (v : (⟨S16384x3, .f32⟩ : BufTy).Contents (Elt Ideal)) : (TRef.of main_arg1 : TRef sig ⟨S16384x3, .f32⟩).ofBuf v = v := rfl
theorem tb_v9 (v : (⟨S16384, .f32⟩ : BufTy).Contents (Elt Ideal)) : (TRef.of main_v9 : TRef sig ⟨S16384, .f32⟩).toBuf v = v := rfl
theorem ob_c3 (v : (⟨S_, .i32⟩ : BufTy).Contents (Elt Ideal)) : (TRef.of main_c_3 : TRef sig ⟨S_, .i32⟩).ofBuf v = v := rfl
theorem ob_v24 (v : (⟨S4194304x3, .i32⟩ : BufTy).Contents (Elt Ideal)) : (TRef.of main_v24 : TRef sig ⟨S4194304x3, .i32⟩).ofBuf v = v := rfl
theorem ob_c (v : (⟨S3, .i32⟩ : BufTy).Contents (Elt Ideal)) : (TRef.of main_c : TRef sig ⟨S3, .i32⟩).ofBuf v = v := rfl
theorem tb_v25 (v : (⟨S4194304x3, .i32⟩ : BufTy).Contents (Elt Ideal)) : (TRef.of main_v25 : TRef sig ⟨S4194304x3, .i32⟩).toBuf v = v := rfl

/-! ## The first stretch: the sample positions before scaling, and two constants -/

theorem a_v8 : W2 m c (Proc.devRef .tc main_v8) = val_main_v10 (F := Ideal) (m ((c.tc : Thread nD τ).loc main_arg0)) (m ((c.tc : Thread nD τ).loc main_arg1)) (m ((c.tc : Thread nD τ).loc main_arg2)) := by
  have e : W2 m c (Proc.devRef .tc main_v8) = StableHlo.after hostOps0 (fun b => m (c, b)) (Proc.devRef .tc main_v8) :=
    after_mid [] hostOps0 [hostOps0_1] _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; simp only [hostOps0]; stretch_results
  simp only [val_main_v10, val_main_v7, val_main_v6, val_main_v5, val_main_v4, val_main_v3, val_main_v2, val_main_v1, val_main_v0] <;> rfl

theorem a_cst : W2 m c (Proc.devRef .tc main_cst) = val_main_cst (F := Ideal) := by
  have e : W2 m c (Proc.devRef .tc main_cst) = StableHlo.after hostOps0 (fun b => m (c, b)) (Proc.devRef .tc main_cst) :=
    after_mid [] hostOps0 [hostOps0_1] _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; simp only [hostOps0]; stretch_results
  rfl

theorem b_c : W3 m c (Proc.devRef .tc main_c) = val_main_c (F := Ideal) := by
  have e : W3 m c (Proc.devRef .tc main_c) = StableHlo.after hostOps0 (fun b => m (c, b)) (Proc.devRef .tc main_c) :=
    after_mid [] hostOps0 [hostOps0_1, hostOps0_2] _ _ (List.forall_iff_forall_mem.mp (by
    simp only [hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; simp only [hostOps0]; stretch_results
  rfl

theorem c_c : W4 m c (Proc.devRef .tc main_c) = val_main_c (F := Ideal) := by
  have e : W4 m c (Proc.devRef .tc main_c) = StableHlo.after hostOps0 (fun b => m (c, b)) (Proc.devRef .tc main_c) :=
    after_mid [] hostOps0 [hostOps0_1, hostOps0_2, hostOps0_3] _ _ (List.forall_iff_forall_mem.mp (by
    simp only [hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; simp only [hostOps0]; stretch_results
  rfl

/-! ## The per-ray norm -/

theorem n_arg1 : W1 m c (Proc.devRef .tc main_arg1) = m ((c.tc : Thread nD τ).loc main_arg1) :=
  StableHlo.after_of_forall_not_mem (b := (Proc.devRef .tc main_arg1)) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- The norm buffer, as the region finds it, is the reference's norm of the second argument array. -/
theorem V_norm : Hand.V m c main_v9 = val_main_v8 (F := Ideal) (m ((c.tc : Thread nD τ).loc main_arg1)) := by
  have e : W2 m c (Proc.devRef .tc main_v9) = StableHlo.after hostOps0_1 (W1 m c) (Proc.devRef .tc main_v9) :=
    after_mid [hostOps0] hostOps0_1 [] _ _ (by intro op hop; exact absurd hop (by simp))
  rw [e9 m c, e]; simp only [hostOps0_1]; stretch_results
  simp only [ofBuf_toBuf, tb_v9, ob_arg1]
  rw [n_arg1 m c]
  simp only [val_main_v8, val_main_call0_v1, val_main_call0_cst, val_main_call0_v0] <;> rfl

/-! ## The third stretch: the fractional coordinates, the integer coordinates, a constant -/

/-- The fractional-coordinate buffer, as the region finds it, is the reference's. -/
theorem V_frac : Hand.V m c main_v23 = val_main_v21 (F := Ideal) (m ((c.tc : Thread nD τ).loc main_arg0)) (m ((c.tc : Thread nD τ).loc main_arg1)) (m ((c.tc : Thread nD τ).loc main_arg2)) := by
  have e : Hand.V m c main_v23 = StableHlo.after hostOps0_2 (W2 m c) (Proc.devRef .tc main_v23) :=
    after_mid [hostOps0, hostOps0_1] hostOps0_2 [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] _ _ (List.forall_iff_forall_mem.mp (by
    simp only [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; simp only [hostOps0_2]; stretch_results
  rw [a_v8 m c, a_cst m c]
  simp only [val_main_v21, val_main_v20, val_main_v19, val_main_v18, val_main_v17, val_main_v16, val_main_v15, val_main_cst_4, val_main_v14, val_main_v13, val_main_cst_3, val_main_v12, val_main_v11, val_main_cst_2] <;> rfl

theorem b_v24 : W3 m c (Proc.devRef .tc main_v24) = val_main_v24 (F := Ideal) (m ((c.tc : Thread nD τ).loc main_arg0)) (m ((c.tc : Thread nD τ).loc main_arg1)) (m ((c.tc : Thread nD τ).loc main_arg2)) := by
  have e : W3 m c (Proc.devRef .tc main_v24) = StableHlo.after hostOps0_2 (W2 m c) (Proc.devRef .tc main_v24) :=
    after_mid [hostOps0, hostOps0_1] hostOps0_2 [] _ _ (by intro op hop; exact absurd hop (by simp))
  rw [e]; simp only [hostOps0_2]; stretch_results
  rw [a_v8 m c, a_cst m c]
  simp only [val_main_v24, val_main_v20, val_main_v19, val_main_v18, val_main_v17, val_main_v16, val_main_v15, val_main_cst_4, val_main_v14, val_main_v13, val_main_cst_3, val_main_v12, val_main_v11, val_main_cst_2] <;> rfl

theorem b_c3 : W3 m c (Proc.devRef .tc main_c_3) = val_main_c_6 (F := Ideal) := by
  have e : W3 m c (Proc.devRef .tc main_c_3) = StableHlo.after hostOps0_2 (W2 m c) (Proc.devRef .tc main_c_3) :=
    after_mid [hostOps0, hostOps0_1] hostOps0_2 [] _ _ (by intro op hop; exact absurd hop (by simp))
  rw [e]; simp only [hostOps0_2]; stretch_results
  rfl

/-! ## The clip to the grid -/

theorem c_v25 : W4 m c (Proc.devRef .tc main_v25) = val_main_v25 (F := Ideal) (m ((c.tc : Thread nD τ).loc main_arg0)) (m ((c.tc : Thread nD τ).loc main_arg1)) (m ((c.tc : Thread nD τ).loc main_arg2)) := by
  have e : W4 m c (Proc.devRef .tc main_v25) = StableHlo.after hostOps0_3 (W3 m c) (Proc.devRef .tc main_v25) :=
    after_mid [hostOps0, hostOps0_1, hostOps0_2] hostOps0_3 [] _ _ (by intro op hop; exact absurd hop (by simp))
  rw [e]; simp only [hostOps0_3]; stretch_results
  simp only [ofBuf_toBuf, tb_v25, ob_v24, ob_c3, ob_c]
  rw [b_v24 m c, b_c3 m c, b_c m c]
  simp only [val_main_v25, val_main_call1_v4, val_main_call1_v3, val_main_call1_v2, val_main_call1_v1, val_main_call1_v0] <;> rfl

/-! ## The six coordinate columns, and the first cell number -/

theorem d_v32 : W5 m c (Proc.devRef .tc main_v32) = val_main_v32 (F := Ideal) (m ((c.tc : Thread nD τ).loc main_arg0)) (m ((c.tc : Thread nD τ).loc main_arg1)) (m ((c.tc : Thread nD τ).loc main_arg2)) := by
  have e : W5 m c (Proc.devRef .tc main_v32) = StableHlo.after hostOps0_4 (W4 m c) (Proc.devRef .tc main_v32) :=
    after_mid [hostOps0, hostOps0_1, hostOps0_2, hostOps0_3] hostOps0_4 [] _ _ (by intro op hop; exact absurd hop (by simp))
  rw [e]; simp only [hostOps0_4]; stretch_results
  rw [c_v25 m c]
  simp only [val_main_v32, val_main_v31] <;> rfl

theorem d_v34 : W5 m c (Proc.devRef .tc main_v34) = val_main_v34 (F := Ideal) (m ((c.tc : Thread nD τ).loc main_arg0)) (m ((c.tc : Thread nD τ).loc main_arg1)) (m ((c.tc : Thread nD τ).loc main_arg2)) := by
  have e : W5 m c (Proc.devRef .tc main_v34) = StableHlo.after hostOps0_4 (W4 m c) (Proc.devRef .tc main_v34) :=
    after_mid [hostOps0, hostOps0_1, hostOps0_2, hostOps0_3] hostOps0_4 [] _ _ (by intro op hop; exact absurd hop (by simp))
  rw [e]; simp only [hostOps0_4]; stretch_results
  rw [c_v25 m c]
  simp only [val_main_v34, val_main_v33] <;> rfl

theorem d_v36 : W5 m c (Proc.devRef .tc main_v36) = val_main_v36 (F := Ideal) (m ((c.tc : Thread nD τ).loc main_arg0)) (m ((c.tc : Thread nD τ).loc main_arg1)) (m ((c.tc : Thread nD τ).loc main_arg2)) := by
  have e : W5 m c (Proc.devRef .tc main_v36) = StableHlo.after hostOps0_4 (W4 m c) (Proc.devRef .tc main_v36) :=
    after_mid [hostOps0, hostOps0_1, hostOps0_2, hostOps0_3] hostOps0_4 [] _ _ (by intro op hop; exact absurd hop (by simp))
  rw [e]; simp only [hostOps0_4]; stretch_results
  rw [c_v25 m c]
  simp only [val_main_v36, val_main_v35] <;> rfl

theorem d_v38 : W5 m c (Proc.devRef .tc main_v38) = val_main_v38 (F := Ideal) (m ((c.tc : Thread nD τ).loc main_arg0)) (m ((c.tc : Thread nD τ).loc main_arg1)) (m ((c.tc : Thread nD τ).loc main_arg2)) := by
  have e : W5 m c (Proc.devRef .tc main_v38) = StableHlo.after hostOps0_4 (W4 m c) (Proc.devRef .tc main_v38) :=
    after_mid [hostOps0, hostOps0_1, hostOps0_2, hostOps0_3] hostOps0_4 [] _ _ (by intro op hop; exact absurd hop (by simp))
  rw [e]; simp only [hostOps0_4]; stretch_results
  rw [c_v25 m c, c_c m c]
  simp only [val_main_v38, val_main_v37, val_main_v30, val_main_v29, val_main_v28, val_main_v27, val_main_v26, val_main_c_7] <;> rfl

theorem d_v40 : W5 m c (Proc.devRef .tc main_v40) = val_main_v40 (F := Ideal) (m ((c.tc : Thread nD τ).loc main_arg0)) (m ((c.tc : Thread nD τ).loc main_arg1)) (m ((c.tc : Thread nD τ).loc main_arg2)) := by
  have e : W5 m c (Proc.devRef .tc main_v40) = StableHlo.after hostOps0_4 (W4 m c) (Proc.devRef .tc main_v40) :=
    after_mid [hostOps0, hostOps0_1, hostOps0_2, hostOps0_3] hostOps0_4 [] _ _ (by intro op hop; exact absurd hop (by simp))
  rw [e]; simp only [hostOps0_4]; stretch_results
  rw [c_v25 m c, c_c m c]
  simp only [val_main_v40, val_main_v39, val_main_v30, val_main_v29, val_main_v28, val_main_v27, val_main_v26, val_main_c_7] <;> rfl

theorem d_v42 : W5 m c (Proc.devRef .tc main_v42) = val_main_v42 (F := Ideal) (m ((c.tc : Thread nD τ).loc main_arg0)) (m ((c.tc : Thread nD τ).loc main_arg1)) (m ((c.tc : Thread nD τ).loc main_arg2)) := by
  have e : W5 m c (Proc.devRef .tc main_v42) = StableHlo.after hostOps0_4 (W4 m c) (Proc.devRef .tc main_v42) :=
    after_mid [hostOps0, hostOps0_1, hostOps0_2, hostOps0_3] hostOps0_4 [] _ _ (by intro op hop; exact absurd hop (by simp))
  rw [e]; simp only [hostOps0_4]; stretch_results
  rw [c_v25 m c, c_c m c]
  simp only [val_main_v42, val_main_v41, val_main_v30, val_main_v29, val_main_v28, val_main_v27, val_main_v26, val_main_c_7] <;> rfl

theorem d_v51 : W5 m c (Proc.devRef .tc main_v51) = val_main_v61 (F := Ideal) (m ((c.tc : Thread nD τ).loc main_arg0)) (m ((c.tc : Thread nD τ).loc main_arg1)) (m ((c.tc : Thread nD τ).loc main_arg2)) := by
  have e : W5 m c (Proc.devRef .tc main_v51) = StableHlo.after hostOps0_4 (W4 m c) (Proc.devRef .tc main_v51) :=
    after_mid [hostOps0, hostOps0_1, hostOps0_2, hostOps0_3] hostOps0_4 [] _ _ (by intro op hop; exact absurd hop (by simp))
  rw [e]; simp only [hostOps0_4]; stretch_results
  rw [c_v25 m c]
  simp only [val_main_v61, val_main_v60, val_main_v59, val_main_c_9, val_main_v58, val_main_v57, val_main_v56, val_main_c_8, val_main_v36, val_main_v35, val_main_v34, val_main_v33, val_main_v32, val_main_v31] <;> rfl

/-- Corner 0's cell numbers, as the region finds them, are the reference's. -/
theorem V_lin0 : Hand.V m c main_v51 = val_main_v61 (F := Ideal) (m ((c.tc : Thread nD τ).loc main_arg0)) (m ((c.tc : Thread nD τ).loc main_arg1)) (m ((c.tc : Thread nD τ).loc main_arg2)) := by
  rw [eL0 m c]; exact d_v51 m c

/-! ## The other seven cell numbers -/

theorem x1_v36 : W6 m c (Proc.devRef .tc main_v36) = val_main_v36 (F := Ideal) (m ((c.tc : Thread nD τ).loc main_arg0)) (m ((c.tc : Thread nD τ).loc main_arg1)) (m ((c.tc : Thread nD τ).loc main_arg2)) := by
  have e : W6 m c (Proc.devRef .tc main_v36) = W5 m c (Proc.devRef .tc main_v36) := after_split [hostOps0, hostOps0_1, hostOps0_2, hostOps0_3, hostOps0_4] [hostOps0_5] _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v36 m c

theorem x1_v34 : W6 m c (Proc.devRef .tc main_v34) = val_main_v34 (F := Ideal) (m ((c.tc : Thread nD τ).loc main_arg0)) (m ((c.tc : Thread nD τ).loc main_arg1)) (m ((c.tc : Thread nD τ).loc main_arg2)) := by
  have e : W6 m c (Proc.devRef .tc main_v34) = W5 m c (Proc.devRef .tc main_v34) := after_split [hostOps0, hostOps0_1, hostOps0_2, hostOps0_3, hostOps0_4] [hostOps0_5] _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v34 m c

theorem x1_v38 : W6 m c (Proc.devRef .tc main_v38) = val_main_v38 (F := Ideal) (m ((c.tc : Thread nD τ).loc main_arg0)) (m ((c.tc : Thread nD τ).loc main_arg1)) (m ((c.tc : Thread nD τ).loc main_arg2)) := by
  have e : W6 m c (Proc.devRef .tc main_v38) = W5 m c (Proc.devRef .tc main_v38) := after_split [hostOps0, hostOps0_1, hostOps0_2, hostOps0_3, hostOps0_4] [hostOps0_5] _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v38 m c

/-- Corner 1's cell numbers, as the region finds them, are the reference's. -/
theorem V_lin1 : Hand.V m c main_v59 = val_main_v78 (F := Ideal) (m ((c.tc : Thread nD τ).loc main_arg0)) (m ((c.tc : Thread nD τ).loc main_arg1)) (m ((c.tc : Thread nD τ).loc main_arg2)) := by
  have e : W7 m c (Proc.devRef .tc main_v59) = StableHlo.after hostOps0_6 (W6 m c) (Proc.devRef .tc main_v59) :=
    after_mid [hostOps0, hostOps0_1, hostOps0_2, hostOps0_3, hostOps0_4, hostOps0_5] hostOps0_6 [] _ _ (by intro op hop; exact absurd hop (by simp))
  rw [eL1 m c, e]; simp only [hostOps0_6]; stretch_results
  rw [x1_v36 m c, x1_v34 m c, x1_v38 m c]
  simp only [val_main_v78, val_main_v77, val_main_v76, val_main_c_13, val_main_v75, val_main_v74, val_main_v73, val_main_c_12] <;> rfl

theorem x2_v36 : W8 m c (Proc.devRef .tc main_v36) = val_main_v36 (F := Ideal) (m ((c.tc : Thread nD τ).loc main_arg0)) (m ((c.tc : Thread nD τ).loc main_arg1)) (m ((c.tc : Thread nD τ).loc main_arg2)) := by
  have e : W8 m c (Proc.devRef .tc main_v36) = W5 m c (Proc.devRef .tc main_v36) := after_split [hostOps0, hostOps0_1, hostOps0_2, hostOps0_3, hostOps0_4] [hostOps0_5, hostOps0_6, hostOps0_7] _ _ (List.forall_iff_forall_mem.mp (by
    simp only [hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v36 m c

theorem x2_v40 : W8 m c (Proc.devRef .tc main_v40) = val_main_v40 (F := Ideal) (m ((c.tc : Thread nD τ).loc main_arg0)) (m ((c.tc : Thread nD τ).loc main_arg1)) (m ((c.tc : Thread nD τ).loc main_arg2)) := by
  have e : W8 m c (Proc.devRef .tc main_v40) = W5 m c (Proc.devRef .tc main_v40) := after_split [hostOps0, hostOps0_1, hostOps0_2, hostOps0_3, hostOps0_4] [hostOps0_5, hostOps0_6, hostOps0_7] _ _ (List.forall_iff_forall_mem.mp (by
    simp only [hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v40 m c

theorem x2_v32 : W8 m c (Proc.devRef .tc main_v32) = val_main_v32 (F := Ideal) (m ((c.tc : Thread nD τ).loc main_arg0)) (m ((c.tc : Thread nD τ).loc main_arg1)) (m ((c.tc : Thread nD τ).loc main_arg2)) := by
  have e : W8 m c (Proc.devRef .tc main_v32) = W5 m c (Proc.devRef .tc main_v32) := after_split [hostOps0, hostOps0_1, hostOps0_2, hostOps0_3, hostOps0_4] [hostOps0_5, hostOps0_6, hostOps0_7] _ _ (List.forall_iff_forall_mem.mp (by
    simp only [hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v32 m c

/-- Corner 2's cell numbers, as the region finds them, are the reference's. -/
theorem V_lin2 : Hand.V m c main_v67 = val_main_v96 (F := Ideal) (m ((c.tc : Thread nD τ).loc main_arg0)) (m ((c.tc : Thread nD τ).loc main_arg1)) (m ((c.tc : Thread nD τ).loc main_arg2)) := by
  have e : W9 m c (Proc.devRef .tc main_v67) = StableHlo.after hostOps0_8 (W8 m c) (Proc.devRef .tc main_v67) :=
    after_mid [hostOps0, hostOps0_1, hostOps0_2, hostOps0_3, hostOps0_4, hostOps0_5, hostOps0_6, hostOps0_7] hostOps0_8 [] _ _ (by intro op hop; exact absurd hop (by simp))
  rw [eL2 m c, e]; simp only [hostOps0_8]; stretch_results
  rw [x2_v36 m c, x2_v40 m c, x2_v32 m c]
  simp only [val_main_v96, val_main_v95, val_main_v94, val_main_c_17, val_main_v93, val_main_v92, val_main_v91, val_main_c_16] <;> rfl

theorem x3_v36 : W10 m c (Proc.devRef .tc main_v36) = val_main_v36 (F := Ideal) (m ((c.tc : Thread nD τ).loc main_arg0)) (m ((c.tc : Thread nD τ).loc main_arg1)) (m ((c.tc : Thread nD τ).loc main_arg2)) := by
  have e : W10 m c (Proc.devRef .tc main_v36) = W5 m c (Proc.devRef .tc main_v36) := after_split [hostOps0, hostOps0_1, hostOps0_2, hostOps0_3, hostOps0_4] [hostOps0_5, hostOps0_6, hostOps0_7, hostOps0_8, hostOps0_9] _ _ (List.forall_iff_forall_mem.mp (by
    simp only [hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v36 m c

theorem x3_v40 : W10 m c (Proc.devRef .tc main_v40) = val_main_v40 (F := Ideal) (m ((c.tc : Thread nD τ).loc main_arg0)) (m ((c.tc : Thread nD τ).loc main_arg1)) (m ((c.tc : Thread nD τ).loc main_arg2)) := by
  have e : W10 m c (Proc.devRef .tc main_v40) = W5 m c (Proc.devRef .tc main_v40) := after_split [hostOps0, hostOps0_1, hostOps0_2, hostOps0_3, hostOps0_4] [hostOps0_5, hostOps0_6, hostOps0_7, hostOps0_8, hostOps0_9] _ _ (List.forall_iff_forall_mem.mp (by
    simp only [hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v40 m c

theorem x3_v38 : W10 m c (Proc.devRef .tc main_v38) = val_main_v38 (F := Ideal) (m ((c.tc : Thread nD τ).loc main_arg0)) (m ((c.tc : Thread nD τ).loc main_arg1)) (m ((c.tc : Thread nD τ).loc main_arg2)) := by
  have e : W10 m c (Proc.devRef .tc main_v38) = W5 m c (Proc.devRef .tc main_v38) := after_split [hostOps0, hostOps0_1, hostOps0_2, hostOps0_3, hostOps0_4] [hostOps0_5, hostOps0_6, hostOps0_7, hostOps0_8, hostOps0_9] _ _ (List.forall_iff_forall_mem.mp (by
    simp only [hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v38 m c

/-- Corner 3's cell numbers, as the region finds them, are the reference's. -/
theorem V_lin3 : Hand.V m c main_v75 = val_main_v114 (F := Ideal) (m ((c.tc : Thread nD τ).loc main_arg0)) (m ((c.tc : Thread nD τ).loc main_arg1)) (m ((c.tc : Thread nD τ).loc main_arg2)) := by
  have e : W11 m c (Proc.devRef .tc main_v75) = StableHlo.after hostOps0_10 (W10 m c) (Proc.devRef .tc main_v75) :=
    after_mid [hostOps0, hostOps0_1, hostOps0_2, hostOps0_3, hostOps0_4, hostOps0_5, hostOps0_6, hostOps0_7, hostOps0_8, hostOps0_9] hostOps0_10 [] _ _ (by intro op hop; exact absurd hop (by simp))
  rw [eL3 m c, e]; simp only [hostOps0_10]; stretch_results
  rw [x3_v36 m c, x3_v40 m c, x3_v38 m c]
  simp only [val_main_v114, val_main_v113, val_main_v112, val_main_c_21, val_main_v111, val_main_v110, val_main_v109, val_main_c_20] <;> rfl

theorem x4_v42 : W12 m c (Proc.devRef .tc main_v42) = val_main_v42 (F := Ideal) (m ((c.tc : Thread nD τ).loc main_arg0)) (m ((c.tc : Thread nD τ).loc main_arg1)) (m ((c.tc : Thread nD τ).loc main_arg2)) := by
  have e : W12 m c (Proc.devRef .tc main_v42) = W5 m c (Proc.devRef .tc main_v42) := after_split [hostOps0, hostOps0_1, hostOps0_2, hostOps0_3, hostOps0_4] [hostOps0_5, hostOps0_6, hostOps0_7, hostOps0_8, hostOps0_9, hostOps0_10, hostOps0_11] _ _ (List.forall_iff_forall_mem.mp (by
    simp only [hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v42 m c

theorem x4_v34 : W12 m c (Proc.devRef .tc main_v34) = val_main_v34 (F := Ideal) (m ((c.tc : Thread nD τ).loc main_arg0)) (m ((c.tc : Thread nD τ).loc main_arg1)) (m ((c.tc : Thread nD τ).loc main_arg2)) := by
  have e : W12 m c (Proc.devRef .tc main_v34) = W5 m c (Proc.devRef .tc main_v34) := after_split [hostOps0, hostOps0_1, hostOps0_2, hostOps0_3, hostOps0_4] [hostOps0_5, hostOps0_6, hostOps0_7, hostOps0_8, hostOps0_9, hostOps0_10, hostOps0_11] _ _ (List.forall_iff_forall_mem.mp (by
    simp only [hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v34 m c

theorem x4_v32 : W12 m c (Proc.devRef .tc main_v32) = val_main_v32 (F := Ideal) (m ((c.tc : Thread nD τ).loc main_arg0)) (m ((c.tc : Thread nD τ).loc main_arg1)) (m ((c.tc : Thread nD τ).loc main_arg2)) := by
  have e : W12 m c (Proc.devRef .tc main_v32) = W5 m c (Proc.devRef .tc main_v32) := after_split [hostOps0, hostOps0_1, hostOps0_2, hostOps0_3, hostOps0_4] [hostOps0_5, hostOps0_6, hostOps0_7, hostOps0_8, hostOps0_9, hostOps0_10, hostOps0_11] _ _ (List.forall_iff_forall_mem.mp (by
    simp only [hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v32 m c

/-- Corner 4's cell numbers, as the region finds them, are the reference's. -/
theorem V_lin4 : Hand.V m c main_v83 = val_main_v132 (F := Ideal) (m ((c.tc : Thread nD τ).loc main_arg0)) (m ((c.tc : Thread nD τ).loc main_arg1)) (m ((c.tc : Thread nD τ).loc main_arg2)) := by
  have e : W13 m c (Proc.devRef .tc main_v83) = StableHlo.after hostOps0_12 (W12 m c) (Proc.devRef .tc main_v83) :=
    after_mid [hostOps0, hostOps0_1, hostOps0_2, hostOps0_3, hostOps0_4, hostOps0_5, hostOps0_6, hostOps0_7, hostOps0_8, hostOps0_9, hostOps0_10, hostOps0_11] hostOps0_12 [] _ _ (by intro op hop; exact absurd hop (by simp))
  rw [eL4 m c, e]; simp only [hostOps0_12]; stretch_results
  rw [x4_v42 m c, x4_v34 m c, x4_v32 m c]
  simp only [val_main_v132, val_main_v131, val_main_v130, val_main_c_25, val_main_v129, val_main_v128, val_main_v127, val_main_c_24] <;> rfl

theorem x5_v42 : W14 m c (Proc.devRef .tc main_v42) = val_main_v42 (F := Ideal) (m ((c.tc : Thread nD τ).loc main_arg0)) (m ((c.tc : Thread nD τ).loc main_arg1)) (m ((c.tc : Thread nD τ).loc main_arg2)) := by
  have e : W14 m c (Proc.devRef .tc main_v42) = W5 m c (Proc.devRef .tc main_v42) := after_split [hostOps0, hostOps0_1, hostOps0_2, hostOps0_3, hostOps0_4] [hostOps0_5, hostOps0_6, hostOps0_7, hostOps0_8, hostOps0_9, hostOps0_10, hostOps0_11, hostOps0_12, hostOps0_13] _ _ (List.forall_iff_forall_mem.mp (by
    simp only [hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v42 m c

theorem x5_v34 : W14 m c (Proc.devRef .tc main_v34) = val_main_v34 (F := Ideal) (m ((c.tc : Thread nD τ).loc main_arg0)) (m ((c.tc : Thread nD τ).loc main_arg1)) (m ((c.tc : Thread nD τ).loc main_arg2)) := by
  have e : W14 m c (Proc.devRef .tc main_v34) = W5 m c (Proc.devRef .tc main_v34) := after_split [hostOps0, hostOps0_1, hostOps0_2, hostOps0_3, hostOps0_4] [hostOps0_5, hostOps0_6, hostOps0_7, hostOps0_8, hostOps0_9, hostOps0_10, hostOps0_11, hostOps0_12, hostOps0_13] _ _ (List.forall_iff_forall_mem.mp (by
    simp only [hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v34 m c

theorem x5_v38 : W14 m c (Proc.devRef .tc main_v38) = val_main_v38 (F := Ideal) (m ((c.tc : Thread nD τ).loc main_arg0)) (m ((c.tc : Thread nD τ).loc main_arg1)) (m ((c.tc : Thread nD τ).loc main_arg2)) := by
  have e : W14 m c (Proc.devRef .tc main_v38) = W5 m c (Proc.devRef .tc main_v38) := after_split [hostOps0, hostOps0_1, hostOps0_2, hostOps0_3, hostOps0_4] [hostOps0_5, hostOps0_6, hostOps0_7, hostOps0_8, hostOps0_9, hostOps0_10, hostOps0_11, hostOps0_12, hostOps0_13] _ _ (List.forall_iff_forall_mem.mp (by
    simp only [hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v38 m c

/-- Corner 5's cell numbers, as the region finds them, are the reference's. -/
theorem V_lin5 : Hand.V m c main_v91 = val_main_v150 (F := Ideal) (m ((c.tc : Thread nD τ).loc main_arg0)) (m ((c.tc : Thread nD τ).loc main_arg1)) (m ((c.tc : Thread nD τ).loc main_arg2)) := by
  have e : W15 m c (Proc.devRef .tc main_v91) = StableHlo.after hostOps0_14 (W14 m c) (Proc.devRef .tc main_v91) :=
    after_mid [hostOps0, hostOps0_1, hostOps0_2, hostOps0_3, hostOps0_4, hostOps0_5, hostOps0_6, hostOps0_7, hostOps0_8, hostOps0_9, hostOps0_10, hostOps0_11, hostOps0_12, hostOps0_13] hostOps0_14 [] _ _ (by intro op hop; exact absurd hop (by simp))
  rw [eL5 m c, e]; simp only [hostOps0_14]; stretch_results
  rw [x5_v42 m c, x5_v34 m c, x5_v38 m c]
  simp only [val_main_v150, val_main_v149, val_main_v148, val_main_c_29, val_main_v147, val_main_v146, val_main_v145, val_main_c_28] <;> rfl

theorem x6_v42 : W16 m c (Proc.devRef .tc main_v42) = val_main_v42 (F := Ideal) (m ((c.tc : Thread nD τ).loc main_arg0)) (m ((c.tc : Thread nD τ).loc main_arg1)) (m ((c.tc : Thread nD τ).loc main_arg2)) := by
  have e : W16 m c (Proc.devRef .tc main_v42) = W5 m c (Proc.devRef .tc main_v42) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15] _ _ (List.forall_iff_forall_mem.mp (by
    simp only [hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v42 m c

theorem x6_v40 : W16 m c (Proc.devRef .tc main_v40) = val_main_v40 (F := Ideal) (m ((c.tc : Thread nD τ).loc main_arg0)) (m ((c.tc : Thread nD τ).loc main_arg1)) (m ((c.tc : Thread nD τ).loc main_arg2)) := by
  have e : W16 m c (Proc.devRef .tc main_v40) = W5 m c (Proc.devRef .tc main_v40) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15] _ _ (List.forall_iff_forall_mem.mp (by
    simp only [hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v40 m c

theorem x6_v32 : W16 m c (Proc.devRef .tc main_v32) = val_main_v32 (F := Ideal) (m ((c.tc : Thread nD τ).loc main_arg0)) (m ((c.tc : Thread nD τ).loc main_arg1)) (m ((c.tc : Thread nD τ).loc main_arg2)) := by
  have e : W16 m c (Proc.devRef .tc main_v32) = W5 m c (Proc.devRef .tc main_v32) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15] _ _ (List.forall_iff_forall_mem.mp (by
    simp only [hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v32 m c

/-- Corner 6's cell numbers, as the region finds them, are the reference's. -/
theorem V_lin6 : Hand.V m c main_v99 = val_main_v168 (F := Ideal) (m ((c.tc : Thread nD τ).loc main_arg0)) (m ((c.tc : Thread nD τ).loc main_arg1)) (m ((c.tc : Thread nD τ).loc main_arg2)) := by
  have e : W17 m c (Proc.devRef .tc main_v99) = StableHlo.after hostOps0_16 (W16 m c) (Proc.devRef .tc main_v99) :=
    after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] hostOps0_16 [] _ _ (by intro op hop; exact absurd hop (by simp))
  rw [eL6 m c, e]; simp only [hostOps0_16]; stretch_results
  rw [x6_v42 m c, x6_v40 m c, x6_v32 m c]
  simp only [val_main_v168, val_main_v167, val_main_v166, val_main_c_33, val_main_v165, val_main_v164, val_main_v163, val_main_c_32] <;> rfl

theorem x7_v42 : W18 m c (Proc.devRef .tc main_v42) = val_main_v42 (F := Ideal) (m ((c.tc : Thread nD τ).loc main_arg0)) (m ((c.tc : Thread nD τ).loc main_arg1)) (m ((c.tc : Thread nD τ).loc main_arg2)) := by
  have e : W18 m c (Proc.devRef .tc main_v42) = W5 m c (Proc.devRef .tc main_v42) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16, hostOps0_17] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v42 m c

theorem x7_v40 : W18 m c (Proc.devRef .tc main_v40) = val_main_v40 (F := Ideal) (m ((c.tc : Thread nD τ).loc main_arg0)) (m ((c.tc : Thread nD τ).loc main_arg1)) (m ((c.tc : Thread nD τ).loc main_arg2)) := by
  have e : W18 m c (Proc.devRef .tc main_v40) = W5 m c (Proc.devRef .tc main_v40) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16, hostOps0_17] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v40 m c

theorem x7_v38 : W18 m c (Proc.devRef .tc main_v38) = val_main_v38 (F := Ideal) (m ((c.tc : Thread nD τ).loc main_arg0)) (m ((c.tc : Thread nD τ).loc main_arg1)) (m ((c.tc : Thread nD τ).loc main_arg2)) := by
  have e : W18 m c (Proc.devRef .tc main_v38) = W5 m c (Proc.devRef .tc main_v38) := after_split [hostOps0, hostOps0_1, hostOps0_2, hostOps0_3, hostOps0_4] [hostOps0_5, hostOps0_6, hostOps0_7, hostOps0_8, hostOps0_9, hostOps0_10, hostOps0_11, hostOps0_12, hostOps0_13, hostOps0_14, hostOps0_15, hostOps0_16, hostOps0_17] _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
  rw [e]; exact d_v38 m c

/-- Corner 7's cell numbers, as the region finds them, are the reference's. -/
theorem V_lin7 : Hand.V m c main_v107 = val_main_v186 (F := Ideal) (m ((c.tc : Thread nD τ).loc main_arg0)) (m ((c.tc : Thread nD τ).loc main_arg1)) (m ((c.tc : Thread nD τ).loc main_arg2)) := by
  have e : W19 m c (Proc.devRef .tc main_v107) = StableHlo.after hostOps0_18 (W18 m c) (Proc.devRef .tc main_v107) :=
    after_mid [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] hostOps0_18 [] _ _ (by intro op hop; exact absurd hop (by simp))
  rw [eL7 m c, e]; simp only [hostOps0_18]; stretch_results
  rw [x7_v42 m c, x7_v40 m c, x7_v38 m c]
  simp only [val_main_v186, val_main_v185, val_main_v184, val_main_c_37, val_main_v183, val_main_v182, val_main_v181, val_main_c_36] <;> rfl

end Cert.KernelIdeal.Bridge

end
-- ==== Proof.RefWeights.lean ====
/-
  The fractions and the eight trilinear weights of the reference program, read at one sample point.

  The program slices the three columns of the fractions f (stage 21) and of 1 - f (stage 23), reshapes each column to a
  vector, and multiplies them in the order (z · y) · x: at point n these are the eight weights wt (f n 0) (f n 1) (f n 2) k,
  corners counted (z, y, x) in binary. The colour half of the program recomputes the fractions and the cell numbers by the
  same composition of the same operations; those stages are the first copy's, definitionally.
-/
import proofs.«178290_j77008763617691_2_alg».proof.Proof.Spec

noncomputable section

namespace Cert.RefSide

open Cert.ReferenceIdeal Cert.ReferenceIdeal.Gen Cert.ReferenceIdeal.Read Cert.GridSample
open Cert.KernelIdeal.Pay (wt raw shift one)
open Idealize.ShloMosaic Idealize.ShloMosaic.ValueIdx Idealize.ShloMosaic.TcCoe Idealize.SL.Sem Idealize.ShloMosaic.StableHlo

variable (a0 a1 : FVec Ideal S16384x3 .f32) (a2 : FVec Ideal S16384x256 .f32)

/-! ## The second copy of the index and weight chain is the first -/

theorem copy_v221 : val_main_v221 (F := Ideal) a0 a1 a2 = val_main_v21 (F := Ideal) a0 a1 a2 := rfl
theorem copy_v223 : val_main_v223 (F := Ideal) a0 a1 a2 = val_main_v23 (F := Ideal) a0 a1 a2 := rfl
theorem copy_v261 : val_main_v261 (F := Ideal) a0 a1 a2 = val_main_v61 (F := Ideal) a0 a1 a2 := rfl
theorem copy_v279 : val_main_v279 (F := Ideal) a0 a1 a2 = val_main_v78 (F := Ideal) a0 a1 a2 := rfl
theorem copy_v298 : val_main_v298 (F := Ideal) a0 a1 a2 = val_main_v96 (F := Ideal) a0 a1 a2 := rfl
theorem copy_v317 : val_main_v317 (F := Ideal) a0 a1 a2 = val_main_v114 (F := Ideal) a0 a1 a2 := rfl
theorem copy_v336 : val_main_v336 (F := Ideal) a0 a1 a2 = val_main_v132 (F := Ideal) a0 a1 a2 := rfl
theorem copy_v355 : val_main_v355 (F := Ideal) a0 a1 a2 = val_main_v150 (F := Ideal) a0 a1 a2 := rfl
theorem copy_v374 : val_main_v374 (F := Ideal) a0 a1 a2 = val_main_v168 (F := Ideal) a0 a1 a2 := rfl
theorem copy_v393 : val_main_v393 (F := Ideal) a0 a1 a2 = val_main_v186 (F := Ideal) a0 a1 a2 := rfl

/-! ## One minus the fraction, and the fraction, at (n, c) -/

theorem v23_at (n : Fin 4194304) (c : Fin 3) :
    val_main_v23 (F := Ideal) a0 a1 a2 (ix2 n c) = one - Spec.W1 a0 a1 a2 n c := by
  rw [val_main_v23_apply, val_main_v22_apply]; rfl

theorem v223_at (n : Fin 4194304) (c : Fin 3) :
    val_main_v223 (F := Ideal) a0 a1 a2 (ix2 n c) = one - Spec.W1 a0 a1 a2 n c := by
  rw [copy_v223]; exact v23_at a0 a1 a2 n c

theorem v21_at (n : Fin 4194304) (c : Fin 3) :
    val_main_v21 (F := Ideal) a0 a1 a2 (ix2 n c) = Spec.W1 a0 a1 a2 n c := rfl

theorem v221_at (n : Fin 4194304) (c : Fin 3) :
    val_main_v221 (F := Ideal) a0 a1 a2 (ix2 n c) = Spec.W1 a0 a1 a2 n c := by
  rw [copy_v221]; rfl

/-! ## The six columns of each copy, as vectors, at n -/

theorem v45_at (n : Fin 4194304) : val_main_v45 (F := Ideal) a0 a1 a2 (ix1 n) = one - Spec.W1 a0 a1 a2 n 0 := by
  refine ((val_main_v45_apply (F := Ideal) a0 a1 a2 _).trans ((val_main_v44_apply (F := Ideal) a0 a1 a2 _).trans (congrArg _ ?_))).trans
    (v23_at a0 a1 a2 n 0)
  funext a; refine Fin.ext ?_
  match a with
  | ⟨0, _⟩ => exact Nat.div_one _
  | ⟨1, _⟩ => rfl

theorem v47_at (n : Fin 4194304) : val_main_v47 (F := Ideal) a0 a1 a2 (ix1 n) = one - Spec.W1 a0 a1 a2 n 1 := by
  refine ((val_main_v47_apply (F := Ideal) a0 a1 a2 _).trans ((val_main_v46_apply (F := Ideal) a0 a1 a2 _).trans (congrArg _ ?_))).trans
    (v23_at a0 a1 a2 n 1)
  funext a; refine Fin.ext ?_
  match a with
  | ⟨0, _⟩ => exact Nat.div_one _
  | ⟨1, _⟩ => rfl

theorem v49_at (n : Fin 4194304) : val_main_v49 (F := Ideal) a0 a1 a2 (ix1 n) = one - Spec.W1 a0 a1 a2 n 2 := by
  refine ((val_main_v49_apply (F := Ideal) a0 a1 a2 _).trans ((val_main_v48_apply (F := Ideal) a0 a1 a2 _).trans (congrArg _ ?_))).trans
    (v23_at a0 a1 a2 n 2)
  funext a; refine Fin.ext ?_
  match a with
  | ⟨0, _⟩ => exact Nat.div_one _
  | ⟨1, _⟩ => rfl

theorem v51_at (n : Fin 4194304) : val_main_v51 (F := Ideal) a0 a1 a2 (ix1 n) = Spec.W1 a0 a1 a2 n 0 := by
  refine ((val_main_v51_apply (F := Ideal) a0 a1 a2 _).trans ((val_main_v50_apply (F := Ideal) a0 a1 a2 _).trans (congrArg _ ?_))).trans
    (v21_at a0 a1 a2 n 0)
  funext a; refine Fin.ext ?_
  match a with
  | ⟨0, _⟩ => exact Nat.div_one _
  | ⟨1, _⟩ => rfl

theorem v53_at (n : Fin 4194304) : val_main_v53 (F := Ideal) a0 a1 a2 (ix1 n) = Spec.W1 a0 a1 a2 n 1 := by
  refine ((val_main_v53_apply (F := Ideal) a0 a1 a2 _).trans ((val_main_v52_apply (F := Ideal) a0 a1 a2 _).trans (congrArg _ ?_))).trans
    (v21_at a0 a1 a2 n 1)
  funext a; refine Fin.ext ?_
  match a with
  | ⟨0, _⟩ => exact Nat.div_one _
  | ⟨1, _⟩ => rfl

theorem v55_at (n : Fin 4194304) : val_main_v55 (F := Ideal) a0 a1 a2 (ix1 n) = Spec.W1 a0 a1 a2 n 2 := by
  refine ((val_main_v55_apply (F := Ideal) a0 a1 a2 _).trans ((val_main_v54_apply (F := Ideal) a0 a1 a2 _).trans (congrArg _ ?_))).trans
    (v21_at a0 a1 a2 n 2)
  funext a; refine Fin.ext ?_
  match a with
  | ⟨0, _⟩ => exact Nat.div_one _
  | ⟨1, _⟩ => rfl

theorem v245_at (n : Fin 4194304) : val_main_v245 (F := Ideal) a0 a1 a2 (ix1 n) = one - Spec.W1 a0 a1 a2 n 0 := by
  refine ((val_main_v245_apply (F := Ideal) a0 a1 a2 _).trans ((val_main_v244_apply (F := Ideal) a0 a1 a2 _).trans (congrArg _ ?_))).trans
    (v223_at a0 a1 a2 n 0)
  funext a; refine Fin.ext ?_
  match a with
  | ⟨0, _⟩ => exact Nat.div_one _
  | ⟨1, _⟩ => rfl

theorem v247_at (n : Fin 4194304) : val_main_v247 (F := Ideal) a0 a1 a2 (ix1 n) = one - Spec.W1 a0 a1 a2 n 1 := by
  refine ((val_main_v247_apply (F := Ideal) a0 a1 a2 _).trans ((val_main_v246_apply (F := Ideal) a0 a1 a2 _).trans (congrArg _ ?_))).trans
    (v223_at a0 a1 a2 n 1)
  funext a; refine Fin.ext ?_
  match a with
  | ⟨0, _⟩ => exact Nat.div_one _
  | ⟨1, _⟩ => rfl

theorem v249_at (n : Fin 4194304) : val_main_v249 (F := Ideal) a0 a1 a2 (ix1 n) = one - Spec.W1 a0 a1 a2 n 2 := by
  refine ((val_main_v249_apply (F := Ideal) a0 a1 a2 _).trans ((val_main_v248_apply (F := Ideal) a0 a1 a2 _).trans (congrArg _ ?_))).trans
    (v223_at a0 a1 a2 n 2)
  funext a; refine Fin.ext ?_
  match a with
  | ⟨0, _⟩ => exact Nat.div_one _
  | ⟨1, _⟩ => rfl

theorem v251_at (n : Fin 4194304) : val_main_v251 (F := Ideal) a0 a1 a2 (ix1 n) = Spec.W1 a0 a1 a2 n 0 := by
  refine ((val_main_v251_apply (F := Ideal) a0 a1 a2 _).trans ((val_main_v250_apply (F := Ideal) a0 a1 a2 _).trans (congrArg _ ?_))).trans
    (v221_at a0 a1 a2 n 0)
  funext a; refine Fin.ext ?_
  match a with
  | ⟨0, _⟩ => exact Nat.div_one _
  | ⟨1, _⟩ => rfl

theorem v253_at (n : Fin 4194304) : val_main_v253 (F := Ideal) a0 a1 a2 (ix1 n) = Spec.W1 a0 a1 a2 n 1 := by
  refine ((val_main_v253_apply (F := Ideal) a0 a1 a2 _).trans ((val_main_v252_apply (F := Ideal) a0 a1 a2 _).trans (congrArg _ ?_))).trans
    (v221_at a0 a1 a2 n 1)
  funext a; refine Fin.ext ?_
  match a with
  | ⟨0, _⟩ => exact Nat.div_one _
  | ⟨1, _⟩ => rfl

theorem v255_at (n : Fin 4194304) : val_main_v255 (F := Ideal) a0 a1 a2 (ix1 n) = Spec.W1 a0 a1 a2 n 2 := by
  refine ((val_main_v255_apply (F := Ideal) a0 a1 a2 _).trans ((val_main_v254_apply (F := Ideal) a0 a1 a2 _).trans (congrArg _ ?_))).trans
    (v221_at a0 a1 a2 n 2)
  funext a; refine Fin.ext ?_
  match a with
  | ⟨0, _⟩ => exact Nat.div_one _
  | ⟨1, _⟩ => rfl

/-! ## The eight weights of each copy at n -/

theorem v70_at (n : Fin 4194304) :
    val_main_v70 (F := Ideal) a0 a1 a2 (ix1 n) = wt (Spec.W1 a0 a1 a2 n 0) (Spec.W1 a0 a1 a2 n 1) (Spec.W1 a0 a1 a2 n 2) 0 := by
  show val_main_v49 (F := Ideal) a0 a1 a2 (ix1 n) * val_main_v47 (F := Ideal) a0 a1 a2 (ix1 n) * val_main_v45 (F := Ideal) a0 a1 a2 (ix1 n) = _
  rw [v49_at, v47_at, v45_at]; rfl

theorem v87_at (n : Fin 4194304) :
    val_main_v87 (F := Ideal) a0 a1 a2 (ix1 n) = wt (Spec.W1 a0 a1 a2 n 0) (Spec.W1 a0 a1 a2 n 1) (Spec.W1 a0 a1 a2 n 2) 1 := by
  show val_main_v49 (F := Ideal) a0 a1 a2 (ix1 n) * val_main_v47 (F := Ideal) a0 a1 a2 (ix1 n) * val_main_v51 (F := Ideal) a0 a1 a2 (ix1 n) = _
  rw [v49_at, v47_at, v51_at]; rfl

theorem v105_at (n : Fin 4194304) :
    val_main_v105 (F := Ideal) a0 a1 a2 (ix1 n) = wt (Spec.W1 a0 a1 a2 n 0) (Spec.W1 a0 a1 a2 n 1) (Spec.W1 a0 a1 a2 n 2) 2 := by
  show val_main_v49 (F := Ideal) a0 a1 a2 (ix1 n) * val_main_v53 (F := Ideal) a0 a1 a2 (ix1 n) * val_main_v45 (F := Ideal) a0 a1 a2 (ix1 n) = _
  rw [v49_at, v53_at, v45_at]; rfl

theorem v123_at (n : Fin 4194304) :
    val_main_v123 (F := Ideal) a0 a1 a2 (ix1 n) = wt (Spec.W1 a0 a1 a2 n 0) (Spec.W1 a0 a1 a2 n 1) (Spec.W1 a0 a1 a2 n 2) 3 := by
  show val_main_v49 (F := Ideal) a0 a1 a2 (ix1 n) * val_main_v53 (F := Ideal) a0 a1 a2 (ix1 n) * val_main_v51 (F := Ideal) a0 a1 a2 (ix1 n) = _
  rw [v49_at, v53_at, v51_at]; rfl

theorem v141_at (n : Fin 4194304) :
    val_main_v141 (F := Ideal) a0 a1 a2 (ix1 n) = wt (Spec.W1 a0 a1 a2 n 0) (Spec.W1 a0 a1 a2 n 1) (Spec.W1 a0 a1 a2 n 2) 4 := by
  show val_main_v55 (F := Ideal) a0 a1 a2 (ix1 n) * val_main_v47 (F := Ideal) a0 a1 a2 (ix1 n) * val_main_v45 (F := Ideal) a0 a1 a2 (ix1 n) = _
  rw [v55_at, v47_at, v45_at]; rfl

theorem v159_at (n : Fin 4194304) :
    val_main_v159 (F := Ideal) a0 a1 a2 (ix1 n) = wt (Spec.W1 a0 a1 a2 n 0) (Spec.W1 a0 a1 a2 n 1) (Spec.W1 a0 a1 a2 n 2) 5 := by
  show val_main_v55 (F := Ideal) a0 a1 a2 (ix1 n) * val_main_v47 (F := Ideal) a0 a1 a2 (ix1 n) * val_main_v51 (F := Ideal) a0 a1 a2 (ix1 n) = _
  rw [v55_at, v47_at, v51_at]; rfl

theorem v177_at (n : Fin 4194304) :
    val_main_v177 (F := Ideal) a0 a1 a2 (ix1 n) = wt (Spec.W1 a0 a1 a2 n 0) (Spec.W1 a0 a1 a2 n 1) (Spec.W1 a0 a1 a2 n 2) 6 := by
  show val_main_v55 (F := Ideal) a0 a1 a2 (ix1 n) * val_main_v53 (F := Ideal) a0 a1 a2 (ix1 n) * val_main_v45 (F := Ideal) a0 a1 a2 (ix1 n) = _
  rw [v55_at, v53_at, v45_at]; rfl

theorem v195_at (n : Fin 4194304) :
    val_main_v195 (F := Ideal) a0 a1 a2 (ix1 n) = wt (Spec.W1 a0 a1 a2 n 0) (Spec.W1 a0 a1 a2 n 1) (Spec.W1 a0 a1 a2 n 2) 7 := by
  show val_main_v55 (F := Ideal) a0 a1 a2 (ix1 n) * val_main_v53 (F := Ideal) a0 a1 a2 (ix1 n) * val_main_v51 (F := Ideal) a0 a1 a2 (ix1 n) = _
  rw [v55_at, v53_at, v51_at]; rfl

theorem v270_at (n : Fin 4194304) :
    val_main_v270 (F := Ideal) a0 a1 a2 (ix1 n) = wt (Spec.W1 a0 a1 a2 n 0) (Spec.W1 a0 a1 a2 n 1) (Spec.W1 a0 a1 a2 n 2) 0 := by
  show val_main_v249 (F := Ideal) a0 a1 a2 (ix1 n) * val_main_v247 (F := Ideal) a0 a1 a2 (ix1 n) * val_main_v245 (F := Ideal) a0 a1 a2 (ix1 n) = _
  rw [v249_at, v247_at, v245_at]; rfl

theorem v288_at (n : Fin 4194304) :
    val_main_v288 (F := Ideal) a0 a1 a2 (ix1 n) = wt (Spec.W1 a0 a1 a2 n 0) (Spec.W1 a0 a1 a2 n 1) (Spec.W1 a0 a1 a2 n 2) 1 := by
  show val_main_v249 (F := Ideal) a0 a1 a2 (ix1 n) * val_main_v247 (F := Ideal) a0 a1 a2 (ix1 n) * val_main_v251 (F := Ideal) a0 a1 a2 (ix1 n) = _
  rw [v249_at, v247_at, v251_at]; rfl

theorem v307_at (n : Fin 4194304) :
    val_main_v307 (F := Ideal) a0 a1 a2 (ix1 n) = wt (Spec.W1 a0 a1 a2 n 0) (Spec.W1 a0 a1 a2 n 1) (Spec.W1 a0 a1 a2 n 2) 2 := by
  show val_main_v249 (F := Ideal) a0 a1 a2 (ix1 n) * val_main_v253 (F := Ideal) a0 a1 a2 (ix1 n) * val_main_v245 (F := Ideal) a0 a1 a2 (ix1 n) = _
  rw [v249_at, v253_at, v245_at]; rfl

theorem v326_at (n : Fin 4194304) :
    val_main_v326 (F := Ideal) a0 a1 a2 (ix1 n) = wt (Spec.W1 a0 a1 a2 n 0) (Spec.W1 a0 a1 a2 n 1) (Spec.W1 a0 a1 a2 n 2) 3 := by
  show val_main_v249 (F := Ideal) a0 a1 a2 (ix1 n) * val_main_v253 (F := Ideal) a0 a1 a2 (ix1 n) * val_main_v251 (F := Ideal) a0 a1 a2 (ix1 n) = _
  rw [v249_at, v253_at, v251_at]; rfl

theorem v345_at (n : Fin 4194304) :
    val_main_v345 (F := Ideal) a0 a1 a2 (ix1 n) = wt (Spec.W1 a0 a1 a2 n 0) (Spec.W1 a0 a1 a2 n 1) (Spec.W1 a0 a1 a2 n 2) 4 := by
  show val_main_v255 (F := Ideal) a0 a1 a2 (ix1 n) * val_main_v247 (F := Ideal) a0 a1 a2 (ix1 n) * val_main_v245 (F := Ideal) a0 a1 a2 (ix1 n) = _
  rw [v255_at, v247_at, v245_at]; rfl

theorem v364_at (n : Fin 4194304) :
    val_main_v364 (F := Ideal) a0 a1 a2 (ix1 n) = wt (Spec.W1 a0 a1 a2 n 0) (Spec.W1 a0 a1 a2 n 1) (Spec.W1 a0 a1 a2 n 2) 5 := by
  show val_main_v255 (F := Ideal) a0 a1 a2 (ix1 n) * val_main_v247 (F := Ideal) a0 a1 a2 (ix1 n) * val_main_v251 (F := Ideal) a0 a1 a2 (ix1 n) = _
  rw [v255_at, v247_at, v251_at]; rfl

theorem v383_at (n : Fin 4194304) :
    val_main_v383 (F := Ideal) a0 a1 a2 (ix1 n) = wt (Spec.W1 a0 a1 a2 n 0) (Spec.W1 a0 a1 a2 n 1) (Spec.W1 a0 a1 a2 n 2) 6 := by
  show val_main_v255 (F := Ideal) a0 a1 a2 (ix1 n) * val_main_v253 (F := Ideal) a0 a1 a2 (ix1 n) * val_main_v245 (F := Ideal) a0 a1 a2 (ix1 n) = _
  rw [v255_at, v253_at, v245_at]; rfl

theorem v402_at (n : Fin 4194304) :
    val_main_v402 (F := Ideal) a0 a1 a2 (ix1 n) = wt (Spec.W1 a0 a1 a2 n 0) (Spec.W1 a0 a1 a2 n 1) (Spec.W1 a0 a1 a2 n 2) 7 := by
  show val_main_v255 (F := Ideal) a0 a1 a2 (ix1 n) * val_main_v253 (F := Ideal) a0 a1 a2 (ix1 n) * val_main_v251 (F := Ideal) a0 a1 a2 (ix1 n) = _
  rw [v255_at, v253_at, v251_at]; rfl

/-! ## The weights through their broadcasts: along the one row of [1, N], and then down the three rows of [3, N] -/

theorem v71_at (n : Fin 4194304) :
    val_main_v71 (F := Ideal) a0 a1 a2 (ix2 (0 : Fin 1) n) = wt (Spec.W1 a0 a1 a2 n 0) (Spec.W1 a0 a1 a2 n 1) (Spec.W1 a0 a1 a2 n 2) 0 := by
  refine ((val_main_v71_apply (F := Ideal) a0 a1 a2 _).trans (congrArg _ ?_)).trans (v70_at a0 a1 a2 n)
  funext a
  match a with
  | ⟨0, _⟩ => rfl

theorem v88_at (n : Fin 4194304) :
    val_main_v88 (F := Ideal) a0 a1 a2 (ix2 (0 : Fin 1) n) = wt (Spec.W1 a0 a1 a2 n 0) (Spec.W1 a0 a1 a2 n 1) (Spec.W1 a0 a1 a2 n 2) 1 := by
  refine ((val_main_v88_apply (F := Ideal) a0 a1 a2 _).trans (congrArg _ ?_)).trans (v87_at a0 a1 a2 n)
  funext a
  match a with
  | ⟨0, _⟩ => rfl

theorem v106_at (n : Fin 4194304) :
    val_main_v106 (F := Ideal) a0 a1 a2 (ix2 (0 : Fin 1) n) = wt (Spec.W1 a0 a1 a2 n 0) (Spec.W1 a0 a1 a2 n 1) (Spec.W1 a0 a1 a2 n 2) 2 := by
  refine ((val_main_v106_apply (F := Ideal) a0 a1 a2 _).trans (congrArg _ ?_)).trans (v105_at a0 a1 a2 n)
  funext a
  match a with
  | ⟨0, _⟩ => rfl

theorem v124_at (n : Fin 4194304) :
    val_main_v124 (F := Ideal) a0 a1 a2 (ix2 (0 : Fin 1) n) = wt (Spec.W1 a0 a1 a2 n 0) (Spec.W1 a0 a1 a2 n 1) (Spec.W1 a0 a1 a2 n 2) 3 := by
  refine ((val_main_v124_apply (F := Ideal) a0 a1 a2 _).trans (congrArg _ ?_)).trans (v123_at a0 a1 a2 n)
  funext a
  match a with
  | ⟨0, _⟩ => rfl

theorem v142_at (n : Fin 4194304) :
    val_main_v142 (F := Ideal) a0 a1 a2 (ix2 (0 : Fin 1) n) = wt (Spec.W1 a0 a1 a2 n 0) (Spec.W1 a0 a1 a2 n 1) (Spec.W1 a0 a1 a2 n 2) 4 := by
  refine ((val_main_v142_apply (F := Ideal) a0 a1 a2 _).trans (congrArg _ ?_)).trans (v141_at a0 a1 a2 n)
  funext a
  match a with
  | ⟨0, _⟩ => rfl

theorem v160_at (n : Fin 4194304) :
    val_main_v160 (F := Ideal) a0 a1 a2 (ix2 (0 : Fin 1) n) = wt (Spec.W1 a0 a1 a2 n 0) (Spec.W1 a0 a1 a2 n 1) (Spec.W1 a0 a1 a2 n 2) 5 := by
  refine ((val_main_v160_apply (F := Ideal) a0 a1 a2 _).trans (congrArg _ ?_)).trans (v159_at a0 a1 a2 n)
  funext a
  match a with
  | ⟨0, _⟩ => rfl

theorem v178_at (n : Fin 4194304) :
    val_main_v178 (F := Ideal) a0 a1 a2 (ix2 (0 : Fin 1) n) = wt (Spec.W1 a0 a1 a2 n 0) (Spec.W1 a0 a1 a2 n 1) (Spec.W1 a0 a1 a2 n 2) 6 := by
  refine ((val_main_v178_apply (F := Ideal) a0 a1 a2 _).trans (congrArg _ ?_)).trans (v177_at a0 a1 a2 n)
  funext a
  match a with
  | ⟨0, _⟩ => rfl

theorem v196_at (n : Fin 4194304) :
    val_main_v196 (F := Ideal) a0 a1 a2 (ix2 (0 : Fin 1) n) = wt (Spec.W1 a0 a1 a2 n 0) (Spec.W1 a0 a1 a2 n 1) (Spec.W1 a0 a1 a2 n 2) 7 := by
  refine ((val_main_v196_apply (F := Ideal) a0 a1 a2 _).trans (congrArg _ ?_)).trans (v195_at a0 a1 a2 n)
  funext a
  match a with
  | ⟨0, _⟩ => rfl

theorem v271_at (n : Fin 4194304) :
    val_main_v271 (F := Ideal) a0 a1 a2 (ix2 (0 : Fin 1) n) = wt (Spec.W1 a0 a1 a2 n 0) (Spec.W1 a0 a1 a2 n 1) (Spec.W1 a0 a1 a2 n 2) 0 := by
  refine ((val_main_v271_apply (F := Ideal) a0 a1 a2 _).trans (congrArg _ ?_)).trans (v270_at a0 a1 a2 n)
  funext a
  match a with
  | ⟨0, _⟩ => rfl

theorem v272_at (ch : Fin 3) (n : Fin 4194304) :
    val_main_v272 (F := Ideal) a0 a1 a2 (ix2 ch n) = wt (Spec.W1 a0 a1 a2 n 0) (Spec.W1 a0 a1 a2 n 1) (Spec.W1 a0 a1 a2 n 2) 0 := by
  refine ((val_main_v272_apply (F := Ideal) a0 a1 a2 _).trans (congrArg _ ?_)).trans (v271_at a0 a1 a2 n)
  funext a
  match a with
  | ⟨0, _⟩ => rfl
  | ⟨1, _⟩ => rfl

theorem v289_at (n : Fin 4194304) :
    val_main_v289 (F := Ideal) a0 a1 a2 (ix2 (0 : Fin 1) n) = wt (Spec.W1 a0 a1 a2 n 0) (Spec.W1 a0 a1 a2 n 1) (Spec.W1 a0 a1 a2 n 2) 1 := by
  refine ((val_main_v289_apply (F := Ideal) a0 a1 a2 _).trans (congrArg _ ?_)).trans (v288_at a0 a1 a2 n)
  funext a
  match a with
  | ⟨0, _⟩ => rfl

theorem v290_at (ch : Fin 3) (n : Fin 4194304) :
    val_main_v290 (F := Ideal) a0 a1 a2 (ix2 ch n) = wt (Spec.W1 a0 a1 a2 n 0) (Spec.W1 a0 a1 a2 n 1) (Spec.W1 a0 a1 a2 n 2) 1 := by
  refine ((val_main_v290_apply (F := Ideal) a0 a1 a2 _).trans (congrArg _ ?_)).trans (v289_at a0 a1 a2 n)
  funext a
  match a with
  | ⟨0, _⟩ => rfl
  | ⟨1, _⟩ => rfl

theorem v308_at (n : Fin 4194304) :
    val_main_v308 (F := Ideal) a0 a1 a2 (ix2 (0 : Fin 1) n) = wt (Spec.W1 a0 a1 a2 n 0) (Spec.W1 a0 a1 a2 n 1) (Spec.W1 a0 a1 a2 n 2) 2 := by
  refine ((val_main_v308_apply (F := Ideal) a0 a1 a2 _).trans (congrArg _ ?_)).trans (v307_at a0 a1 a2 n)
  funext a
  match a with
  | ⟨0, _⟩ => rfl

theorem v309_at (ch : Fin 3) (n : Fin 4194304) :
    val_main_v309 (F := Ideal) a0 a1 a2 (ix2 ch n) = wt (Spec.W1 a0 a1 a2 n 0) (Spec.W1 a0 a1 a2 n 1) (Spec.W1 a0 a1 a2 n 2) 2 := by
  refine ((val_main_v309_apply (F := Ideal) a0 a1 a2 _).trans (congrArg _ ?_)).trans (v308_at a0 a1 a2 n)
  funext a
  match a with
  | ⟨0, _⟩ => rfl
  | ⟨1, _⟩ => rfl

theorem v327_at (n : Fin 4194304) :
    val_main_v327 (F := Ideal) a0 a1 a2 (ix2 (0 : Fin 1) n) = wt (Spec.W1 a0 a1 a2 n 0) (Spec.W1 a0 a1 a2 n 1) (Spec.W1 a0 a1 a2 n 2) 3 := by
  refine ((val_main_v327_apply (F := Ideal) a0 a1 a2 _).trans (congrArg _ ?_)).trans (v326_at a0 a1 a2 n)
  funext a
  match a with
  | ⟨0, _⟩ => rfl

theorem v328_at (ch : Fin 3) (n : Fin 4194304) :
    val_main_v328 (F := Ideal) a0 a1 a2 (ix2 ch n) = wt (Spec.W1 a0 a1 a2 n 0) (Spec.W1 a0 a1 a2 n 1) (Spec.W1 a0 a1 a2 n 2) 3 := by
  refine ((val_main_v328_apply (F := Ideal) a0 a1 a2 _).trans (congrArg _ ?_)).trans (v327_at a0 a1 a2 n)
  funext a
  match a with
  | ⟨0, _⟩ => rfl
  | ⟨1, _⟩ => rfl

theorem v346_at (n : Fin 4194304) :
    val_main_v346 (F := Ideal) a0 a1 a2 (ix2 (0 : Fin 1) n) = wt (Spec.W1 a0 a1 a2 n 0) (Spec.W1 a0 a1 a2 n 1) (Spec.W1 a0 a1 a2 n 2) 4 := by
  refine ((val_main_v346_apply (F := Ideal) a0 a1 a2 _).trans (congrArg _ ?_)).trans (v345_at a0 a1 a2 n)
  funext a
  match a with
  | ⟨0, _⟩ => rfl

theorem v347_at (ch : Fin 3) (n : Fin 4194304) :
    val_main_v347 (F := Ideal) a0 a1 a2 (ix2 ch n) = wt (Spec.W1 a0 a1 a2 n 0) (Spec.W1 a0 a1 a2 n 1) (Spec.W1 a0 a1 a2 n 2) 4 := by
  refine ((val_main_v347_apply (F := Ideal) a0 a1 a2 _).trans (congrArg _ ?_)).trans (v346_at a0 a1 a2 n)
  funext a
  match a with
  | ⟨0, _⟩ => rfl
  | ⟨1, _⟩ => rfl

theorem v365_at (n : Fin 4194304) :
    val_main_v365 (F := Ideal) a0 a1 a2 (ix2 (0 : Fin 1) n) = wt (Spec.W1 a0 a1 a2 n 0) (Spec.W1 a0 a1 a2 n 1) (Spec.W1 a0 a1 a2 n 2) 5 := by
  refine ((val_main_v365_apply (F := Ideal) a0 a1 a2 _).trans (congrArg _ ?_)).trans (v364_at a0 a1 a2 n)
  funext a
  match a with
  | ⟨0, _⟩ => rfl

theorem v366_at (ch : Fin 3) (n : Fin 4194304) :
    val_main_v366 (F := Ideal) a0 a1 a2 (ix2 ch n) = wt (Spec.W1 a0 a1 a2 n 0) (Spec.W1 a0 a1 a2 n 1) (Spec.W1 a0 a1 a2 n 2) 5 := by
  refine ((val_main_v366_apply (F := Ideal) a0 a1 a2 _).trans (congrArg _ ?_)).trans (v365_at a0 a1 a2 n)
  funext a
  match a with
  | ⟨0, _⟩ => rfl
  | ⟨1, _⟩ => rfl

theorem v384_at (n : Fin 4194304) :
    val_main_v384 (F := Ideal) a0 a1 a2 (ix2 (0 : Fin 1) n) = wt (Spec.W1 a0 a1 a2 n 0) (Spec.W1 a0 a1 a2 n 1) (Spec.W1 a0 a1 a2 n 2) 6 := by
  refine ((val_main_v384_apply (F := Ideal) a0 a1 a2 _).trans (congrArg _ ?_)).trans (v383_at a0 a1 a2 n)
  funext a
  match a with
  | ⟨0, _⟩ => rfl

theorem v385_at (ch : Fin 3) (n : Fin 4194304) :
    val_main_v385 (F := Ideal) a0 a1 a2 (ix2 ch n) = wt (Spec.W1 a0 a1 a2 n 0) (Spec.W1 a0 a1 a2 n 1) (Spec.W1 a0 a1 a2 n 2) 6 := by
  refine ((val_main_v385_apply (F := Ideal) a0 a1 a2 _).trans (congrArg _ ?_)).trans (v384_at a0 a1 a2 n)
  funext a
  match a with
  | ⟨0, _⟩ => rfl
  | ⟨1, _⟩ => rfl

theorem v403_at (n : Fin 4194304) :
    val_main_v403 (F := Ideal) a0 a1 a2 (ix2 (0 : Fin 1) n) = wt (Spec.W1 a0 a1 a2 n 0) (Spec.W1 a0 a1 a2 n 1) (Spec.W1 a0 a1 a2 n 2) 7 := by
  refine ((val_main_v403_apply (F := Ideal) a0 a1 a2 _).trans (congrArg _ ?_)).trans (v402_at a0 a1 a2 n)
  funext a
  match a with
  | ⟨0, _⟩ => rfl

theorem v404_at (ch : Fin 3) (n : Fin 4194304) :
    val_main_v404 (F := Ideal) a0 a1 a2 (ix2 ch n) = wt (Spec.W1 a0 a1 a2 n 0) (Spec.W1 a0 a1 a2 n 1) (Spec.W1 a0 a1 a2 n 2) 7 := by
  refine ((val_main_v404_apply (F := Ideal) a0 a1 a2 _).trans (congrArg _ ?_)).trans (v403_at a0 a1 a2 n)
  funext a
  match a with
  | ⟨0, _⟩ => rfl
  | ⟨1, _⟩ => rfl

end Cert.RefSide

end
-- ==== Proof.LibColumnGather.lean ====
/-
  A column gather of StableHLO, read at coordinates.

  For an operand of C rows and N columns and a column of E integer start indices, the gather that collapses the
  column axis and keeps whole columns (offset axis 0 of the result, start index naming operand axis 1, slice
  sizes [C, 1]) has result [C, E]: its element (c, e) is the operand's element in row c of the column whose number
  is the e-th start index, read as a signed integer and clamped into [0, N − 1].
-/
import Idealize.ShloMosaic.Lib.ValueIdx
import Idealize.ShloMosaic.PureOps.Ideal

namespace Cert.Lib.ColumnGather

open Idealize.ShloMosaic Idealize.ShloMosaic.ValueIdx

variable {α : Type}

/-- The dimension numbers of a gather of whole columns: operand [C, N], start indices [E, 1] (one column number
    each), result [C, E]. -/
abbrev gatherCols (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- On the column axis the operand index of result element (c, e) is the e-th start index, read signed and clamped
    into [0, N − 1]: no batching axis, and the column axis is collapsed, so it carries no offset. -/
theorem gatherCols_operandIdx_col {C N E w : Nat}
    (wf : GatherDims.WF ⟨2, ![C, N]⟩ ⟨2, ![E, 1]⟩ ⟨2, ![C, E]⟩ [0] [1] [] [1] [] 1 ![C, 1])
    (idx : IVec ⟨2, ![E, 1]⟩ w) (y : (⟨2, ![C, E]⟩ : Shape).Idx) :
    ((gatherCols C N E wf).operandIdx y idx 1).val
      = min (idx (ix2 (y 1) ⟨0, Nat.one_pos⟩)).toInt.toNat (N - 1) := by
  show (gatherCols C N E wf).start y idx 1 + (gatherCols C N E wf).batchCoord y 1 + (gatherCols C N E wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (gatherCols C N E wf).startIndexMap from List.mem_singleton.mpr rfl)]
  have hsi : (gatherCols C N E wf).siIdx y ⟨List.idxOf (1 : Fin 2) (gatherCols C N E wf).startIndexMap,
      List.idxOf_lt_length_iff.2 (List.mem_singleton.mpr rfl)⟩ = ix2 (y 1) ⟨0, Nat.one_pos⟩ := by
    funext b; refine Fin.ext ?_
    match b with
    | ⟨0, _⟩ => rfl
    | ⟨1, _⟩ => rfl
  rw [hsi]
  rfl

/-- On the row axis the operand index of result element (c, e) is c: the start index does not name that axis, and
    the whole column is the slice, so the offset is the result's row. -/
theorem gatherCols_operandIdx_row {C N E w : Nat}
    (wf : GatherDims.WF ⟨2, ![C, N]⟩ ⟨2, ![E, 1]⟩ ⟨2, ![C, E]⟩ [0] [1] [] [1] [] 1 ![C, 1])
    (idx : IVec ⟨2, ![E, 1]⟩ w) (y : (⟨2, ![C, E]⟩ : Shape).Idx) :
    ((gatherCols C N E wf).operandIdx y idx 0).val = (y 0).val := by
  show (gatherCols C N E wf).start y idx 0 + (gatherCols C N E wf).batchCoord y 0 + (gatherCols C N E wf).offCoord y 0 = _
  rw [GatherDims.batchCoord_eq_zero _ _ _ List.not_mem_nil]
  have h01 : (0 : Fin 2) ∉ ([1] : List (Fin 2)) := by decide
  have hs : (gatherCols C N E wf).start y idx 0 = 0 := by
    unfold GatherDims.start
    rw [dif_neg (show (0 : Fin 2) ∉ (gatherCols C N E wf).startIndexMap from h01)]
  rw [hs]
  simp only [Nat.add_zero, Nat.zero_add]
  unfold GatherDims.offCoord
  rw [dif_pos (show (0 : Fin 2) ∈ (gatherCols C N E wf).sKept from
    (GatherDims.mem_sKept _ _).mpr ⟨h01, List.not_mem_nil⟩)]
  rfl

/-- THE COLUMN GATHER READ AT (c, e): the operand's element in row c of the column whose number is the e-th start
    index, read signed and clamped into [0, N − 1]. -/
theorem gatherCols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (y : (⟨2, ![C, E]⟩ : Shape).Idx) :
    Host.gather (gatherCols C N E wf) x idx y
      = x (ix2 (y 0) ⟨min (idx (ix2 (y 1) ⟨0, Nat.one_pos⟩)).toInt.toNat (N - 1), by omega⟩) := by
  unfold Host.gather
  congr 1
  funext a
  refine Fin.ext ?_
  match a with
  | ⟨0, _⟩ => exact gatherCols_operandIdx_row wf idx y
  | ⟨1, _⟩ => exact gatherCols_operandIdx_col wf idx y

end Cert.Lib.ColumnGather
-- ==== Proof.RefGather.lean ====
/-
  The sixteen gathers of the reference program, read at one sample point.

  Each gather reads a flattened grid ([1, 4096000] for the density, [3, 4096000] for the colours) at start indices that
  are the point's linear cell number L, wrapped (L + 4096000 where L reads below zero, the program's
  select (L <s 0) (L + 4096000) L) and broadcast to a column. The gather clamps the signed start index into the table, so
  its element (c, n) is the grid's row c at the cell of the vocabulary: wrap, then clamp.
-/
import proofs.«178290_j77008763617691_2_alg».proof.Proof.RefWeights
import proofs.«178290_j77008763617691_2_alg».proof.Proof.LibColumnGather

noncomputable section

namespace Cert.RefSide

open Cert.ReferenceIdeal Cert.ReferenceIdeal.Gen Cert.ReferenceIdeal.Read Cert.GridSample
open Cert.KernelIdeal.Pay (wt raw shift one)
open Idealize.ShloMosaic Idealize.ShloMosaic.ValueIdx Idealize.ShloMosaic.TcCoe Idealize.SL.Sem Idealize.ShloMosaic.StableHlo
open Cert.Lib.EdgeIndex (wrapNeg select_slt_zero_eq_wrapNeg)
open Cert.Lib.ColumnGather

/-! ## The start indices: the wrapped cell number, as a column -/

/-- The column of start indices at (n, 0) is the wrap of the cell number at n. -/
theorem start_at (L Z K : IVec S4194304 32) (hZ : ∀ i, Z i = 0#32) (hK : ∀ i, K i = 4096000#32) (n : Fin 4194304) :
    broadcastInDim S4194304x1 ![0] bcast_S4194304_S4194304x1_0 (select (cmpi .slt L Z) (addi L K) L)
        (ix2 n (⟨0, Nat.one_pos⟩ : Fin 1))
      = wrapNeg 4096000#32 (L (ix1 n)) := by
  refine (broadcastInDim_apply _ bcast_S4194304_S4194304x1_0 _ (ix2 n (⟨0, Nat.one_pos⟩ : Fin 1)) (ix1 n) (fun a => match a with
    | ⟨0, _⟩ => by show n.val = if (4194304 : Nat) = 1 then 0 else n.val; rw [if_neg (by decide)])).trans ?_
  show Scalar.select (IntOp.cmpi .slt (L (ix1 n)) (Z (ix1 n))) (IntOp.addi (L (ix1 n)) (K (ix1 n))) (L (ix1 n)) = _
  rw [hZ, hK]
  exact select_slt_zero_eq_wrapNeg _ _

/-- The table row read for a wrapped cell number: the signed value clamped into the table. -/
def row (b : BitVec 32) : Fin 4096000 := ⟨min (wrapNeg 4096000#32 b).toInt.toNat (4096000 - 1), by omega⟩

/-- The density gather at (0, n): the flattened grid at the row of the wrapped cell number. -/
theorem gatherD_at {α : Type} (x : S1x4096000.Idx → α) (L Z K : IVec S4194304 32) (hZ : ∀ i, Z i = 0#32)
    (hK : ∀ i, K i = 4096000#32) (n : Fin 4194304) :
    Host.gather gather_S1x4096000_S4194304x1_S1x4194304_0_1_n_n_1_1_11 x
        (broadcastInDim S4194304x1 ![0] bcast_S4194304_S4194304x1_0 (select (cmpi .slt L Z) (addi L K) L))
        (ix2 (0 : Fin 1) n)
      = x (ix2 (0 : Fin 1) (row (L (ix1 n)))) := by
  refine (gatherCols_apply (by decide) gather_S1x4096000_S4194304x1_S1x4194304_0_1_n_n_1_1_11_wf x _ (ix2 (0 : Fin 1) n)).trans ?_
  refine congrArg x (congrArg (ix2 (0 : Fin 1)) (Fin.ext ?_))
  show min (BitVec.toInt (broadcastInDim S4194304x1 ![0] bcast_S4194304_S4194304x1_0 (select (cmpi .slt L Z) (addi L K) L)
      (ix2 n (⟨0, Nat.one_pos⟩ : Fin 1)))).toNat (4096000 - 1) = _
  rw [start_at L Z K hZ hK n]
  rfl

/-- The colour gather at (ch, n). -/
theorem gatherC_at {α : Type} (x : S3x4096000.Idx → α) (L Z K : IVec S4194304 32) (hZ : ∀ i, Z i = 0#32)
    (hK : ∀ i, K i = 4096000#32) (ch : Fin 3) (n : Fin 4194304) :
    Host.gather gather_S3x4096000_S4194304x1_S3x4194304_0_1_n_n_1_1_31 x
        (broadcastInDim S4194304x1 ![0] bcast_S4194304_S4194304x1_0 (select (cmpi .slt L Z) (addi L K) L))
        (ix2 ch n)
      = x (ix2 ch (row (L (ix1 n)))) := by
  refine (gatherCols_apply (by decide) gather_S3x4096000_S4194304x1_S3x4194304_0_1_n_n_1_1_31_wf x _ (ix2 ch n)).trans ?_
  refine congrArg x (congrArg (ix2 ch) (Fin.ext ?_))
  show min (BitVec.toInt (broadcastInDim S4194304x1 ![0] bcast_S4194304_S4194304x1_0 (select (cmpi .slt L Z) (addi L K) L)
      (ix2 n (⟨0, Nat.one_pos⟩ : Fin 1)))).toNat (4096000 - 1) = _
  rw [start_at L Z K hZ hK n]
  rfl

variable (a0 a1 : FVec Ideal S16384x3 .f32) (a2 : FVec Ideal S16384x256 .f32)
  (a3 : FVec Ideal S1x160x160x160 .f32) (a4 : FVec Ideal S3x160x160x160 .f32)

/-! ## The eight density gathers -/

theorem v68_at (n : Fin 4194304) : val_main_v68 (F := Ideal) a0 a1 a2 a3 (ix2 (0 : Fin 1) n) = Spec.gD a0 a1 a2 a3 0 n :=
  gatherD_at (val_main_v43 (F := Ideal) a3) (val_main_v61 (F := Ideal) a0 a1 a2) (val_main_v62 (F := Ideal)) (val_main_v64 (F := Ideal))
    (fun i => (val_main_v62_apply (F := Ideal) i).trans rfl) (fun i => (val_main_v64_apply (F := Ideal) i).trans rfl) n

theorem v85_at (n : Fin 4194304) : val_main_v85 (F := Ideal) a0 a1 a2 a3 (ix2 (0 : Fin 1) n) = Spec.gD a0 a1 a2 a3 1 n :=
  gatherD_at (val_main_v43 (F := Ideal) a3) (val_main_v78 (F := Ideal) a0 a1 a2) (val_main_v79 (F := Ideal)) (val_main_v81 (F := Ideal))
    (fun i => (val_main_v79_apply (F := Ideal) i).trans rfl) (fun i => (val_main_v81_apply (F := Ideal) i).trans rfl) n

theorem v103_at (n : Fin 4194304) : val_main_v103 (F := Ideal) a0 a1 a2 a3 (ix2 (0 : Fin 1) n) = Spec.gD a0 a1 a2 a3 2 n :=
  gatherD_at (val_main_v43 (F := Ideal) a3) (val_main_v96 (F := Ideal) a0 a1 a2) (val_main_v97 (F := Ideal)) (val_main_v99 (F := Ideal))
    (fun i => (val_main_v97_apply (F := Ideal) i).trans rfl) (fun i => (val_main_v99_apply (F := Ideal) i).trans rfl) n

theorem v121_at (n : Fin 4194304) : val_main_v121 (F := Ideal) a0 a1 a2 a3 (ix2 (0 : Fin 1) n) = Spec.gD a0 a1 a2 a3 3 n :=
  gatherD_at (val_main_v43 (F := Ideal) a3) (val_main_v114 (F := Ideal) a0 a1 a2) (val_main_v115 (F := Ideal)) (val_main_v117 (F := Ideal))
    (fun i => (val_main_v115_apply (F := Ideal) i).trans rfl) (fun i => (val_main_v117_apply (F := Ideal) i).trans rfl) n

theorem v139_at (n : Fin 4194304) : val_main_v139 (F := Ideal) a0 a1 a2 a3 (ix2 (0 : Fin 1) n) = Spec.gD a0 a1 a2 a3 4 n :=
  gatherD_at (val_main_v43 (F := Ideal) a3) (val_main_v132 (F := Ideal) a0 a1 a2) (val_main_v133 (F := Ideal)) (val_main_v135 (F := Ideal))
    (fun i => (val_main_v133_apply (F := Ideal) i).trans rfl) (fun i => (val_main_v135_apply (F := Ideal) i).trans rfl) n

theorem v157_at (n : Fin 4194304) : val_main_v157 (F := Ideal) a0 a1 a2 a3 (ix2 (0 : Fin 1) n) = Spec.gD a0 a1 a2 a3 5 n :=
  gatherD_at (val_main_v43 (F := Ideal) a3) (val_main_v150 (F := Ideal) a0 a1 a2) (val_main_v151 (F := Ideal)) (val_main_v153 (F := Ideal))
    (fun i => (val_main_v151_apply (F := Ideal) i).trans rfl) (fun i => (val_main_v153_apply (F := Ideal) i).trans rfl) n

theorem v175_at (n : Fin 4194304) : val_main_v175 (F := Ideal) a0 a1 a2 a3 (ix2 (0 : Fin 1) n) = Spec.gD a0 a1 a2 a3 6 n :=
  gatherD_at (val_main_v43 (F := Ideal) a3) (val_main_v168 (F := Ideal) a0 a1 a2) (val_main_v169 (F := Ideal)) (val_main_v171 (F := Ideal))
    (fun i => (val_main_v169_apply (F := Ideal) i).trans rfl) (fun i => (val_main_v171_apply (F := Ideal) i).trans rfl) n

theorem v193_at (n : Fin 4194304) : val_main_v193 (F := Ideal) a0 a1 a2 a3 (ix2 (0 : Fin 1) n) = Spec.gD a0 a1 a2 a3 7 n :=
  gatherD_at (val_main_v43 (F := Ideal) a3) (val_main_v186 (F := Ideal) a0 a1 a2) (val_main_v187 (F := Ideal)) (val_main_v189 (F := Ideal))
    (fun i => (val_main_v187_apply (F := Ideal) i).trans rfl) (fun i => (val_main_v189_apply (F := Ideal) i).trans rfl) n

/-! ## The eight colour gathers: their cell numbers are the second copy's, which are the first's -/

theorem v268_at (ch : Fin 3) (n : Fin 4194304) : val_main_v268 (F := Ideal) a0 a1 a2 a4 (ix2 ch n) = Spec.gC a0 a1 a2 a4 ch 0 n := by
  refine (gatherC_at (val_main_v243 (F := Ideal) a4) (val_main_v261 (F := Ideal) a0 a1 a2) (val_main_v262 (F := Ideal)) (val_main_v264 (F := Ideal))
    (fun i => (val_main_v262_apply (F := Ideal) i).trans rfl) (fun i => (val_main_v264_apply (F := Ideal) i).trans rfl) ch n).trans ?_
  rw [copy_v261]
  rfl

theorem v286_at (ch : Fin 3) (n : Fin 4194304) : val_main_v286 (F := Ideal) a0 a1 a2 a4 (ix2 ch n) = Spec.gC a0 a1 a2 a4 ch 1 n := by
  refine (gatherC_at (val_main_v243 (F := Ideal) a4) (val_main_v279 (F := Ideal) a0 a1 a2) (val_main_v280 (F := Ideal)) (val_main_v282 (F := Ideal))
    (fun i => (val_main_v280_apply (F := Ideal) i).trans rfl) (fun i => (val_main_v282_apply (F := Ideal) i).trans rfl) ch n).trans ?_
  rw [copy_v279]
  rfl

theorem v305_at (ch : Fin 3) (n : Fin 4194304) : val_main_v305 (F := Ideal) a0 a1 a2 a4 (ix2 ch n) = Spec.gC a0 a1 a2 a4 ch 2 n := by
  refine (gatherC_at (val_main_v243 (F := Ideal) a4) (val_main_v298 (F := Ideal) a0 a1 a2) (val_main_v299 (F := Ideal)) (val_main_v301 (F := Ideal))
    (fun i => (val_main_v299_apply (F := Ideal) i).trans rfl) (fun i => (val_main_v301_apply (F := Ideal) i).trans rfl) ch n).trans ?_
  rw [copy_v298]
  rfl

theorem v324_at (ch : Fin 3) (n : Fin 4194304) : val_main_v324 (F := Ideal) a0 a1 a2 a4 (ix2 ch n) = Spec.gC a0 a1 a2 a4 ch 3 n := by
  refine (gatherC_at (val_main_v243 (F := Ideal) a4) (val_main_v317 (F := Ideal) a0 a1 a2) (val_main_v318 (F := Ideal)) (val_main_v320 (F := Ideal))
    (fun i => (val_main_v318_apply (F := Ideal) i).trans rfl) (fun i => (val_main_v320_apply (F := Ideal) i).trans rfl) ch n).trans ?_
  rw [copy_v317]
  rfl

theorem v343_at (ch : Fin 3) (n : Fin 4194304) : val_main_v343 (F := Ideal) a0 a1 a2 a4 (ix2 ch n) = Spec.gC a0 a1 a2 a4 ch 4 n := by
  refine (gatherC_at (val_main_v243 (F := Ideal) a4) (val_main_v336 (F := Ideal) a0 a1 a2) (val_main_v337 (F := Ideal)) (val_main_v339 (F := Ideal))
    (fun i => (val_main_v337_apply (F := Ideal) i).trans rfl) (fun i => (val_main_v339_apply (F := Ideal) i).trans rfl) ch n).trans ?_
  rw [copy_v336]
  rfl

theorem v362_at (ch : Fin 3) (n : Fin 4194304) : val_main_v362 (F := Ideal) a0 a1 a2 a4 (ix2 ch n) = Spec.gC a0 a1 a2 a4 ch 5 n := by
  refine (gatherC_at (val_main_v243 (F := Ideal) a4) (val_main_v355 (F := Ideal) a0 a1 a2) (val_main_v356 (F := Ideal)) (val_main_v358 (F := Ideal))
    (fun i => (val_main_v356_apply (F := Ideal) i).trans rfl) (fun i => (val_main_v358_apply (F := Ideal) i).trans rfl) ch n).trans ?_
  rw [copy_v355]
  rfl

theorem v381_at (ch : Fin 3) (n : Fin 4194304) : val_main_v381 (F := Ideal) a0 a1 a2 a4 (ix2 ch n) = Spec.gC a0 a1 a2 a4 ch 6 n := by
  refine (gatherC_at (val_main_v243 (F := Ideal) a4) (val_main_v374 (F := Ideal) a0 a1 a2) (val_main_v375 (F := Ideal)) (val_main_v377 (F := Ideal))
    (fun i => (val_main_v375_apply (F := Ideal) i).trans rfl) (fun i => (val_main_v377_apply (F := Ideal) i).trans rfl) ch n).trans ?_
  rw [copy_v374]
  rfl

theorem v400_at (ch : Fin 3) (n : Fin 4194304) : val_main_v400 (F := Ideal) a0 a1 a2 a4 (ix2 ch n) = Spec.gC a0 a1 a2 a4 ch 7 n := by
  refine (gatherC_at (val_main_v243 (F := Ideal) a4) (val_main_v393 (F := Ideal) a0 a1 a2) (val_main_v394 (F := Ideal)) (val_main_v396 (F := Ideal))
    (fun i => (val_main_v394_apply (F := Ideal) i).trans rfl) (fun i => (val_main_v396_apply (F := Ideal) i).trans rfl) ch n).trans ?_
  rw [copy_v393]
  rfl

end Cert.RefSide

end
-- ==== Proof.RefSide.lean ====
/-
  The reference program read at an index of each result.

  At sample point p of ray r (n = r · 256 + p along the flattened axis) the program's density is
  1 - (1 + exp (raw + shift)) ^ (-T r), with raw the left-to-right sum of the eight gathered corner values of the
  density grid times their trilinear weights, and its colour in channel ch is 1 / (1 + exp (-raw ch)) with the same
  sum over the colour grid: the vocabulary's density and colour. No finiteness and no index bound is used: the
  vocabulary's cell is the wrap and the clamp the program applies, and the two activations are the same expressions.
-/
import proofs.«178290_j77008763617691_2_alg».proof.Proof.RefGather
import proofs.«178290_j77008763617691_2_alg».proof.Proof.LibConvAlgebra

noncomputable section

namespace Cert.RefSide

open Cert.ReferenceIdeal Cert.ReferenceIdeal.Gen Cert.ReferenceIdeal.Read Cert.GridSample
open Cert.KernelIdeal.Pay (wt raw shift one)
open Idealize.ShloMosaic Idealize.ShloMosaic.ValueIdx Idealize.ShloMosaic.TcCoe Idealize.SL.Sem Idealize.ShloMosaic.StableHlo

variable (a0 a1 : FVec Ideal S16384x3 .f32) (a2 : FVec Ideal S16384x256 .f32)
  (a3 : FVec Ideal S1x160x160x160 .f32) (a4 : FVec Ideal S3x160x160x160 .f32)

/-- The f32 word of 1.0 is the extended real 1. -/
theorem one_eq : (one : EReal) = 1 := Cert.Lib.ConvAlgebra.ofBits_one.trans EReal.coe_one

/-! ## The weighted corner sums, one product and one partial sum at a time -/

theorem v72_at (n : Fin 4194304) : val_main_v72 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 := by
  show val_main_v68 (F := Ideal) a0 a1 a2 a3 (ix2 (0 : Fin 1) n) * val_main_v71 (F := Ideal) a0 a1 a2 (ix2 (0 : Fin 1) n) = _
  rw [v68_at, v71_at]

theorem v89_at (n : Fin 4194304) : val_main_v89 (F := Ideal) a0 a1 a2 a3 (ix2 (0 : Fin 1) n) = Spec.gD a0 a1 a2 a3 1 n * wt (Spec.W1 a0 a1 a2 n 0) (Spec.W1 a0 a1 a2 n 1) (Spec.W1 a0 a1 a2 n 2) 1 := by
  show val_main_v85 (F := Ideal) a0 a1 a2 a3 (ix2 (0 : Fin 1) n) * val_main_v88 (F := Ideal) a0 a1 a2 (ix2 (0 : Fin 1) n) = _
  rw [v85_at, v88_at]

theorem v107_at (n : Fin 4194304) : val_main_v107 (F := Ideal) a0 a1 a2 a3 (ix2 (0 : Fin 1) n) = Spec.gD a0 a1 a2 a3 2 n * wt (Spec.W1 a0 a1 a2 n 0) (Spec.W1 a0 a1 a2 n 1) (Spec.W1 a0 a1 a2 n 2) 2 := by
  show val_main_v103 (F := Ideal) a0 a1 a2 a3 (ix2 (0 : Fin 1) n) * val_main_v106 (F := Ideal) a0 a1 a2 (ix2 (0 : Fin 1) n) = _
  rw [v103_at, v106_at]

theorem v125_at (n : Fin 4194304) : val_main_v125 (F := Ideal) a0 a1 a2 a3 (ix2 (0 : Fin 1) n) = Spec.gD a0 a1 a2 a3 3 n * wt (Spec.W1 a0 a1 a2 n 0) (Spec.W1 a0 a1 a2 n 1) (Spec.W1 a0 a1 a2 n 2) 3 := by
  show val_main_v121 (F := Ideal) a0 a1 a2 a3 (ix2 (0 : Fin 1) n) * val_main_v124 (F := Ideal) a0 a1 a2 (ix2 (0 : Fin 1) n) = _
  rw [v121_at, v124_at]

theorem v143_at (n : Fin 4194304) : val_main_v143 (F := Ideal) a0 a1 a2 a3 (ix2 (0 : Fin 1) n) = Spec.gD a0 a1 a2 a3 4 n * wt (Spec.W1 a0 a1 a2 n 0) (Spec.W1 a0 a1 a2 n 1) (Spec.W1 a0 a1 a2 n 2) 4 := by
  show val_main_v139 (F := Ideal) a0 a1 a2 a3 (ix2 (0 : Fin 1) n) * val_main_v142 (F := Ideal) a0 a1 a2 (ix2 (0 : Fin 1) n) = _
  rw [v139_at, v142_at]

theorem v161_at (n : Fin 4194304) : val_main_v161 (F := Ideal) a0 a1 a2 a3 (ix2 (0 : Fin 1) n) = Spec.gD a0 a1 a2 a3 5 n * wt (Spec.W1 a0 a1 a2 n 0) (Spec.W1 a0 a1 a2 n 1) (Spec.W1 a0 a1 a2 n 2) 5 := by
  show val_main_v157 (F := Ideal) a0 a1 a2 a3 (ix2 (0 : Fin 1) n) * val_main_v160 (F := Ideal) a0 a1 a2 (ix2 (0 : Fin 1) n) = _
  rw [v157_at, v160_at]

theorem v179_at (n : Fin 4194304) : val_main_v179 (F := Ideal) a0 a1 a2 a3 (ix2 (0 : Fin 1) n) = Spec.gD a0 a1 a2 a3 6 n * wt (Spec.W1 a0 a1 a2 n 0) (Spec.W1 a0 a1 a2 n 1) (Spec.W1 a0 a1 a2 n 2) 6 := by
  show val_main_v175 (F := Ideal) a0 a1 a2 a3 (ix2 (0 : Fin 1) n) * val_main_v178 (F := Ideal) a0 a1 a2 (ix2 (0 : Fin 1) n) = _
  rw [v175_at, v178_at]

theorem v197_at (n : Fin 4194304) : val_main_v197 (F := Ideal) a0 a1 a2 a3 (ix2 (0 : Fin 1) n) = Spec.gD a0 a1 a2 a3 7 n * wt (Spec.W1 a0 a1 a2 n 0) (Spec.W1 a0 a1 a2 n 1) (Spec.W1 a0 a1 a2 n 2) 7 := by
  show val_main_v193 (F := Ideal) a0 a1 a2 a3 (ix2 (0 : Fin 1) n) * val_main_v196 (F := Ideal) a0 a1 a2 (ix2 (0 : Fin 1) n) = _
  rw [v193_at, v196_at]

theorem v90_at (n : Fin 4194304) : val_main_v90 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 := by
  show val_main_v72 (F := Ideal) a0 a1 a2 a3 (ix2 (0 : Fin 1) n) + val_main_v89 (F := Ideal) a0 a1 a2 a3 (ix2 (0 : Fin 1) n) = _
  rw [v72_at, v89_at]

theorem v108_at (n : Fin 4194304) : val_main_v108 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 := by
  show val_main_v90 (F := Ideal) a0 a1 a2 a3 (ix2 (0 : Fin 1) n) + val_main_v107 (F := Ideal) a0 a1 a2 a3 (ix2 (0 : Fin 1) n) = _
  rw [v90_at, v107_at]

theorem v126_at (n : Fin 4194304) : val_main_v126 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 + Spec.gD a0 a1 a2 a3 3 n * wt (Spec.W1 a0 a1 a2 n 0) (Spec.W1 a0 a1 a2 n 1) (Spec.W1 a0 a1 a2 n 2) 3 := by
  show val_main_v108 (F := Ideal) a0 a1 a2 a3 (ix2 (0 : Fin 1) n) + val_main_v125 (F := Ideal) a0 a1 a2 a3 (ix2 (0 : Fin 1) n) = _
  rw [v108_at, v125_at]

theorem v144_at (n : Fin 4194304) : val_main_v144 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 + Spec.gD a0 a1 a2 a3 3 n * wt (Spec.W1 a0 a1 a2 n 0) (Spec.W1 a0 a1 a2 n 1) (Spec.W1 a0 a1 a2 n 2) 3 + Spec.gD a0 a1 a2 a3 4 n * wt (Spec.W1 a0 a1 a2 n 0) (Spec.W1 a0 a1 a2 n 1) (Spec.W1 a0 a1 a2 n 2) 4 := by
  show val_main_v126 (F := Ideal) a0 a1 a2 a3 (ix2 (0 : Fin 1) n) + val_main_v143 (F := Ideal) a0 a1 a2 a3 (ix2 (0 : Fin 1) n) = _
  rw [v126_at, v143_at]

theorem v162_at (n : Fin 4194304) : val_main_v162 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 + Spec.gD a0 a1 a2 a3 3 n * wt (Spec.W1 a0 a1 a2 n 0) (Spec.W1 a0 a1 a2 n 1) (Spec.W1 a0 a1 a2 n 2) 3 + Spec.gD a0 a1 a2 a3 4 n * wt (Spec.W1 a0 a1 a2 n 0) (Spec.W1 a0 a1 a2 n 1) (Spec.W1 a0 a1 a2 n 2) 4 + Spec.gD a0 a1 a2 a3 5 n * wt (Spec.W1 a0 a1 a2 n 0) (Spec.W1 a0 a1 a2 n 1) (Spec.W1 a0 a1 a2 n 2) 5 := by
  show val_main_v144 (F := Ideal) a0 a1 a2 a3 (ix2 (0 : Fin 1) n) + val_main_v161 (F := Ideal) a0 a1 a2 a3 (ix2 (0 : Fin 1) n) = _
  rw [v144_at, v161_at]

theorem v180_at (n : Fin 4194304) : val_main_v180 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 + Spec.gD a0 a1 a2 a3 3 n * wt (Spec.W1 a0 a1 a2 n 0) (Spec.W1 a0 a1 a2 n 1) (Spec.W1 a0 a1 a2 n 2) 3 + Spec.gD a0 a1 a2 a3 4 n * wt (Spec.W1 a0 a1 a2 n 0) (Spec.W1 a0 a1 a2 n 1) (Spec.W1 a0 a1 a2 n 2) 4 + Spec.gD a0 a1 a2 a3 5 n * wt (Spec.W1 a0 a1 a2 n 0) (Spec.W1 a0 a1 a2 n 1) (Spec.W1 a0 a1 a2 n 2) 5 + Spec.gD a0 a1 a2 a3 6 n * wt (Spec.W1 a0 a1 a2 n 0) (Spec.W1 a0 a1 a2 n 1) (Spec.W1 a0 a1 a2 n 2) 6 := by
  show val_main_v162 (F := Ideal) a0 a1 a2 a3 (ix2 (0 : Fin 1) n) + val_main_v179 (F := Ideal) a0 a1 a2 a3 (ix2 (0 : Fin 1) n) = _
  rw [v162_at, v179_at]

theorem v198_at (n : Fin 4194304) : val_main_v198 (F := Ideal) a0 a1 a2 a3 (ix2 (0 : Fin 1) n) = Spec.gD a0 a1 a2 a3 0 n * wt (Spec.W1 a0 a1 a2 n 0) (Spec.W1 a0 a1 a2 n 1) (Spec.W1 a0 a1 a2 n 2) 0 + Spec.gD a0 a1 a2 a3 1 n * wt (Spec.W1 a0 a1 a2 n 0) (Spec.W1 a0 a1 a2 n 1) (Spec.W1 a0 a1 a2 n 2) 1 + Spec.gD a0 a1 a2 a3 2 n * wt (Spec.W1 a0 a1 a2 n 0) (Spec.W1 a0 a1 a2 n 1) (Spec.W1 a0 a1 a2 n 2) 2 + Spec.gD a0 a1 a2 a3 3 n * wt (Spec.W1 a0 a1 a2 n 0) (Spec.W1 a0 a1 a2 n 1) (Spec.W1 a0 a1 a2 n 2) 3 + Spec.gD a0 a1 a2 a3 4 n * wt (Spec.W1 a0 a1 a2 n 0) (Spec.W1 a0 a1 a2 n 1) (Spec.W1 a0 a1 a2 n 2) 4 + Spec.gD a0 a1 a2 a3 5 n * wt (Spec.W1 a0 a1 a2 n 0) (Spec.W1 a0 a1 a2 n 1) (Spec.W1 a0 a1 a2 n 2) 5 + Spec.gD a0 a1 a2 a3 6 n * wt (Spec.W1 a0 a1 a2 n 0) (Spec.W1 a0 a1 a2 n 1) (Spec.W1 a0 a1 a2 n 2) 6 + Spec.gD a0 a1 a2 a3 7 n * wt (Spec.W1 a0 a1 a2 n 0) (Spec.W1 a0 a1 a2 n 1) (Spec.W1 a0 a1 a2 n 2) 7 := by
  show val_main_v180 (F := Ideal) a0 a1 a2 a3 (ix2 (0 : Fin 1) n) + val_main_v197 (F := Ideal) a0 a1 a2 a3 (ix2 (0 : Fin 1) n) = _
  rw [v180_at, v197_at]

theorem v273_at (ch : Fin 3) (n : Fin 4194304) : val_main_v273 (F := Ideal) a0 a1 a2 a4 (ix2 ch n) = Spec.gC a0 a1 a2 a4 ch 0 n * wt (Spec.W1 a0 a1 a2 n 0) (Spec.W1 a0 a1 a2 n 1) (Spec.W1 a0 a1 a2 n 2) 0 := by
  show val_main_v268 (F := Ideal) a0 a1 a2 a4 (ix2 ch n) * val_main_v272 (F := Ideal) a0 a1 a2 (ix2 ch n) = _
  rw [v268_at, v272_at]

theorem v291_at (ch : Fin 3) (n : Fin 4194304) : val_main_v291 (F := Ideal) a0 a1 a2 a4 (ix2 ch n) = Spec.gC a0 a1 a2 a4 ch 1 n * wt (Spec.W1 a0 a1 a2 n 0) (Spec.W1 a0 a1 a2 n 1) (Spec.W1 a0 a1 a2 n 2) 1 := by
  show val_main_v286 (F := Ideal) a0 a1 a2 a4 (ix2 ch n) * val_main_v290 (F := Ideal) a0 a1 a2 (ix2 ch n) = _
  rw [v286_at, v290_at]

theorem v310_at (ch : Fin 3) (n : Fin 4194304) : val_main_v310 (F := Ideal) a0 a1 a2 a4 (ix2 ch n) = Spec.gC a0 a1 a2 a4 ch 2 n * wt (Spec.W1 a0 a1 a2 n 0) (Spec.W1 a0 a1 a2 n 1) (Spec.W1 a0 a1 a2 n 2) 2 := by
  show val_main_v305 (F := Ideal) a0 a1 a2 a4 (ix2 ch n) * val_main_v309 (F := Ideal) a0 a1 a2 (ix2 ch n) = _
  rw [v305_at, v309_at]

theorem v329_at (ch : Fin 3) (n : Fin 4194304) : val_main_v329 (F := Ideal) a0 a1 a2 a4 (ix2 ch n) = Spec.gC a0 a1 a2 a4 ch 3 n * wt (Spec.W1 a0 a1 a2 n 0) (Spec.W1 a0 a1 a2 n 1) (Spec.W1 a0 a1 a2 n 2) 3 := by
  show val_main_v324 (F := Ideal) a0 a1 a2 a4 (ix2 ch n) * val_main_v328 (F := Ideal) a0 a1 a2 (ix2 ch n) = _
  rw [v324_at, v328_at]

theorem v348_at (ch : Fin 3) (n : Fin 4194304) : val_main_v348 (F := Ideal) a0 a1 a2 a4 (ix2 ch n) = Spec.gC a0 a1 a2 a4 ch 4 n * wt (Spec.W1 a0 a1 a2 n 0) (Spec.W1 a0 a1 a2 n 1) (Spec.W1 a0 a1 a2 n 2) 4 := by
  show val_main_v343 (F := Ideal) a0 a1 a2 a4 (ix2 ch n) * val_main_v347 (F := Ideal) a0 a1 a2 (ix2 ch n) = _
  rw [v343_at, v347_at]

theorem v367_at (ch : Fin 3) (n : Fin 4194304) : val_main_v367 (F := Ideal) a0 a1 a2 a4 (ix2 ch n) = Spec.gC a0 a1 a2 a4 ch 5 n * wt (Spec.W1 a0 a1 a2 n 0) (Spec.W1 a0 a1 a2 n 1) (Spec.W1 a0 a1 a2 n 2) 5 := by
  show val_main_v362 (F := Ideal) a0 a1 a2 a4 (ix2 ch n) * val_main_v366 (F := Ideal) a0 a1 a2 (ix2 ch n) = _
  rw [v362_at, v366_at]

theorem v386_at (ch : Fin 3) (n : Fin 4194304) : val_main_v386 (F := Ideal) a0 a1 a2 a4 (ix2 ch n) = Spec.gC a0 a1 a2 a4 ch 6 n * wt (Spec.W1 a0 a1 a2 n 0) (Spec.W1 a0 a1 a2 n 1) (Spec.W1 a0 a1 a2 n 2) 6 := by
  show val_main_v381 (F := Ideal) a0 a1 a2 a4 (ix2 ch n) * val_main_v385 (F := Ideal) a0 a1 a2 (ix2 ch n) = _
  rw [v381_at, v385_at]

theorem v405_at (ch : Fin 3) (n : Fin 4194304) : val_main_v405 (F := Ideal) a0 a1 a2 a4 (ix2 ch n) = Spec.gC a0 a1 a2 a4 ch 7 n * wt (Spec.W1 a0 a1 a2 n 0) (Spec.W1 a0 a1 a2 n 1) (Spec.W1 a0 a1 a2 n 2) 7 := by
  show val_main_v400 (F := Ideal) a0 a1 a2 a4 (ix2 ch n) * val_main_v404 (F := Ideal) a0 a1 a2 (ix2 ch n) = _
  rw [v400_at, v404_at]

theorem v292_at (ch : Fin 3) (n : Fin 4194304) : val_main_v292 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 := by
  show val_main_v273 (F := Ideal) a0 a1 a2 a4 (ix2 ch n) + val_main_v291 (F := Ideal) a0 a1 a2 a4 (ix2 ch n) = _
  rw [v273_at, v291_at]

theorem v311_at (ch : Fin 3) (n : Fin 4194304) : val_main_v311 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 := by
  show val_main_v292 (F := Ideal) a0 a1 a2 a4 (ix2 ch n) + val_main_v310 (F := Ideal) a0 a1 a2 a4 (ix2 ch n) = _
  rw [v292_at, v310_at]

theorem v330_at (ch : Fin 3) (n : Fin 4194304) : val_main_v330 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 + Spec.gC a0 a1 a2 a4 ch 3 n * wt (Spec.W1 a0 a1 a2 n 0) (Spec.W1 a0 a1 a2 n 1) (Spec.W1 a0 a1 a2 n 2) 3 := by
  show val_main_v311 (F := Ideal) a0 a1 a2 a4 (ix2 ch n) + val_main_v329 (F := Ideal) a0 a1 a2 a4 (ix2 ch n) = _
  rw [v311_at, v329_at]

theorem v349_at (ch : Fin 3) (n : Fin 4194304) : val_main_v349 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 + Spec.gC a0 a1 a2 a4 ch 3 n * wt (Spec.W1 a0 a1 a2 n 0) (Spec.W1 a0 a1 a2 n 1) (Spec.W1 a0 a1 a2 n 2) 3 + Spec.gC a0 a1 a2 a4 ch 4 n * wt (Spec.W1 a0 a1 a2 n 0) (Spec.W1 a0 a1 a2 n 1) (Spec.W1 a0 a1 a2 n 2) 4 := by
  show val_main_v330 (F := Ideal) a0 a1 a2 a4 (ix2 ch n) + val_main_v348 (F := Ideal) a0 a1 a2 a4 (ix2 ch n) = _
  rw [v330_at, v348_at]

theorem v368_at (ch : Fin 3) (n : Fin 4194304) : val_main_v368 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 + Spec.gC a0 a1 a2 a4 ch 3 n * wt (Spec.W1 a0 a1 a2 n 0) (Spec.W1 a0 a1 a2 n 1) (Spec.W1 a0 a1 a2 n 2) 3 + Spec.gC a0 a1 a2 a4 ch 4 n * wt (Spec.W1 a0 a1 a2 n 0) (Spec.W1 a0 a1 a2 n 1) (Spec.W1 a0 a1 a2 n 2) 4 + Spec.gC a0 a1 a2 a4 ch 5 n * wt (Spec.W1 a0 a1 a2 n 0) (Spec.W1 a0 a1 a2 n 1) (Spec.W1 a0 a1 a2 n 2) 5 := by
  show val_main_v349 (F := Ideal) a0 a1 a2 a4 (ix2 ch n) + val_main_v367 (F := Ideal) a0 a1 a2 a4 (ix2 ch n) = _
  rw [v349_at, v367_at]

theorem v387_at (ch : Fin 3) (n : Fin 4194304) : val_main_v387 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 + Spec.gC a0 a1 a2 a4 ch 3 n * wt (Spec.W1 a0 a1 a2 n 0) (Spec.W1 a0 a1 a2 n 1) (Spec.W1 a0 a1 a2 n 2) 3 + Spec.gC a0 a1 a2 a4 ch 4 n * wt (Spec.W1 a0 a1 a2 n 0) (Spec.W1 a0 a1 a2 n 1) (Spec.W1 a0 a1 a2 n 2) 4 + Spec.gC a0 a1 a2 a4 ch 5 n * wt (Spec.W1 a0 a1 a2 n 0) (Spec.W1 a0 a1 a2 n 1) (Spec.W1 a0 a1 a2 n 2) 5 + Spec.gC a0 a1 a2 a4 ch 6 n * wt (Spec.W1 a0 a1 a2 n 0) (Spec.W1 a0 a1 a2 n 1) (Spec.W1 a0 a1 a2 n 2) 6 := by
  show val_main_v368 (F := Ideal) a0 a1 a2 a4 (ix2 ch n) + val_main_v386 (F := Ideal) a0 a1 a2 a4 (ix2 ch n) = _
  rw [v368_at, v386_at]

theorem v406_at (ch : Fin 3) (n : Fin 4194304) : val_main_v406 (F := Ideal) a0 a1 a2 a4 (ix2 ch n) = Spec.gC a0 a1 a2 a4 ch 0 n * wt (Spec.W1 a0 a1 a2 n 0) (Spec.W1 a0 a1 a2 n 1) (Spec.W1 a0 a1 a2 n 2) 0 + Spec.gC a0 a1 a2 a4 ch 1 n * wt (Spec.W1 a0 a1 a2 n 0) (Spec.W1 a0 a1 a2 n 1) (Spec.W1 a0 a1 a2 n 2) 1 + Spec.gC a0 a1 a2 a4 ch 2 n * wt (Spec.W1 a0 a1 a2 n 0) (Spec.W1 a0 a1 a2 n 1) (Spec.W1 a0 a1 a2 n 2) 2 + Spec.gC a0 a1 a2 a4 ch 3 n * wt (Spec.W1 a0 a1 a2 n 0) (Spec.W1 a0 a1 a2 n 1) (Spec.W1 a0 a1 a2 n 2) 3 + Spec.gC a0 a1 a2 a4 ch 4 n * wt (Spec.W1 a0 a1 a2 n 0) (Spec.W1 a0 a1 a2 n 1) (Spec.W1 a0 a1 a2 n 2) 4 + Spec.gC a0 a1 a2 a4 ch 5 n * wt (Spec.W1 a0 a1 a2 n 0) (Spec.W1 a0 a1 a2 n 1) (Spec.W1 a0 a1 a2 n 2) 5 + Spec.gC a0 a1 a2 a4 ch 6 n * wt (Spec.W1 a0 a1 a2 n 0) (Spec.W1 a0 a1 a2 n 1) (Spec.W1 a0 a1 a2 n 2) 6 + Spec.gC a0 a1 a2 a4 ch 7 n * wt (Spec.W1 a0 a1 a2 n 0) (Spec.W1 a0 a1 a2 n 1) (Spec.W1 a0 a1 a2 n 2) 7 := by
  show val_main_v387 (F := Ideal) a0 a1 a2 a4 (ix2 ch n) + val_main_v405 (F := Ideal) a0 a1 a2 a4 (ix2 ch n) = _
  rw [v387_at, v405_at]

/-- The density half's sum of the eight products is the vocabulary's trilinear combination. -/
theorem rawD_at (n : Fin 4194304) : val_main_v198 (F := Ideal) a0 a1 a2 a3 (ix2 (0 : Fin 1) n) = Spec.rawD a0 a1 a2 a3 n :=
  (v198_at a0 a1 a2 a3 n).trans (Fin.sum_univ_eight fun k => Spec.gD a0 a1 a2 a3 k n * wt (Spec.W1 a0 a1 a2 n 0) (Spec.W1 a0 a1 a2 n 1) (Spec.W1 a0 a1 a2 n 2) k).symm

/-- The colour half's. -/
theorem rawC_at (ch : Fin 3) (n : Fin 4194304) : val_main_v406 (F := Ideal) a0 a1 a2 a4 (ix2 ch n) = Spec.rawC a0 a1 a2 a4 ch n :=
  (v406_at a0 a1 a2 a4 ch n).trans (Fin.sum_univ_eight fun k => Spec.gC a0 a1 a2 a4 ch k n * wt (Spec.W1 a0 a1 a2 n 0) (Spec.W1 a0 a1 a2 n 1) (Spec.W1 a0 a1 a2 n 2) k).symm

/-! ## Through the transpose and the reshape to [16384, 256, C] -/

theorem v200_at (r : Fin 16384) (p : Fin 256) :
    val_main_v200 (F := Ideal) a0 a1 a2 a3 (ix3 r p (0 : Fin 1)) = Spec.rawD a0 a1 a2 a3 (Spec.flat r p) := by
  refine ((val_main_v200_apply (F := Ideal) a0 a1 a2 a3 _).trans ((val_main_v199_apply (F := Ideal) a0 a1 a2 a3 _).trans (congrArg _ ?_))).trans
    (rawD_at a0 a1 a2 a3 (Spec.flat r p))
  funext a; refine Fin.ext ?_
  match a with
  | ⟨0, _⟩ => rfl
  | ⟨1, _⟩ => show ((r.val * 256 + p.val) * 1 + 0) / 1 = r.val * 256 + p.val; omega

theorem v408_at (r : Fin 16384) (p : Fin 256) (ch : Fin 3) :
    val_main_v408 (F := Ideal) a0 a1 a2 a4 (ix3 r p ch) = Spec.rawC a0 a1 a2 a4 ch (Spec.flat r p) := by
  refine ((val_main_v408_apply (F := Ideal) a0 a1 a2 a4 _).trans ((val_main_v407_apply (F := Ideal) a0 a1 a2 a4 _).trans (congrArg _ ?_))).trans
    (rawC_at a0 a1 a2 a4 ch (Spec.flat r p))
  have hc : ch.val < 3 := ch.isLt
  funext a; refine Fin.ext ?_
  match a with
  | ⟨0, _⟩ => show ((r.val * 256 + p.val) * 3 + ch.val) % 3 = ch.val; omega
  | ⟨1, _⟩ => show ((r.val * 256 + p.val) * 3 + ch.val) / 3 = r.val * 256 + p.val; omega

/-- The exponent of the density: minus the ray's interval length, broadcast along the ray's points. -/
theorem v207_at (r : Fin 16384) (p : Fin 256) :
    val_main_v207 (F := Ideal) a1 (ix3 r p (0 : Fin 1)) = -Spec.T a1 r := by
  refine (val_main_v207_apply (F := Ideal) a1 _).trans ?_
  show -val_main_v9 (F := Ideal) a1 _ = _
  refine congrArg (fun t : EReal => -t) ((val_main_v9_apply (F := Ideal) a1 _).trans (congrArg _ ?_))
  funext a
  match a with
  | ⟨0, _⟩ => rfl

/-! ## The two results -/

theorem density_apply (r : Fin 16384) (p : Fin 256) :
    val_main_v210 (F := Ideal) a0 a1 a2 a3 (ix3 r p (0 : Fin 1)) = Spec.density a0 a1 a2 a3 r p := by
  show val_main_v209 (F := Ideal) (ix3 r p (0 : Fin 1))
      - Ideal.pow (val_main_v204 (F := Ideal) (ix3 r p (0 : Fin 1))
          + Ideal.exp (val_main_v200 (F := Ideal) a0 a1 a2 a3 (ix3 r p (0 : Fin 1)) + val_main_v201 (F := Ideal) (ix3 r p (0 : Fin 1))))
        (val_main_v207 (F := Ideal) a1 (ix3 r p (0 : Fin 1))) = _
  rw [val_main_v209_apply, val_main_v204_apply, val_main_v201_apply, v200_at, v207_at]
  show (one : EReal) - Ideal.pow (one + Ideal.exp (Spec.rawD a0 a1 a2 a3 (Spec.flat r p) + shift)) (-Spec.T a1 r) = _
  rw [one_eq]
  rfl

theorem color_apply (r : Fin 16384) (p : Fin 256) (ch : Fin 3) :
    val_main_v414 (F := Ideal) a0 a1 a2 a4 (ix3 r p ch) = Spec.color a0 a1 a2 a4 r p ch := by
  show Ideal.div (val_main_v413 (F := Ideal) (ix3 r p ch))
      (val_main_v411 (F := Ideal) (ix3 r p ch) + Ideal.exp (-val_main_v408 (F := Ideal) a0 a1 a2 a4 (ix3 r p ch))) = _
  rw [val_main_v413_apply, val_main_v411_apply, v408_at]
  show Ideal.div (one : EReal) (one + Ideal.exp (-Spec.rawC a0 a1 a2 a4 ch (Spec.flat r p))) = _
  rw [one_eq]
  rfl

end Cert.RefSide

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteArgs.lean ====
/-
  The precondition read back: every entry of every argument array is a real number.

  The precondition is the conjunction of five tests, one per argument array: "every entry's absolute value is below
  +inf". A conjunction that is 1 has every conjunct 1; an all-reduction by "and" that is 1 had a 1 at every entry; and
  an extended real whose absolute value is below +inf is neither infinity.
-/
import proofs.«178290_j77008763617691_2_alg».proof.Pre_finite_inputs
import proofs.«178290_j77008763617691_2_alg».proof.Proof.Gen.Pre_finite_inputs
import proofs.«178290_j77008763617691_2_alg».proof.Proof.LibFiniteEntry
import Idealize.ShloMosaic.Lib.ReduceAll
import Idealize.ShloMosaic.Lib.ValueIdx

noncomputable section

namespace Cert.GridSample.Finite

open Idealize.ShloMosaic Idealize.ShloMosaic.ValueIdx
open Cert.Pre_finite_inputs Cert.Lib.FiniteEntry

theorem args_real (a0 a1 : FVec Ideal S16384x3 .f32) (a2 : FVec Ideal S16384x256 .f32)
    (a3 : FVec Ideal S1x160x160x160 .f32) (a4 : FVec Ideal S3x160x160x160 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => entry_real _ a0 i (Host.reduce_andi_all _ _ _ _ _ h0' i),
    fun i => entry_real _ a1 i (Host.reduce_andi_all _ _ _ _ _ h1 i),
    fun i => entry_real _ a2 i (Host.reduce_andi_all _ _ _ _ _ h2 i),
    fun i => entry_real _ a3 i (Host.reduce_andi_all _ _ _ _ _ h3 i),
    fun i => entry_real _ a4 i (Host.reduce_andi_all _ _ _ _ _ h4 i)⟩

end Cert.GridSample.Finite

end
-- ==== Proof.KernelRun.lean ====
/-
  The kernel program's run, re-posted: from any memory whose argument entries are all finite, every weakly fair execution
  terminates with the density result and the colour result equal, element by element, to the reference program's two
  results computed from the same argument arrays, and the five argument arrays unchanged.
-/
import proofs.«178290_j77008763617691_2_alg».proof.Proof.KernelSide
import proofs.«178290_j77008763617691_2_alg».proof.Proof.KernelBridge
import proofs.«178290_j77008763617691_2_alg».proof.Proof.RefSide
import proofs.«178290_j77008763617691_2_alg».proof.Proof.FiniteArgs
import proofs.«178290_j77008763617691_2_alg».proof.Defs

set_option maxRecDepth 16384

noncomputable section

namespace Cert.KernelIdeal.Run

open Cert.KernelIdeal Cert.KernelIdeal.Gen Cert.KernelIdeal.Hand Cert.KernelIdeal.Side
open Idealize.ShloMosaic Idealize.ShloMosaic.TcCoe Idealize.ShloMosaic.ValueIdx Idealize.SL.Sem
open Cert.GridSample
open Cert.ReferenceIdeal.Read

variable (m : (ℓ : Loc nD τ sig) → Buf (Elt Ideal) ℓ) (ρ : Dev nD → PrngReg)

/-- The host prefix's position chain is the reference's: the ten equations, gathered. -/
theorem bridged (c : Dev nD) : Side.Bridged m c :=
  ⟨Bridge.V_frac m c, Bridge.V_norm m c, Bridge.V_lin0 m c, Bridge.V_lin1 m c, Bridge.V_lin2 m c, Bridge.V_lin3 m c,
    Bridge.V_lin4 m c, Bridge.V_lin5 m c, Bridge.V_lin6 m c, Bridge.V_lin7 m c⟩

/-- The density result, as a whole array, is the reference's density stage of the kernel's arguments. -/
theorem density_eq (hpre : Cert.Pre_KernelIdeal m) (c : Dev nD) :
    Pipeline.afterTail₀ cfgs (dats m) 0 (V0 m) [hostOps1] c main_v123
      = val_main_v210 (F := Ideal) (a0 m c) (a1 m c) (a2 m c) (a3 m c) := by
  obtain ⟨h0, h1, h2, h3, -⟩ := Finite.args_real (a0 m c) (a1 m c) (a2 m c) (a3 m c) (a4 m c) (hpre c)
  funext i
  obtain ⟨r, p, z, rfl⟩ : ∃ (r : Fin 16384) (p : Fin 256) (z : Fin 1), i = ix3 r p z := ⟨i 0, i 1, i 2, eq_ix3 i⟩
  obtain rfl : z = 0 := Subsingleton.elim _ _
  rw [Side.density_apply m c (bridged m c) h0 h1 h2 h3 r p]
  exact (Cert.RefSide.density_apply (a0 m c) (a1 m c) (a2 m c) (a3 m c) r p).symm

/-- The colour result, as a whole array, is the reference's colour stage of the kernel's arguments. -/
theorem color_eq (c : Dev nD) :
    Pipeline.afterTail₀ cfgs (dats m) 0 (V0 m) [hostOps1] c main_v126
      = val_main_v414 (F := Ideal) (a0 m c) (a1 m c) (a2 m c) (a4 m c) := by
  funext i
  obtain ⟨r, p, ch, rfl⟩ : ∃ (r : Fin 16384) (p : Fin 256) (ch : Fin 3), i = ix3 r p ch := ⟨i 0, i 1, i 2, eq_ix3 i⟩
  rw [Side.color_apply m c (bridged m c) r p ch]
  exact (Cert.RefSide.color_apply (a0 m c) (a1 m c) (a2 m c) (a4 m c) r p ch).symm

/-- The run. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v123) = val_main_v210 (F := Ideal) (a0 m c) (a1 m c) (a2 m c) (a3 m c)
      ∧ r.2.mem ((c.tc : Thread nD τ).loc main_v126) = val_main_v414 (F := Ideal) (a0 m c) (a1 m c) (a2 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v123 (Pipeline.mem_restRefs_of main_v123 (by decide) (by decide))).trans (density_eq m hpre c),
     ((h c).2 main_v126 (Pipeline.mem_restRefs_of main_v126 (by decide) (by decide))).trans (color_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Run

end
-- ==== Proof.lean ====
/-
  The five claims.

  * The two kernel programs (the word-level one and its idealization are the same text): every execution terminates and
    leaves the five argument arrays unchanged — the region's blocks tile its arrays, the body reads its three input blocks
    and writes its output block whole, and no host operation writes an argument.
  * The reference program is a straight line of host operations: its run gives each result at the operations' composed term
    of the arguments and leaves the arguments unchanged.
  * The idealization rewrote nothing, so there is nothing to preserve.
  * At exact extended-real arithmetic, from finite inputs, both programs compute, for sample p of ray r, the density
    1 - (1 + exp (raw + shift)) ^ (-T) and the colours 1 / (1 + exp (-raw)), where raw is the trilinear combination of the
    eight grid values at the corners of the sample's cell and T the length of the ray's direction: the kernel gathers the
    corners on the host into a [channel, corner, point] array and combines them in its body, with the density written as
    1 - exp (-T · softplus (raw + shift)) and the softplus taken by parts; the reference combines them on the host.
-/
import proofs.«178290_j77008763617691_2_alg».proof.Defs
import proofs.«178290_j77008763617691_2_alg».proof.Proof.Gen.Kernel
import proofs.«178290_j77008763617691_2_alg».proof.Proof.Gen.KernelIdeal
import proofs.«178290_j77008763617691_2_alg».proof.Proof.Gen.ReferenceIdeal
import proofs.«178290_j77008763617691_2_alg».proof.Proof.Gen.Pre_finite_inputs
import proofs.«178290_j77008763617691_2_alg».proof.Proof.FrameBits
import proofs.«178290_j77008763617691_2_alg».proof.Proof.FrameIdeal
import proofs.«178290_j77008763617691_2_alg».proof.Proof.KernelRun
import proofs.«178290_j77008763617691_2_alg».proof.Proof.RefRun
import proofs.«178290_j77008763617691_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.Read

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The reference run's two result terms are its last two stages. -/
theorem ref_density_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v210 m c
      = val_main_v210 (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) := by
  unfold Cert.ReferenceIdeal.Value.res_main_v210; rfl

theorem ref_color_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v414 m c
      = val_main_v414 (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg4)) := by
  unfold Cert.ReferenceIdeal.Value.res_main_v414; rfl

theorem algebraic : Cert.algebraic_KernelIdeal_ReferenceIdeal := by
  intro m ρ m' ρ' hpre hagree
  refine ⟨fun c => val_main_v210 (F := Ideal) (Cert.KernelIdeal.Side.a0 m c) (Cert.KernelIdeal.Side.a1 m c)
      (Cert.KernelIdeal.Side.a2 m c) (Cert.KernelIdeal.Side.a3 m c),
    fun c => val_main_v414 (F := Ideal) (Cert.KernelIdeal.Side.a0 m c) (Cert.KernelIdeal.Side.a1 m c)
      (Cert.KernelIdeal.Side.a2 m c) (Cert.KernelIdeal.Side.a4 m c),
    Cert.KernelIdeal.Run.run m ρ hpre, ?_⟩
  refine (θ_run Cert.ReferenceIdeal.defs _ _).mono (fun _ h c => ?_) (Cert.ReferenceIdeal.Value.run (F := Ideal) m' ρ')
  obtain ⟨e0, e1, e2, e3, e4⟩ := hagree c
  obtain ⟨h210, h414, hrest⟩ := h c
  refine ⟨h210.trans ?_, h414.trans ?_, hrest⟩
  · rw [ref_density_eq, e0, e1, e2, e3]
  · rw [ref_color_eq, e0, e1, e2, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
